-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S128x128 : Shape := ⟨2, ![128, 128]⟩
abbrev S1000000 : Shape := ⟨1, ![1000000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S1000000 : S_.BroadcastsInDim S1000000 (![] : Fin 0 → Fin S1000000.rank)
  reducesTo_S1000000_S_d0 : S1000000.ReducesTo [0] S_

variable [Facts]

def fn_part2 {F : FTy → Type} [FloatOps F] (main_arg7 : IVec S1000000 32) (main_arg9 : IVec S1000000 32) (main_v30 : IVec S_ 1) (main_v32 : IVec S1000000 1) (main_c_12 : IVec S_ 32) : IVec S_ 1 :=
  let main_v33 : IVec S1000000 32 := broadcastInDim S1000000 ![] bcast_S_S1000000 main_c_12
  let main_v34 : IVec S1000000 1 := cmpi .slt main_arg7 main_v33
  let main_v35 : IVec S1000000 1 := andi main_v32 main_v34
  let main_c_13 : IVec S_ 1 := constantI S_ 1 1#1
  let main_v36 : IVec S_ 1 := (fun x v => Host.reduce IntOp.andi x v reducesTo_S1000000_S_d0 h_S_) main_v35 main_c_13
  let main_v37 : IVec S_ 1 := andi main_v30 main_v36
  let main_c_14 : IVec S_ 32 := constantI S_ 32 0#32
  let main_v38 : IVec S1000000 32 := broadcastInDim S1000000 ![] bcast_S_S1000000 main_c_14
  let main_v39 : IVec S1000000 1 := cmpi .sge main_arg9 main_v38
  let main_c_15 : IVec S_ 32 := constantI S_ 32 100000#32
  let main_v40 : IVec S1000000 32 := broadcastInDim S1000000 ![] bcast_S_S1000000 main_c_15
  let main_v41 : IVec S1000000 1 := cmpi .slt main_arg9 main_v40
  let main_v42 : IVec S1000000 1 := andi main_v39 main_v41
  let main_c_16 : IVec S_ 1 := constantI S_ 1 1#1
  let main_v43 : IVec S_ 1 := (fun x v => Host.reduce IntOp.andi x v reducesTo_S1000000_S_d0 h_S_) main_v42 main_c_16
  let main_v44 : IVec S_ 1 := andi main_v37 main_v43
  main_v44

def fn_part1 {F : FTy → Type} [FloatOps F] (main_arg4 : FVec F S128x128 .f32) (main_arg5 : IVec S1000000 32) (main_arg7 : IVec S1000000 32) (main_arg9 : IVec S1000000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_c_8 : IVec S_ 32 := constantI S_ 32 0#32
  let main_v24 : IVec S1000000 32 := broadcastInDim S1000000 ![] bcast_S_S1000000 main_c_8
  let main_v25 : IVec S1000000 1 := cmpi .sge main_arg5 main_v24
  let main_c_9 : IVec S_ 32 := constantI S_ 32 100000#32
  let main_v26 : IVec S1000000 32 := broadcastInDim S1000000 ![] bcast_S_S1000000 main_c_9
  let main_v27 : IVec S1000000 1 := cmpi .slt main_arg5 main_v26
  let main_v28 : IVec S1000000 1 := andi main_v25 main_v27
  let main_c_10 : IVec S_ 1 := constantI S_ 1 1#1
  let main_v29 : IVec S_ 1 := (fun x v => Host.reduce IntOp.andi x v reducesTo_S1000000_S_d0 h_S_) main_v28 main_c_10
  let main_v30 : IVec S_ 1 := andi main_v23 main_v29
  let main_c_11 : IVec S_ 32 := constantI S_ 32 0#32
  let main_v31 : IVec S1000000 32 := broadcastInDim S1000000 ![] bcast_S_S1000000 main_c_11
  let main_v32 : IVec S1000000 1 := cmpi .sge main_arg7 main_v31
  let main_c_12 : IVec S_ 32 := constantI S_ 32 50000#32
  fn_part2 (F := F) main_arg7 main_arg9 main_v30 main_v32 main_c_12

def fn {F : FTy → Type} [FloatOps F] (main_arg0 : FVec F S100000x128 .f32) (main_arg1 : FVec F S50000x128 .f32) (main_arg2 : FVec F S128x128 .f32) (main_arg3 : FVec F S128x128 .f32) (main_arg4 : FVec F S128x128 .f32) (main_arg5 : IVec S1000000 32) (main_arg6 : IVec S1000000 32) (main_arg7 : IVec S1000000 32) (main_arg8 : IVec S1000000 32) (main_arg9 : IVec S1000000 32) (main_arg10 : IVec S1000000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg7 main_arg9 main_v13 main_v16
-- ==== Kernel.lean ====
abbrev S100000x128 : Shape := ⟨2, ![100000, 128]⟩
abbrev S50000x128 : Shape := ⟨2, ![50000, 128]⟩
abbrev S128x128 : Shape := ⟨2, ![128, 128]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S50000 : Shape := ⟨1, ![50000]⟩
abbrev S100000x1 : Shape := ⟨2, ![100000, 1]⟩
abbrev S1000000x128 : Shape := ⟨2, ![1000000, 128]⟩
abbrev S50000x1 : Shape := ⟨2, ![50000, 1]⟩
abbrev S2000x128 : Shape := ⟨2, ![2000, 128]⟩

abbrev nBuf : Space → Nat
  | .hbm => 186
  | .vmem => 15
  | .smem => 0
  | _ => 0

abbrev hbmTy0_0 (i : Nat) : BufTy := match i % 128 with
  | 0 => ⟨S100000x128, .f32⟩
  | 1 => ⟨S50000x128, .f32⟩
  | 2 => ⟨S128x128, .f32⟩
  | 3 => ⟨S128x128, .f32⟩
  | 4 => ⟨S128x128, .f32⟩
  | 5 => ⟨S1000000, .i32⟩
  | 6 => ⟨S1000000, .i32⟩
  | 7 => ⟨S1000000, .i32⟩
  | 8 => ⟨S1000000, .i32⟩
  | 9 => ⟨S1000000, .i32⟩
  | 10 => ⟨S1000000, .i32⟩
  | 11 => ⟨S100000x128, .bf16⟩
  | 12 => ⟨S_, .f32⟩
  | 13 => ⟨S1000000, .f32⟩
  | 14 => ⟨S_, .f32⟩
  | 15 => ⟨S100000, .f32⟩
  | 16 => ⟨S1000000x1, .i32⟩
  | 17 => ⟨S100000, .f32⟩
  | 18 => ⟨S_, .f32⟩
  | 19 => ⟨S50000, .f32⟩
  | 20 => ⟨S1000000x1, .i32⟩
  | 21 => ⟨S50000, .f32⟩
  | 22 => ⟨S_, .f32⟩
  | 23 => ⟨S100000, .f32⟩
  | 24 => ⟨S100000, .f32⟩
  | 25 => ⟨S100000, .f32⟩
  | 26 => ⟨S_, .f32⟩
  | 27 => ⟨S100000, .f32⟩
  | 28 => ⟨S100000, .i1⟩
  | 29 => ⟨S_, .f32⟩
  | 30 => ⟨S_, .f32⟩
  | 31 => ⟨S100000, .f32⟩
  | 32 => ⟨S100000, .f32⟩
  | 33 => ⟨S_, .f32⟩
  | 34 => ⟨S50000, .f32⟩
  | 35 => ⟨S50000, .f32⟩
  | 36 => ⟨S50000, .f32⟩
  | 37 => ⟨S_, .f32⟩
  | 38 => ⟨S50000, .f32⟩
  | 39 => ⟨S50000, .i1⟩
  | 40 => ⟨S_, .f32⟩
  | 41 => ⟨S_, .f32⟩
  | 42 => ⟨S50000, .f32⟩
  | 43 => ⟨S50000, .f32⟩
  | 44 => ⟨S100000x128, .f32⟩
  | 45 => ⟨S100000x1, .f32⟩
  | 46 => ⟨S100000x128, .f32⟩
  | 47 => ⟨S100000x128, .f32⟩
  | 48 => ⟨S100000x128, .bf16⟩
  | 49 => ⟨S_, .i32⟩
  | 50 => ⟨S1000000, .i32⟩
  | 51 => ⟨S1000000, .i1⟩
  | 52 => ⟨S_, .i32⟩
  | 53 => ⟨S1000000, .i32⟩
  | 54 => ⟨S1000000, .i32⟩
  | 55 => ⟨S1000000, .i32⟩
  | 56 => ⟨S1000000x1, .i32⟩
  | 57 => ⟨S1000000x128, .bf16⟩
  | 58 => ⟨S1000000x128, .f32⟩
  | 59 => ⟨S_, .f32⟩
  | 60 => ⟨S50000x128, .f32⟩
  | 61 => ⟨S1000000x1, .i32⟩
  | 62 => ⟨S50000x128, .f32⟩
  | 63 => ⟨S50000x1, .f32⟩
  | 64 => ⟨S50000x128, .f32⟩
  | 65 => ⟨S50000x128, .f32⟩
  | 66 => ⟨S50000x128, .bf16⟩
  | 67 => ⟨S_, .f32⟩
  | 68 => ⟨S1000000, .f32⟩
  | 69 => ⟨S_, .f32⟩
  | 70 => ⟨S50000, .f32⟩
  | 71 => ⟨S1000000x1, .i32⟩
  | 72 => ⟨S50000, .f32⟩
  | 73 => ⟨S_, .f32⟩
  | 74 => ⟨S100000, .f32⟩
  | 75 => ⟨S1000000x1, .i32⟩
  | 76 => ⟨S100000, .f32⟩
  | 77 => ⟨S_, .f32⟩
  | 78 => ⟨S50000, .f32⟩
  | 79 => ⟨S50000, .f32⟩
  | 80 => ⟨S50000, .f32⟩
  | 81 => ⟨S_, .f32⟩
  | 82 => ⟨S50000, .f32⟩
  | 83 => ⟨S50000, .i1⟩
  | 84 => ⟨S_, .f32⟩
  | 85 => ⟨S_, .f32⟩
  | 86 => ⟨S50000, .f32⟩
  | 87 => ⟨S50000, .f32⟩
  | 88 => ⟨S_, .f32⟩
  | 89 => ⟨S100000, .f32⟩
  | 90 => ⟨S100000, .f32⟩
  | 91 => ⟨S100000, .f32⟩
  | 92 => ⟨S_, .f32⟩
  | 93 => ⟨S100000, .f32⟩
  | 94 => ⟨S100000, .i1⟩
  | 95 => ⟨S_, .f32⟩
  | 96 => ⟨S_, .f32⟩
  | 97 => ⟨S100000, .f32⟩
  | 98 => ⟨S100000, .f32⟩
  | 99 => ⟨S50000x128, .f32⟩
  | 100 => ⟨S50000x1, .f32⟩
  | 101 => ⟨S50000x128, .f32⟩
  | 102 => ⟨S50000x128, .f32⟩
  | 103 => ⟨S50000x128, .bf16⟩
  | 104 => ⟨S_, .i32⟩
  | 105 => ⟨S1000000, .i32⟩
  | 106 => ⟨S1000000, .i1⟩
  | 107 => ⟨S_, .i32⟩
  | 108 => ⟨S1000000, .i32⟩
  | 109 => ⟨S1000000, .i32⟩
  | 110 => ⟨S1000000, .i32⟩
  | 111 => ⟨S1000000x1, .i32⟩
  | 112 => ⟨S1000000x128, .bf16⟩
  | 113 => ⟨S1000000x128, .f32⟩
  | 114 => ⟨S_, .f32⟩
  | 115 => ⟨S100000x128, .f32⟩
  | 116 => ⟨S1000000x1, .i32⟩
  | 117 => ⟨S100000x128, .f32⟩
  | 118 => ⟨S100000x1, .f32⟩
  | 119 => ⟨S100000x128, .f32⟩
  | 120 => ⟨S100000x128, .f32⟩
  | 121 => ⟨S100000x128, .bf16⟩
  | 122 => ⟨S_, .f32⟩
  | 123 => ⟨S1000000, .f32⟩
  | 124 => ⟨S_, .f32⟩
  | 125 => ⟨S100000, .f32⟩
  | 126 => ⟨S1000000x1, .i32⟩
  | 127 => ⟨S100000, .f32⟩
  | _ => ⟨S100000x128, .f32⟩

abbrev hbmTy0_1 (i : Nat) : BufTy := match i % 128 with
  | 0 => ⟨S_, .f32⟩
  | 1 => ⟨S100000, .f32⟩
  | 2 => ⟨S1000000x1, .i32⟩
  | 3 => ⟨S100000, .f32⟩
  | 4 => ⟨S_, .f32⟩
  | 5 => ⟨S100000, .f32⟩
  | 6 => ⟨S100000, .f32⟩
  | 7 => ⟨S100000, .f32⟩
  | 8 => ⟨S_, .f32⟩
  | 9 => ⟨S100000, .f32⟩
  | 10 => ⟨S100000, .i1⟩
  | 11 => ⟨S_, .f32⟩
  | 12 => ⟨S_, .f32⟩
  | 13 => ⟨S100000, .f32⟩
  | 14 => ⟨S100000, .f32⟩
  | 15 => ⟨S_, .f32⟩
  | 16 => ⟨S100000, .f32⟩
  | 17 => ⟨S100000, .f32⟩
  | 18 => ⟨S100000, .f32⟩
  | 19 => ⟨S_, .f32⟩
  | 20 => ⟨S100000, .f32⟩
  | 21 => ⟨S100000, .i1⟩
  | 22 => ⟨S_, .f32⟩
  | 23 => ⟨S_, .f32⟩
  | 24 => ⟨S100000, .f32⟩
  | 25 => ⟨S100000, .f32⟩
  | 26 => ⟨S100000x128, .f32⟩
  | 27 => ⟨S100000x1, .f32⟩
  | 28 => ⟨S100000x128, .f32⟩
  | 29 => ⟨S100000x128, .f32⟩
  | 30 => ⟨S100000x128, .bf16⟩
  | 31 => ⟨S_, .i32⟩
  | 32 => ⟨S1000000, .i32⟩
  | 33 => ⟨S1000000, .i1⟩
  | 34 => ⟨S_, .i32⟩
  | 35 => ⟨S1000000, .i32⟩
  | 36 => ⟨S1000000, .i32⟩
  | 37 => ⟨S1000000, .i32⟩
  | 38 => ⟨S1000000x1, .i32⟩
  | 39 => ⟨S1000000x128, .bf16⟩
  | 40 => ⟨S1000000x128, .f32⟩
  | 41 => ⟨S_, .f32⟩
  | 42 => ⟨S100000x128, .f32⟩
  | 43 => ⟨S1000000x1, .i32⟩
  | 44 => ⟨S100000x128, .f32⟩
  | 45 => ⟨S100000x1, .f32⟩
  | 46 => ⟨S100000x128, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S_, .f32⟩
  | 53 => ⟨S100000x128, .f32⟩
  | 54 => ⟨S100000x128, .f32⟩
  | 55 => ⟨S_, .f32⟩
  | 56 => ⟨S50000x128, .f32⟩
  | 57 => ⟨S50000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .bf16⟩
  | .local _ .vmem, ⟨4, _⟩ => ⟨S2000x128, .bf16⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x128, .bf16⟩
  | .local _ .vmem, ⟨9, _⟩ => ⟨S2000x128, .bf16⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .bf16⟩
  | .local _ .vmem, ⟨14, _⟩ => ⟨S2000x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_cst_1 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_2 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_cst_3 : Ref sig .tc := ⟨.hbm, 26, rfl⟩
abbrev main_call0_v11 : Ref sig .tc := ⟨.hbm, 27, rfl⟩
abbrev main_call0_v12 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_v13 : Ref sig .tc := ⟨.hbm, 32, rfl⟩
abbrev main_call0_cst_5 : Ref sig .tc := ⟨.hbm, 33, rfl⟩
abbrev main_call0_v14 : Ref sig .tc := ⟨.hbm, 34, rfl⟩
abbrev main_call0_v15 : Ref sig .tc := ⟨.hbm, 35, rfl⟩
abbrev main_call0_v16 : Ref sig .tc := ⟨.hbm, 36, rfl⟩
abbrev main_call0_cst_6 : Ref sig .tc := ⟨.hbm, 37, rfl⟩
abbrev main_call0_v17 : Ref sig .tc := ⟨.hbm, 38, rfl⟩
abbrev main_call0_v18 : Ref sig .tc := ⟨.hbm, 39, rfl⟩
abbrev main_call0_cst_7 : Ref sig .tc := ⟨.hbm, 40, rfl⟩
abbrev main_call0_call1_v0 : Ref sig .tc := ⟨.hbm, 41, rfl⟩
abbrev main_call0_call1_v1 : Ref sig .tc := ⟨.hbm, 42, rfl⟩
abbrev main_call0_v19 : Ref sig .tc := ⟨.hbm, 43, rfl⟩
abbrev main_call0_v20 : Ref sig .tc := ⟨.hbm, 44, rfl⟩
abbrev main_call0_v21 : Ref sig .tc := ⟨.hbm, 45, rfl⟩
abbrev main_call0_v22 : Ref sig .tc := ⟨.hbm, 46, rfl⟩
abbrev main_call0_v23 : Ref sig .tc := ⟨.hbm, 47, rfl⟩
abbrev main_call0_v24 : Ref sig .tc := ⟨.hbm, 48, rfl⟩
abbrev main_call0_c : Ref sig .tc := ⟨.hbm, 49, rfl⟩
abbrev main_call0_v25 : Ref sig .tc := ⟨.hbm, 50, rfl⟩
abbrev main_call0_v26 : Ref sig .tc := ⟨.hbm, 51, rfl⟩
abbrev main_call0_c_8 : Ref sig .tc := ⟨.hbm, 52, rfl⟩
abbrev main_call0_v27 : Ref sig .tc := ⟨.hbm, 53, rfl⟩
abbrev main_call0_v28 : Ref sig .tc := ⟨.hbm, 54, rfl⟩
abbrev main_call0_v29 : Ref sig .tc := ⟨.hbm, 55, rfl⟩
abbrev main_call0_v30 : Ref sig .tc := ⟨.hbm, 56, rfl⟩
abbrev main_call0_v31 : Ref sig .tc := ⟨.hbm, 57, rfl⟩
abbrev main_call0_v32 : Ref sig .tc := ⟨.hbm, 58, rfl⟩
abbrev main_call0_cst_9 : Ref sig .tc := ⟨.hbm, 59, rfl⟩
abbrev main_call0_v33 : Ref sig .tc := ⟨.hbm, 60, rfl⟩
abbrev main_call0_v34 : Ref sig .tc := ⟨.hbm, 61, rfl⟩
abbrev main_call0_v35 : Ref sig .tc := ⟨.hbm, 62, rfl⟩
abbrev main_call0_v36 : Ref sig .tc := ⟨.hbm, 63, rfl⟩
abbrev main_call0_v37 : Ref sig .tc := ⟨.hbm, 64, rfl⟩
abbrev main_call0_v38 : Ref sig .tc := ⟨.hbm, 65, rfl⟩
abbrev main_call0_v39 : Ref sig .tc := ⟨.hbm, 66, rfl⟩
abbrev main_call0_cst_10 : Ref sig .tc := ⟨.hbm, 67, rfl⟩
abbrev main_call0_v40 : Ref sig .tc := ⟨.hbm, 68, rfl⟩
abbrev main_call0_cst_11 : Ref sig .tc := ⟨.hbm, 69, rfl⟩
abbrev main_call0_v41 : Ref sig .tc := ⟨.hbm, 70, rfl⟩
abbrev main_call0_v42 : Ref sig .tc := ⟨.hbm, 71, rfl⟩
abbrev main_call0_v43 : Ref sig .tc := ⟨.hbm, 72, rfl⟩
abbrev main_call0_cst_12 : Ref sig .tc := ⟨.hbm, 73, rfl⟩
abbrev main_call0_v44 : Ref sig .tc := ⟨.hbm, 74, rfl⟩
abbrev main_call0_v45 : Ref sig .tc := ⟨.hbm, 75, rfl⟩
abbrev main_call0_v46 : Ref sig .tc := ⟨.hbm, 76, rfl⟩
abbrev main_call0_cst_13 : Ref sig .tc := ⟨.hbm, 77, rfl⟩
abbrev main_call0_v47 : Ref sig .tc := ⟨.hbm, 78, rfl⟩
abbrev main_call0_v48 : Ref sig .tc := ⟨.hbm, 79, rfl⟩
abbrev main_call0_v49 : Ref sig .tc := ⟨.hbm, 80, rfl⟩
abbrev main_call0_cst_14 : Ref sig .tc := ⟨.hbm, 81, rfl⟩
abbrev main_call0_v50 : Ref sig .tc := ⟨.hbm, 82, rfl⟩
abbrev main_call0_v51 : Ref sig .tc := ⟨.hbm, 83, rfl⟩
abbrev main_call0_cst_15 : Ref sig .tc := ⟨.hbm, 84, rfl⟩
abbrev main_call0_call2_v0 : Ref sig .tc := ⟨.hbm, 85, rfl⟩
abbrev main_call0_call2_v1 : Ref sig .tc := ⟨.hbm, 86, rfl⟩
abbrev main_call0_v52 : Ref sig .tc := ⟨.hbm, 87, rfl⟩
abbrev main_call0_cst_16 : Ref sig .tc := ⟨.hbm, 88, rfl⟩
abbrev main_call0_v53 : Ref sig .tc := ⟨.hbm, 89, rfl⟩
abbrev main_call0_v54 : Ref sig .tc := ⟨.hbm, 90, rfl⟩
abbrev main_call0_v55 : Ref sig .tc := ⟨.hbm, 91, rfl⟩
abbrev main_call0_cst_17 : Ref sig .tc := ⟨.hbm, 92, rfl⟩
abbrev main_call0_v56 : Ref sig .tc := ⟨.hbm, 93, rfl⟩
abbrev main_call0_v57 : Ref sig .tc := ⟨.hbm, 94, rfl⟩
abbrev main_call0_cst_18 : Ref sig .tc := ⟨.hbm, 95, rfl⟩
abbrev main_call0_call3_v0 : Ref sig .tc := ⟨.hbm, 96, rfl⟩
abbrev main_call0_call3_v1 : Ref sig .tc := ⟨.hbm, 97, rfl⟩
abbrev main_call0_v58 : Ref sig .tc := ⟨.hbm, 98, rfl⟩
abbrev main_call0_v59 : Ref sig .tc := ⟨.hbm, 99, rfl⟩
abbrev main_call0_v60 : Ref sig .tc := ⟨.hbm, 100, rfl⟩
abbrev main_call0_v61 : Ref sig .tc := ⟨.hbm, 101, rfl⟩
abbrev main_call0_v62 : Ref sig .tc := ⟨.hbm, 102, rfl⟩
abbrev main_call0_v63 : Ref sig .tc := ⟨.hbm, 103, rfl⟩
abbrev main_call0_c_19 : Ref sig .tc := ⟨.hbm, 104, rfl⟩
abbrev main_call0_v64 : Ref sig .tc := ⟨.hbm, 105, rfl⟩
abbrev main_call0_v65 : Ref sig .tc := ⟨.hbm, 106, rfl⟩
abbrev main_call0_c_20 : Ref sig .tc := ⟨.hbm, 107, rfl⟩
abbrev main_call0_v66 : Ref sig .tc := ⟨.hbm, 108, rfl⟩
abbrev main_call0_v67 : Ref sig .tc := ⟨.hbm, 109, rfl⟩
abbrev main_call0_v68 : Ref sig .tc := ⟨.hbm, 110, rfl⟩
abbrev main_call0_v69 : Ref sig .tc := ⟨.hbm, 111, rfl⟩
abbrev main_call0_v70 : Ref sig .tc := ⟨.hbm, 112, rfl⟩
abbrev main_call0_v71 : Ref sig .tc := ⟨.hbm, 113, rfl⟩
abbrev main_call0_cst_21 : Ref sig .tc := ⟨.hbm, 114, rfl⟩
abbrev main_call0_v72 : Ref sig .tc := ⟨.hbm, 115, rfl⟩
abbrev main_call0_v73 : Ref sig .tc := ⟨.hbm, 116, rfl⟩
abbrev main_call0_v74 : Ref sig .tc := ⟨.hbm, 117, rfl⟩
abbrev main_call0_v75 : Ref sig .tc := ⟨.hbm, 118, rfl⟩
abbrev main_call0_v76 : Ref sig .tc := ⟨.hbm, 119, rfl⟩
abbrev main_call0_v77 : Ref sig .tc := ⟨.hbm, 120, rfl⟩
abbrev main_call0_v78 : Ref sig .tc := ⟨.hbm, 121, rfl⟩
abbrev main_call0_cst_22 : Ref sig .tc := ⟨.hbm, 122, rfl⟩
abbrev main_call0_v79 : Ref sig .tc := ⟨.hbm, 123, rfl⟩
abbrev main_call0_cst_23 : Ref sig .tc := ⟨.hbm, 124, rfl⟩
abbrev main_call0_v80 : Ref sig .tc := ⟨.hbm, 125, rfl⟩
abbrev main_call0_v81 : Ref sig .tc := ⟨.hbm, 126, rfl⟩
abbrev main_call0_v82 : Ref sig .tc := ⟨.hbm, 127, rfl⟩
abbrev main_call0_cst_24 : Ref sig .tc := ⟨.hbm, 128, rfl⟩
abbrev main_call0_v83 : Ref sig .tc := ⟨.hbm, 129, rfl⟩
abbrev main_call0_v84 : Ref sig .tc := ⟨.hbm, 130, rfl⟩
abbrev main_call0_v85 : Ref sig .tc := ⟨.hbm, 131, rfl⟩
abbrev main_call0_cst_25 : Ref sig .tc := ⟨.hbm, 132, rfl⟩
abbrev main_call0_v86 : Ref sig .tc := ⟨.hbm, 133, rfl⟩
abbrev main_call0_v87 : Ref sig .tc := ⟨.hbm, 134, rfl⟩
abbrev main_call0_v88 : Ref sig .tc := ⟨.hbm, 135, rfl⟩
abbrev main_call0_cst_26 : Ref sig .tc := ⟨.hbm, 136, rfl⟩
abbrev main_call0_v89 : Ref sig .tc := ⟨.hbm, 137, rfl⟩
abbrev main_call0_v90 : Ref sig .tc := ⟨.hbm, 138, rfl⟩
abbrev main_call0_cst_27 : Ref sig .tc := ⟨.hbm, 139, rfl⟩
abbrev main_call0_call4_v0 : Ref sig .tc := ⟨.hbm, 140, rfl⟩
abbrev main_call0_call4_v1 : Ref sig .tc := ⟨.hbm, 141, rfl⟩
abbrev main_call0_v91 : Ref sig .tc := ⟨.hbm, 142, rfl⟩
abbrev main_call0_cst_28 : Ref sig .tc := ⟨.hbm, 143, rfl⟩
abbrev main_call0_v92 : Ref sig .tc := ⟨.hbm, 144, rfl⟩
abbrev main_call0_v93 : Ref sig .tc := ⟨.hbm, 145, rfl⟩
abbrev main_call0_v94 : Ref sig .tc := ⟨.hbm, 146, rfl⟩
abbrev main_call0_cst_29 : Ref sig .tc := ⟨.hbm, 147, rfl⟩
abbrev main_call0_v95 : Ref sig .tc := ⟨.hbm, 148, rfl⟩
abbrev main_call0_v96 : Ref sig .tc := ⟨.hbm, 149, rfl⟩
abbrev main_call0_cst_30 : Ref sig .tc := ⟨.hbm, 150, rfl⟩
abbrev main_call0_call5_v0 : Ref sig .tc := ⟨.hbm, 151, rfl⟩
abbrev main_call0_call5_v1 : Ref sig .tc := ⟨.hbm, 152, rfl⟩
abbrev main_call0_v97 : Ref sig .tc := ⟨.hbm, 153, rfl⟩
abbrev main_call0_v98 : Ref sig .tc := ⟨.hbm, 154, rfl⟩
abbrev main_call0_v99 : Ref sig .tc := ⟨.hbm, 155, rfl⟩
abbrev main_call0_v100 : Ref sig .tc := ⟨.hbm, 156, rfl⟩
abbrev main_call0_v101 : Ref sig .tc := ⟨.hbm, 157, rfl⟩
abbrev main_call0_v102 : Ref sig .tc := ⟨.hbm, 158, rfl⟩
abbrev main_call0_c_31 : Ref sig .tc := ⟨.hbm, 159, rfl⟩
abbrev main_call0_v103 : Ref sig .tc := ⟨.hbm, 160, rfl⟩
abbrev main_call0_v104 : Ref sig .tc := ⟨.hbm, 161, rfl⟩
abbrev main_call0_c_32 : Ref sig .tc := ⟨.hbm, 162, rfl⟩
abbrev main_call0_v105 : Ref sig .tc := ⟨.hbm, 163, rfl⟩
abbrev main_call0_v106 : Ref sig .tc := ⟨.hbm, 164, rfl⟩
abbrev main_call0_v107 : Ref sig .tc := ⟨.hbm, 165, rfl⟩
abbrev main_call0_v108 : Ref sig .tc := ⟨.hbm, 166, rfl⟩
abbrev main_call0_v109 : Ref sig .tc := ⟨.hbm, 167, rfl⟩
abbrev main_call0_v110 : Ref sig .tc := ⟨.hbm, 168, rfl⟩
abbrev main_call0_cst_33 : Ref sig .tc := ⟨.hbm, 169, rfl⟩
abbrev main_call0_v111 : Ref sig .tc := ⟨.hbm, 170, rfl⟩
abbrev main_call0_v112 : Ref sig .tc := ⟨.hbm, 171, rfl⟩
abbrev main_call0_v113 : Ref sig .tc := ⟨.hbm, 172, rfl⟩
abbrev main_call0_v114 : Ref sig .tc := ⟨.hbm, 173, rfl⟩
abbrev main_call0_v115 : Ref sig .tc := ⟨.hbm, 174, rfl⟩
abbrev main_call0_v116 : Ref sig .tc := ⟨.hbm, 175, rfl⟩
abbrev main_call0_v117 : Ref sig .tc := ⟨.hbm, 176, rfl⟩
abbrev main_call0_cst_34 : Ref sig .tc := ⟨.hbm, 177, rfl⟩
abbrev main_call0_v118 : Ref sig .tc := ⟨.hbm, 178, rfl⟩
abbrev main_call0_v119 : Ref sig .tc := ⟨.hbm, 179, rfl⟩
abbrev main_call0_call6_cst : Ref sig .tc := ⟨.hbm, 180, rfl⟩
abbrev main_call0_call6_v0 : Ref sig .tc := ⟨.hbm, 181, rfl⟩
abbrev main_v0_0 : Ref sig .tc := ⟨.hbm, 182, rfl⟩
abbrev main_call0_call7_cst : Ref sig .tc := ⟨.hbm, 183, rfl⟩
abbrev main_call0_call7_v0 : Ref sig .tc := ⟨.hbm, 184, rfl⟩
abbrev main_v0_1 : Ref sig .tc := ⟨.hbm, 185, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S50000 : S_.BroadcastsInDim S50000 (![] : Fin 0 → Fin S50000.rank)
  bitsLt_bf16_f32 : FTy.bits .bf16 < FTy.bits .f32
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S100000x128 : S_.BroadcastsInDim S100000x128 (![] : Fin 0 → Fin S100000x128.rank)
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  packedbf16_S2000x128_S2000x128_0_0 : (Rect.unit (s := S2000x128) ![0, 0] S2000x128.size inb_S2000x128_S2000x128_0_0).PackedRows (EltTy.packing .bf16)
  scatter_S100000_S1000000x1_S1000000_n_0_0_1_wf : ScatterDims.WF S100000 S1000000x1 S1000000 [] [0] [0] 1
  scatter_S50000_S1000000x1_S1000000_n_0_0_1_wf : ScatterDims.WF S50000 S1000000x1 S1000000 [] [0] [0] 1
  gather_S100000x128_S1000000x1_S1000000x128_1_0_n_n_0_1_1128_wf : GatherDims.WF S100000x128 S1000000x1 S1000000x128 [1] [0] [] [0] [] 1 ![1, 128]
  scatter_S50000x128_S1000000x1_S1000000x128_1_0_0_1_wf : ScatterDims.WF S50000x128 S1000000x1 S1000000x128 [1] [0] [0] 1
  gather_S50000x128_S1000000x1_S1000000x128_1_0_n_n_0_1_1128_wf : GatherDims.WF S50000x128 S1000000x1 S1000000x128 [1] [0] [] [0] [] 1 ![1, 128]
  scatter_S100000x128_S1000000x1_S1000000x128_1_0_0_1_wf : ScatterDims.WF S100000x128 S1000000x1 S1000000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .bf16 = 32 ∨ (Rect.block (s := S100000x128) S2000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .bf16 = 32 ∨ (Rect.block (s := S50000x128) S2000x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .bf16 = 32 ∨ (Rect.block (s := S100000x128) S2000x128.size (cc2_transform_2 i) (hinb2_2 i)).WholeWords (EltTy.packing .bf16)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v39) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v78) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S128x128 : Shape := ⟨2, ![128, 128]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S50000 : Shape := ⟨1, ![50000]⟩
abbrev S1000000x128 : Shape := ⟨2, ![1000000, 128]⟩

abbrev nBuf : Space → Nat
  | .hbm => 162
  | .vmem => 0
  | .smem => 0
  | _ => 0

abbrev hbmTy0_0 (i : Nat) : BufTy := match i % 128 with
  | 0 => ⟨S100000x128, .f32⟩
  | 1 => ⟨S50000x128, .f32⟩
  | 2 => ⟨S128x128, .f32⟩
  | 3 => ⟨S128x128, .f32⟩
  | 4 => ⟨S128x128, .f32⟩
  | 5 => ⟨S1000000, .i32⟩
  | 6 => ⟨S1000000, .i32⟩
  | 7 => ⟨S1000000, .i32⟩
  | 8 => ⟨S1000000, .i32⟩
  | 9 => ⟨S1000000, .i32⟩
  | 10 => ⟨S1000000, .i32⟩
  | 11 => ⟨S_, .f32⟩
  | 12 => ⟨S1000000, .f32⟩
  | 13 => ⟨S_, .f32⟩
  | 14 => ⟨S100000, .f32⟩
  | 15 => ⟨S1000000x1, .i32⟩
  | 16 => ⟨S100000, .f32⟩
  | 17 => ⟨S_, .f32⟩
  | 18 => ⟨S50000, .f32⟩
  | 19 => ⟨S1000000x1, .i32⟩
  | 20 => ⟨S50000, .f32⟩
  | 21 => ⟨S_, .i32⟩
  | 22 => ⟨S1000000, .i32⟩
  | 23 => ⟨S1000000, .i1⟩
  | 24 => ⟨S_, .i32⟩
  | 25 => ⟨S1000000, .i32⟩
  | 26 => ⟨S1000000, .i32⟩
  | 27 => ⟨S1000000, .i32⟩
  | 28 => ⟨S1000000x1, .i32⟩
  | 29 => ⟨S1000000, .f32⟩
  | 30 => ⟨S_, .i32⟩
  | 31 => ⟨S1000000, .i32⟩
  | 32 => ⟨S1000000, .i1⟩
  | 33 => ⟨S_, .i32⟩
  | 34 => ⟨S1000000, .i32⟩
  | 35 => ⟨S1000000, .i32⟩
  | 36 => ⟨S1000000, .i32⟩
  | 37 => ⟨S1000000x1, .i32⟩
  | 38 => ⟨S1000000, .f32⟩
  | 39 => ⟨S1000000, .f32⟩
  | 40 => ⟨S1000000, .f32⟩
  | 41 => ⟨S100000x128, .f32⟩
  | 42 => ⟨S_, .i32⟩
  | 43 => ⟨S1000000, .i32⟩
  | 44 => ⟨S1000000, .i1⟩
  | 45 => ⟨S_, .i32⟩
  | 46 => ⟨S1000000, .i32⟩
  | 47 => ⟨S1000000, .i32⟩
  | 48 => ⟨S1000000, .i32⟩
  | 49 => ⟨S1000000x1, .i32⟩
  | 50 => ⟨S1000000x128, .f32⟩
  | 51 => ⟨S1000000x1, .f32⟩
  | 52 => ⟨S1000000x128, .f32⟩
  | 53 => ⟨S1000000x128, .f32⟩
  | 54 => ⟨S_, .f32⟩
  | 55 => ⟨S50000x128, .f32⟩
  | 56 => ⟨S1000000x1, .i32⟩
  | 57 => ⟨S50000x128, .f32⟩
  | 58 => ⟨S_, .f32⟩
  | 59 => ⟨S1000000, .f32⟩
  | 60 => ⟨S_, .f32⟩
  | 61 => ⟨S50000, .f32⟩
  | 62 => ⟨S1000000x1, .i32⟩
  | 63 => ⟨S50000, .f32⟩
  | 64 => ⟨S_, .f32⟩
  | 65 => ⟨S100000, .f32⟩
  | 66 => ⟨S1000000x1, .i32⟩
  | 67 => ⟨S100000, .f32⟩
  | 68 => ⟨S_, .i32⟩
  | 69 => ⟨S1000000, .i32⟩
  | 70 => ⟨S1000000, .i1⟩
  | 71 => ⟨S_, .i32⟩
  | 72 => ⟨S1000000, .i32⟩
  | 73 => ⟨S1000000, .i32⟩
  | 74 => ⟨S1000000, .i32⟩
  | 75 => ⟨S1000000x1, .i32⟩
  | 76 => ⟨S1000000, .f32⟩
  | 77 => ⟨S_, .i32⟩
  | 78 => ⟨S1000000, .i32⟩
  | 79 => ⟨S1000000, .i1⟩
  | 80 => ⟨S_, .i32⟩
  | 81 => ⟨S1000000, .i32⟩
  | 82 => ⟨S1000000, .i32⟩
  | 83 => ⟨S1000000, .i32⟩
  | 84 => ⟨S1000000x1, .i32⟩
  | 85 => ⟨S1000000, .f32⟩
  | 86 => ⟨S1000000, .f32⟩
  | 87 => ⟨S1000000, .f32⟩
  | 88 => ⟨S50000x128, .f32⟩
  | 89 => ⟨S_, .i32⟩
  | 90 => ⟨S1000000, .i32⟩
  | 91 => ⟨S1000000, .i1⟩
  | 92 => ⟨S_, .i32⟩
  | 93 => ⟨S1000000, .i32⟩
  | 94 => ⟨S1000000, .i32⟩
  | 95 => ⟨S1000000, .i32⟩
  | 96 => ⟨S1000000x1, .i32⟩
  | 97 => ⟨S1000000x128, .f32⟩
  | 98 => ⟨S1000000x1, .f32⟩
  | 99 => ⟨S1000000x128, .f32⟩
  | 100 => ⟨S1000000x128, .f32⟩
  | 101 => ⟨S_, .f32⟩
  | 102 => ⟨S100000x128, .f32⟩
  | 103 => ⟨S1000000x1, .i32⟩
  | 104 => ⟨S100000x128, .f32⟩
  | 105 => ⟨S_, .f32⟩
  | 106 => ⟨S1000000, .f32⟩
  | 107 => ⟨S_, .f32⟩
  | 108 => ⟨S100000, .f32⟩
  | 109 => ⟨S1000000x1, .i32⟩
  | 110 => ⟨S100000, .f32⟩
  | 111 => ⟨S_, .f32⟩
  | 112 => ⟨S100000, .f32⟩
  | 113 => ⟨S1000000x1, .i32⟩
  | 114 => ⟨S100000, .f32⟩
  | 115 => ⟨S_, .i32⟩
  | 116 => ⟨S1000000, .i32⟩
  | 117 => ⟨S1000000, .i1⟩
  | 118 => ⟨S_, .i32⟩
  | 119 => ⟨S1000000, .i32⟩
  | 120 => ⟨S1000000, .i32⟩
  | 121 => ⟨S1000000, .i32⟩
  | 122 => ⟨S1000000x1, .i32⟩
  | 123 => ⟨S1000000, .f32⟩
  | 124 => ⟨S_, .i32⟩
  | 125 => ⟨S1000000, .i32⟩
  | 126 => ⟨S1000000, .i1⟩
  | 127 => ⟨S_, .i32⟩
  | _ => ⟨S100000x128, .f32⟩

abbrev hbmTy0_1 (i : Nat) : BufTy := match i % 128 with
  | 0 => ⟨S1000000, .i32⟩
  | 1 => ⟨S1000000, .i32⟩
  | 2 => ⟨S1000000, .i32⟩
  | 3 => ⟨S1000000x1, .i32⟩
  | 4 => ⟨S1000000, .f32⟩
  | 5 => ⟨S1000000, .f32⟩
  | 6 => ⟨S1000000, .f32⟩
  | 7 => ⟨S100000x128, .f32⟩
  | 8 => ⟨S_, .i32⟩
  | 9 => ⟨S1000000, .i32⟩
  | 10 => ⟨S1000000, .i1⟩
  | 11 => ⟨S_, .i32⟩
  | 12 => ⟨S1000000, .i32⟩
  | 13 => ⟨S1000000, .i32⟩
  | 14 => ⟨S1000000, .i32⟩
  | 15 => ⟨S1000000x1, .i32⟩
  | 16 => ⟨S1000000x128, .f32⟩
  | 17 => ⟨S1000000x1, .f32⟩
  | 18 => ⟨S1000000x128, .f32⟩
  | 19 => ⟨S1000000x128, .f32⟩
  | 20 => ⟨S_, .f32⟩
  | 21 => ⟨S100000x128, .f32⟩
  | 22 => ⟨S1000000x1, .i32⟩
  | 23 => ⟨S100000x128, .f32⟩
  | 24 => ⟨S100000x128, .f32⟩
  | 25 => ⟨S_, .f32⟩
  | 26 => ⟨S100000x128, .f32⟩
  | 27 => ⟨S100000x128, .f32⟩
  | 28 => ⟨S_, .f32⟩
  | 29 => ⟨S100000x128, .f32⟩
  | 30 => ⟨S100000x128, .f32⟩
  | 31 => ⟨S_, .f32⟩
  | 32 => ⟨S50000x128, .f32⟩
  | 33 => ⟨S50000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_10 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_11 : Ref sig .tc := ⟨.hbm, 68, rfl⟩
abbrev main_v44 : Ref sig .tc := ⟨.hbm, 69, rfl⟩
abbrev main_v45 : Ref sig .tc := ⟨.hbm, 70, rfl⟩
abbrev main_c_12 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_13 : Ref sig .tc := ⟨.hbm, 77, rfl⟩
abbrev main_v51 : Ref sig .tc := ⟨.hbm, 78, rfl⟩
abbrev main_v52 : Ref sig .tc := ⟨.hbm, 79, rfl⟩
abbrev main_c_14 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_15 : Ref sig .tc := ⟨.hbm, 89, rfl⟩
abbrev main_v61 : Ref sig .tc := ⟨.hbm, 90, rfl⟩
abbrev main_v62 : Ref sig .tc := ⟨.hbm, 91, rfl⟩
abbrev main_c_16 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_17 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_18 : Ref sig .tc := ⟨.hbm, 105, rfl⟩
abbrev main_v74 : Ref sig .tc := ⟨.hbm, 106, rfl⟩
abbrev main_cst_19 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_20 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_c_21 : Ref sig .tc := ⟨.hbm, 115, rfl⟩
abbrev main_v81 : Ref sig .tc := ⟨.hbm, 116, rfl⟩
abbrev main_v82 : Ref sig .tc := ⟨.hbm, 117, rfl⟩
abbrev main_c_22 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_c_23 : Ref sig .tc := ⟨.hbm, 124, rfl⟩
abbrev main_v88 : Ref sig .tc := ⟨.hbm, 125, rfl⟩
abbrev main_v89 : Ref sig .tc := ⟨.hbm, 126, rfl⟩
abbrev main_c_24 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_c_25 : Ref sig .tc := ⟨.hbm, 136, rfl⟩
abbrev main_v98 : Ref sig .tc := ⟨.hbm, 137, rfl⟩
abbrev main_v99 : Ref sig .tc := ⟨.hbm, 138, rfl⟩
abbrev main_c_26 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_27 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_28 : Ref sig .tc := ⟨.hbm, 153, rfl⟩
abbrev main_v112 : Ref sig .tc := ⟨.hbm, 154, rfl⟩
abbrev main_v113 : Ref sig .tc := ⟨.hbm, 155, rfl⟩
abbrev main_call0_cst : Ref sig .tc := ⟨.hbm, 156, rfl⟩
abbrev main_call0_v0 : Ref sig .tc := ⟨.hbm, 157, rfl⟩
abbrev main_v114 : Ref sig .tc := ⟨.hbm, 158, rfl⟩
abbrev main_call1_cst : Ref sig .tc := ⟨.hbm, 159, rfl⟩
abbrev main_call1_v0 : Ref sig .tc := ⟨.hbm, 160, rfl⟩
abbrev main_v115 : Ref sig .tc := ⟨.hbm, 161, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S50000 : S_.BroadcastsInDim S50000 (![] : Fin 0 → Fin S50000.rank)
  bcast_S1000000x1_S1000000x128_0_1 : S1000000x1.BroadcastsInDim S1000000x128 (![0, 1] : Fin 2 → Fin S1000000x128.rank)
  bcast_S_S50000x128 : S_.BroadcastsInDim S50000x128 (![] : Fin 0 → Fin S50000x128.rank)
  bcast_S_S100000x128 : S_.BroadcastsInDim S100000x128 (![] : Fin 0 → Fin S100000x128.rank)
  scatter_S100000_S1000000x1_S1000000_n_0_0_1_wf : ScatterDims.WF S100000 S1000000x1 S1000000 [] [0] [0] 1
  scatter_S50000_S1000000x1_S1000000_n_0_0_1_wf : ScatterDims.WF S50000 S1000000x1 S1000000 [] [0] [0] 1
  gather_S100000_S1000000x1_S1000000_n_0_n_n_0_1_1_wf : GatherDims.WF S100000 S1000000x1 S1000000 [] [0] [] [0] [] 1 ![1]
  gather_S50000_S1000000x1_S1000000_n_0_n_n_0_1_1_wf : GatherDims.WF S50000 S1000000x1 S1000000 [] [0] [] [0] [] 1 ![1]
  dot_S100000x128_S128x128_S100000x128_1_0_0_1_n_n_wf : DotDims.WF S100000x128 S128x128 S100000x128 [1] [0] [0] [1] [] []
  gather_S100000x128_S1000000x1_S1000000x128_1_0_n_n_0_1_1128_wf : GatherDims.WF S100000x128 S1000000x1 S1000000x128 [1] [0] [] [0] [] 1 ![1, 128]
  scatter_S50000x128_S1000000x1_S1000000x128_1_0_0_1_wf : ScatterDims.WF S50000x128 S1000000x1 S1000000x128 [1] [0] [0] 1
  dot_S50000x128_S128x128_S50000x128_1_0_0_1_n_n_wf : DotDims.WF S50000x128 S128x128 S50000x128 [1] [0] [0] [1] [] []
  gather_S50000x128_S1000000x1_S1000000x128_1_0_n_n_0_1_1128_wf : GatherDims.WF S50000x128 S1000000x1 S1000000x128 [1] [0] [] [0] [] 1 ![1, 128]
  scatter_S100000x128_S1000000x1_S1000000x128_1_0_0_1_wf : ScatterDims.WF S100000x128 S1000000x1 S1000000x128 [1] [0] [0] 1

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S50000_S1000000x1_S1000000_n_0_n_n_0_1_1 : GatherDims S50000 S1000000x1 S1000000 where
  offsetDims := []
  collapsedSliceDims := [0]
  operandBatchingDims := []
  startIndicesBatchingDims := []
  startIndexMap := [0]
  indexVectorDim := 1
  sliceSizes := ![1]
  wf := gather_S50000_S1000000x1_S1000000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf

class Facts : Prop extends Facts₀ where

variable [Facts]
-- ==== Proof.LibSegment.lean ====
/-
  Row gather and segment sum read at an index, over abstract extents `N` (rows of the table), `E` (number of start
  indices) and `C` (columns).

  * ROW GATHER. `stablehlo.gather` of a table `x : [N, C]` at start indices `idx : [E, 1]` with offset axis 1, collapsed
    axis 0, start index map `[0]`, index vector axis 1 and slice sizes `[1, C]` (what taking rows `x[src]` is) reads, at
    `(e, k)`, the table at row `idx[e, 0]` — the word read as a SIGNED integer and CLAMPED into `[0, N − 1]` — and
    column `k`: on axis 0 the operand coordinate is the clamped start, on axis 1 it is the offset coordinate `k`.
  * SEGMENT SUM. `stablehlo.scatter` with an add body into an operand `x : [N, C]` of updates `upd : [E, C]` at scatter
    indices `idx : [E, 1]` (update window axis 1, inserted window axis 0, scatter-dims-to-operand-dims `[0]`, index
    vector axis 1) is, at the extended reals and at `(i, k)`, `x (i, k)` plus the sum of `upd (e, k)` over the edges `e`
    whose index `idx[e, 0]`, read SIGNED and NOT clamped, equals `i`: update `(e, k')` lands at row `idx[e, 0]`, column
    `k'`, and is dropped when that row is outside `[0, N)`; so it lands on `(i, k)` exactly when `idx[e, 0] = i` and
    `k' = k`, and the filtered sum over update indices re-indexes to the sum over those edges.
  * The same for a vector operand `x : [N]` with updates `upd : [E]` (no window axis).
-/
import Idealize.ShloMosaic.PureOps.Ideal
import Idealize.ShloMosaic.Lib.ValueIdx

noncomputable section

open scoped BigOperators

namespace Cert.LibSegment

open Idealize.ShloMosaic Idealize.ShloMosaic.ValueIdx

/-- The row a start index names: read signed and clamped into `[0, N − 1]`. -/
def clampRow (N : ℕ) (hN : 0 < N) {w : ℕ} (v : BitVec w) : Fin N := ⟨min v.toInt.toNat (N - 1), by omega⟩

/-- The edges whose index, read signed and not clamped, is node `i`. -/
def landing {N E w : ℕ} (idx : IVec ⟨2, ![E, 1]⟩ w) (i : Fin N) : Finset (Fin E) :=
  Finset.univ.filter fun e => (idx (ix2 e (0 : Fin 1))).toInt = (i.val : ℤ)

/-! ## Row gather -/

/-- The dimension numbers of a row gather: operand `[N, C]`, start indices `[E, 1]`, result `[E, C]`; their conditions
    `wf` are decided on a program's literal shapes. -/
abbrev rowGatherDims (N E C : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the table at the row `idx[e, 0]` names (signed, clamped into `[0, N − 1]`) and
    column `k`. -/
theorem rowGather_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k) = x (ix2 (clampRow N hN (idx (ix2 e (0 : Fin 1)))) k) := by
  unfold Host.gather
  congr 1
  funext a
  refine Fin.ext ?_
  match a with
  | ⟨0, _⟩ =>
    -- axis 0 is collapsed and named by the start index map: the coordinate is the clamped start
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1 is the one kept axis, not named by the start index map: start 0, offset coordinate `k`
    show (rowGatherDims N E C wf).start (ix2 e k) idx 1 + (rowGatherDims N E C wf).batchCoord (ix2 e k) 1
      + (rowGatherDims N E C wf).offCoord (ix2 e k) 1 = _
    rw [GatherDims.batchCoord_eq_zero _ _ _ List.not_mem_nil]
    have hst : (rowGatherDims N E C wf).start (ix2 e k) idx 1 = 0 := by
      unfold GatherDims.start
      rw [dif_neg (fun h => absurd (List.mem_singleton.mp h) (show ¬ (1 : Fin 2) = 0 by decide))]
    rw [hst]
    simp only [Nat.add_zero, Nat.zero_add]
    rfl

/-! ## Scatter: where an update lands -/

/-- An update lands on operand index `i` exactly when, on every operand axis, its start plus its window coordinate is
    `i`'s coordinate (in particular inside the operand). -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 := congrArg (fun f => (f a).val) hf
      simp only at h1
      have := h a
      omega
    · intro hall
      funext a
      refine Fin.ext ?_
      show (d.start j idx a + (d.window j a : ℤ)).toNat = (i a).val
      rw [hall a]; exact Int.toNat_natCast _
  · rename_i h
    constructor
    · intro h0; exact absurd h0 (by simp)
    · intro hall
      exfalso; apply h
      intro a
      rw [hall a]
      exact ⟨Int.natCast_nonneg _, by exact_mod_cast (i a).isLt⟩

/-! ## Segment sum into rows -/

/-- The dimension numbers of a row scatter: operand `[N, C]`, scatter indices `[E, 1]`, updates `[E, C]`; their
    conditions `wf` are decided on a program's literal shapes. -/
abbrev rowScatterDims (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update `(e, k')` lands on `(i, k)` exactly when the index `idx[e, 0]`, read signed, is `i` and `k' = k`: on axis 0
    the start is the signed index and the window coordinate 0, on axis 1 the start is 0 and the window coordinate `k'`. -/
theorem rowScatter_lands {N E C w : ℕ} (wf : ScatterDims.WF ⟨2, ![N, C]⟩ ⟨2, ![E, 1]⟩ ⟨2, ![E, C]⟩ [1] [0] [0] 1)
    (idx : IVec ⟨2, ![E, 1]⟩ w) (e : Fin E) (k' : Fin C) (i : Fin N) (k : Fin C) :
    (rowScatterDims N E C wf).resultIdx? (ix2 e k') idx = some (ix2 i k)
      ↔ (idx (ix2 e (0 : Fin 1))).toInt = (i.val : ℤ) ∧ k' = k := by
  rw [resultIdx?_eq_some_iff]
  have hs0 : (rowScatterDims N E C wf).start (ix2 e k') idx 0 = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e k') ⟨List.idxOf (0 : Fin 2) (rowScatterDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatterDims N E C wf).start (ix2 e k') idx 1 = 0 := by
    unfold ScatterDims.start
    rw [dif_neg (fun h => absurd (List.mem_singleton.mp h) (show ¬ (1 : Fin 2) = 0 by decide))]
  have hw0 : (rowScatterDims N E C wf).window (ix2 e k') 0 = 0 := rfl
  have hw1 : (rowScatterDims N E C wf).window (ix2 e k') 1 = k'.val := rfl
  constructor
  · intro h
    have h0 := h 0
    have h1 := h 1
    rw [hs0, hw0] at h0
    rw [hs1, hw1] at h1
    have e0 : (((ix2 i k : (⟨2, ![N, C]⟩ : Shape).Idx) 0).val : ℤ) = (i.val : ℤ) := rfl
    have e1 : (((ix2 i k : (⟨2, ![N, C]⟩ : Shape).Idx) 1).val : ℤ) = (k.val : ℤ) := rfl
    rw [e0] at h0; rw [e1] at h1
    exact ⟨by omega, Fin.ext (by omega)⟩
  · rintro ⟨h0, rfl⟩ a
    match a with
    | ⟨0, _⟩ =>
      show (rowScatterDims N E C wf).start (ix2 e k') idx 0 + (((rowScatterDims N E C wf).window (ix2 e k') 0 : ℕ) : ℤ) = (i.val : ℤ)
      rw [hs0, hw0, h0]; simp
    | ⟨1, _⟩ =>
      show (rowScatterDims N E C wf).start (ix2 e k') idx 1 + (((rowScatterDims N E C wf).window (ix2 e k') 1 : ℕ) : ℤ) = (k'.val : ℤ)
      rw [hs1, hw1]; simp

/-- THE SEGMENT SUM READ AT `(i, k)`: the operand there plus the sum, over the edges whose index read signed is `i`, of
    the update at `(e, k)`. -/
theorem rowScatterAdd_apply {N E C w : ℕ} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (i : Fin N) (k : Fin C) :
    Ideal.hostScatterAdd (rowScatterDims N E C wf) x idx upd (ix2 i k) = x (ix2 i k) + ∑ e ∈ landing idx i, upd (ix2 e k) := by
  unfold Ideal.hostScatterAdd
  congr 1
  -- the update indices landing on `(i, k)` are the `(e, k)` with `e` an edge into `i`: re-index by the first coordinate
  refine Finset.sum_nbij' (fun j => (j 0 : Fin E)) (fun e => ix2 e k) ?_ ?_ ?_ ?_ ?_
  · intro j hj
    obtain ⟨e, k', rfl⟩ : ∃ (e : Fin E) (k' : Fin C), j = ix2 e k' := ⟨j 0, j 1, eq_ix2 j⟩
    have hl := (rowScatter_lands wf idx e k' i k).mp (Finset.mem_filter.mp hj).2
    exact Finset.mem_filter.mpr ⟨Finset.mem_univ _, hl.1⟩
  · intro e he
    exact Finset.mem_filter.mpr ⟨Finset.mem_univ _,
      (rowScatter_lands wf idx e k i k).mpr ⟨(Finset.mem_filter.mp he).2, rfl⟩⟩
  · intro j hj
    obtain ⟨e, k', rfl⟩ : ∃ (e : Fin E) (k' : Fin C), j = ix2 e k' := ⟨j 0, j 1, eq_ix2 j⟩
    obtain ⟨_, rfl⟩ := (rowScatter_lands wf idx e k' i k).mp (Finset.mem_filter.mp hj).2
    rfl
  · intro e _
    rfl
  · intro j hj
    obtain ⟨e, k', rfl⟩ : ∃ (e : Fin E) (k' : Fin C), j = ix2 e k' := ⟨j 0, j 1, eq_ix2 j⟩
    obtain ⟨_, rfl⟩ := (rowScatter_lands wf idx e k' i k).mp (Finset.mem_filter.mp hj).2
    rfl

/-! ## Segment sum into a vector -/

/-- The dimension numbers of a scatter into a vector: operand `[N]`, scatter indices `[E, 1]`, updates `[E]` (no window
    axis); their conditions `wf` are decided on a program's literal shapes. -/
abbrev vecScatterDims (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on `i` exactly when the index `idx[e, 0]`, read signed, is `i`: on the one operand axis the start is
    the signed index and the window coordinate 0. -/
theorem vecScatter_lands {N E w : ℕ} (wf : ScatterDims.WF ⟨1, ![N]⟩ ⟨2, ![E, 1]⟩ ⟨1, ![E]⟩ [] [0] [0] 1)
    (idx : IVec ⟨2, ![E, 1]⟩ w) (e : Fin E) (i : Fin N) :
    (vecScatterDims N E wf).resultIdx? (ix1 e) idx = some (ix1 i) ↔ (idx (ix2 e (0 : Fin 1))).toInt = (i.val : ℤ) := by
  rw [resultIdx?_eq_some_iff]
  have hs0 : (vecScatterDims N E wf).start (ix1 e) idx 0 = (idx (ix2 e (0 : Fin 1))).toInt := by
    unfold ScatterDims.start
    rw [dif_pos (show (0 : Fin 1) ∈ (vecScatterDims N E wf).scatterDimsToOperandDims from List.mem_singleton.mpr rfl)]
    have hsi : (vecScatterDims N E wf).siIdx (ix1 e) ⟨List.idxOf (0 : Fin 1) (vecScatterDims N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (vecScatterDims N E wf).window (ix1 e) 0 = 0 := rfl
  constructor
  · intro h
    have h0 := h 0
    rw [hs0, hw0] at h0
    have e0 : (((ix1 i : (⟨1, ![N]⟩ : Shape).Idx) 0).val : ℤ) = (i.val : ℤ) := rfl
    rw [e0] at h0
    omega
  · intro h0 a
    match a with
    | ⟨0, _⟩ =>
      show (vecScatterDims N E wf).start (ix1 e) idx 0 + (((vecScatterDims N E wf).window (ix1 e) 0 : ℕ) : ℤ) = (i.val : ℤ)
      rw [hs0, hw0, h0]; simp

/-- THE SEGMENT SUM INTO A VECTOR READ AT `i`: the operand there plus the sum, over the edges whose index read signed
    is `i`, of the update at `e`. -/
theorem vecScatterAdd_apply {N E w : ℕ} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (i : Fin N) :
    Ideal.hostScatterAdd (vecScatterDims N E wf) x idx upd (ix1 i) = x (ix1 i) + ∑ e ∈ landing idx i, upd (ix1 e) := by
  unfold Ideal.hostScatterAdd
  congr 1
  -- the update indices landing on `i` are the edges into `i`: re-index by the one coordinate
  refine Finset.sum_nbij' (fun j => (j 0 : Fin E)) (fun e => ix1 e) ?_ ?_ ?_ ?_ ?_
  · intro j hj
    obtain ⟨e, rfl⟩ : ∃ e : Fin E, j = ix1 e := ⟨j 0, eq_ix1 j⟩
    exact Finset.mem_filter.mpr ⟨Finset.mem_univ _, (vecScatter_lands wf idx e i).mp (Finset.mem_filter.mp hj).2⟩
  · intro e he
    exact Finset.mem_filter.mpr ⟨Finset.mem_univ _, (vecScatter_lands wf idx e i).mpr (Finset.mem_filter.mp he).2⟩
  · intro j _
    obtain ⟨e, rfl⟩ : ∃ e : Fin E, j = ix1 e := ⟨j 0, eq_ix1 j⟩
    rfl
  · intro e _
    rfl
  · intro j _
    obtain ⟨e, rfl⟩ : ∃ e : Fin E, j = ix1 e := ⟨j 0, eq_ix1 j⟩
    rfl

end Cert.LibSegment

end
-- ==== Proof.LibReal.lean ====
/-
  Real entries of extended-real arrays.

  * `IsReal x`: the extended real `x` is a real number; closed under sums, products, maxima and finite sums; the
    zero word of single precision is real; `|x| < +∞` makes `x` real; the coercion of the reals commutes with finite sums;
  * the usual finiteness precondition read entry by entry: where `all (|x| < +∞)` — the comparison of `|x|` with the
    broadcast `+∞` word, reduced by `and` from 1 over all axes into the scalar shape — is 1, every entry of `x` is real
    (`real_of_entry`, `real_of_all`), for an array of any shape.
-/
import Idealize.ShloMosaic.PureOps.Ideal
import Idealize.ShloMosaic.PureOps.Ideal.Laws
import Idealize.ShloMosaic.Lib.ValueIdx
import Idealize.ShloMosaic.Lib.ReduceAll

noncomputable section

namespace Cert.LibReal

open Idealize.ShloMosaic

/-- An extended real that is a real number. -/
def IsReal (x : EReal) : Prop := ∃ r : ℝ, x = (r : EReal)

theorem isReal_coe (r : ℝ) : IsReal (r : EReal) := ⟨r, rfl⟩
theorem isReal_zero_word : IsReal (Ideal.ofBits .f32 0x00000000#32) := ⟨0, by rw [Ideal.ofBits_zero_f32]; rfl⟩
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.max {x y : EReal} (hx : IsReal x) (hy : IsReal y) : IsReal (max x y) := by
  rcases le_total x y with h | h
  · rw [max_eq_right h]; exact hy
  · rw [max_eq_left h]; exact hx
theorem IsReal.sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- `|x| < +∞` says `x` is a real number. -/
theorem isReal_of_abs_lt_top {x : EReal} (h : max x (-x) < ⊤) : IsReal x := by
  induction x using EReal.rec with
  | bot => simp at h
  | coe r => exact ⟨r, rfl⟩
  | top => simp at h

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The finiteness precondition, entry by entry -/

/-- The scalar shape has exactly one index, so a reduction over all axes has one result. -/
private instance subsingleton_scalar_idx : Subsingleton (⟨0, ![]⟩ : Shape).Idx := ⟨fun a b => funext fun d => d.elim0⟩

/-- The single-precision pattern `0x7F800000` (sign 0, exponent all ones, significand 0) denotes `+∞`. -/
theorem top_word : Ideal.ofBits .f32 0x7F800000#32 = ⊤ := by simp [Ideal.ofBits, Ideal.ieee]

/-- A Boolean as a one-bit word is 1 exactly when it is true. -/
theorem ofBool_eq_one (b : Bool) : BitVec.ofBool b = 1#1 ↔ b = true := by cases b <;> decide

/-- One entry. The comparison `|x| < c` at an index compares `max (x i) (-(x i))` with the value the scalar `c`
    broadcasts, here `+∞`; where it yields 1 the entry's absolute value is below `+∞`, so the entry is real. -/
theorem real_of_entry {s : Shape} (hb : (⟨0, ![]⟩ : Shape).BroadcastsInDim s (![] : Fin 0 → Fin s.rank))
    (x : FVec Ideal s .f32) (i : s.Idx)
    (e : cmpf .olt (Host.absf x) (broadcastInDim s ![] hb (constant ⟨0, ![]⟩ .f32 0x7F800000#32)) i = 1#1) :
    IsReal (x i) := by
  apply isReal_of_abs_lt_top
  have e' : Ideal.cmp .olt (max (x i) (-(x i))) (Ideal.ofBits .f32 0x7F800000#32) = 1#1 := e
  rw [top_word] at e'
  have e'' : BitVec.ofBool (decide (max (x i) (-(x i)) < ⊤)) = 1#1 := e'
  exact of_decide_eq_true ((ofBool_eq_one _).1 e'')

/-- One input. A conjunction (a reduction by `and` from 1) over all axes that is 1 met a 1 at every index, and
    each such 1 says that entry is real. -/
theorem real_of_all {s : Shape} {axes : List (Fin s.rank)}
    (hb : (⟨0, ![]⟩ : Shape).BroadcastsInDim s (![] : Fin 0 → Fin s.rank)) (hr : s.ReducesTo axes ⟨0, ![]⟩)
    (hu : 0 < (⟨0, ![]⟩ : Shape).numel) (x : FVec Ideal s .f32) (init : IVec ⟨0, ![]⟩ 1)
    (e : Host.reduce IntOp.andi (cmpf .olt (Host.absf x) (broadcastInDim s ![] hb (constant ⟨0, ![]⟩ .f32 0x7F800000#32)))
      init hr hu ValueIdx.ix0 = 1#1) (i : s.Idx) : IsReal (x i) :=
  real_of_entry hb x i (Host.reduce_andi_all _ init hr hu _ e i)

end Cert.LibReal

end
-- ==== Proof.ConvSpec.lean ====
/-
  One edge type of the degree-normalised message passing, written twice as a function of the projected
  features `Y : [N, C]`, the source index words `s` and the destination index words `d` of the `E` edges.

  * An edge `e` is COUNTED at node `i` (`into`) when its index word, read as a signed integer, is `i`; a word outside
    `[0, N)` is counted nowhere. A node's degree `deg` is the segment sum of ones over the edges counted at it.
  * An edge READS the row its word names after numpy's treatment of a negative word (`wrap`: add the extent) and a
    clamp into `[0, N − 1]` (`rowOf`).
  * QUOTIENT FORM (`convQuot`). Node `t` receives, from each edge counted at `t`, the source row divided by
    `√(deg_s(source) · deg_d(destination))`.
  * FACTORED FORM (`convFact`). Every source row is first scaled by `guard (deg_s)`, node `t` sums the scaled rows of
    the edges counted at it, and the sum is scaled by `guard (deg_d t)`; `guard x` is `1/√(max x 1)` for `x > 0` and `0`
    otherwise.

  The two agree when `Y` holds real numbers and every SOURCE word lies in `[0, N)` (`convFact_eq_convQuot`): then every
  edge is counted at the row it reads, so that row's degree is at least one; an edge counted at `t` has its destination
  word equal to `t`, so it reads row `t` of the destination degrees, which is at least one as well; for degrees `a, b ≥ 1`
  the guards are `1/√a` and `1/√b`, `√(a·b) = √a·√b`, and a real factor moves across a finite sum of reals. With a source
  word out of range the clamped row may have degree `0`, where the quotient form divides by zero and the factored form
  multiplies by zero: the two differ there.
-/
import Idealize.ShloMosaic.PureOps.Ideal
import Idealize.ShloMosaic.PureOps.Ideal.Laws
import Idealize.ShloMosaic.Lib.ValueIdx
import proofs.«179717_j59854664237638_2_alg».proof.Proof.LibSegment
import proofs.«179717_j59854664237638_2_alg».proof.Proof.LibReal

noncomputable section

open scoped BigOperators

namespace Cert.Conv

open Idealize.ShloMosaic Idealize.ShloMosaic.ValueIdx Cert.LibSegment Cert.LibReal

variable {N M E C : ℕ}

/-- The single-precision words of 0, 1 and 1/2, as extended reals. -/
abbrev zeroW : EReal := Ideal.ofBits .f32 0x00000000#32
abbrev oneW : EReal := Ideal.ofBits .f32 0x3F800000#32
abbrev halfW : EReal := Ideal.ofBits .f32 0x3F000000#32

/-- The edges whose index word, read signed, is node `i`. -/
def into (s : Fin E → BitVec 32) (i : Fin N) : Finset (Fin E) :=
  Finset.univ.filter fun e => (s e).toInt = (i.val : ℤ)

/-- A node's degree: zero plus one for every edge counted at it. -/
def deg (s : Fin E → BitVec 32) (i : Fin N) : EReal := zeroW + ∑ _e ∈ into s i, oneW

/-- A negative index word counts from the end: the extent `n` is added to it. -/
def wrap (n v : BitVec 32) : BitVec 32 := Scalar.select (IntOp.cmpi .slt v 0#32) (IntOp.addi v n) v

/-- The row edge `e` reads: its word after `wrap`, read signed and clamped into `[0, N − 1]`. -/
def rowOf (N : ℕ) (hN : 0 < N) (n : BitVec 32) (s : Fin E → BitVec 32) (e : Fin E) : Fin N :=
  clampRow N hN (wrap n (s e))

/-- `1/√(max x 1)` where `x > 0`, and `0` elsewhere. -/
def guard (x : EReal) : EReal :=
  Scalar.select (Ideal.cmp .ogt x zeroW) (Ideal.rsqrt (max x oneW)) zeroW

/-- The rows-by-columns product `x · w` at `(i, k)`. -/
def matProd {D : ℕ} (x : (⟨2, ![N, D]⟩ : Shape).Idx → EReal) (w : (⟨2, ![D, C]⟩ : Shape).Idx → EReal)
    (i : Fin N) (k : Fin C) : EReal := ∑ j : Fin D, x (ix2 i j) * w (ix2 j k)

/-- QUOTIENT FORM: each edge counted at `t` brings its source row over `√(deg_s · deg_d)` of the rows it reads. -/
def convQuot (hN : 0 < N) (hM : 0 < M) (nN nM : BitVec 32) (Y : Fin N → Fin C → EReal)
    (s d : Fin E → BitVec 32) (t : Fin M) (k : Fin C) : EReal :=
  zeroW + ∑ e ∈ into d t,
    Ideal.div (Y (rowOf N hN nN s e) k) (Ideal.sqrt (deg s (rowOf N hN nN s e) * deg d (rowOf M hM nM d e)))

/-- FACTORED FORM: source rows scaled by their guard, summed at `t`, the sum scaled by `t`'s guard. -/
def convFact (hN : 0 < N) (nN : BitVec 32) (Y : Fin N → Fin C → EReal)
    (s d : Fin E → BitVec 32) (t : Fin M) (k : Fin C) : EReal :=
  (zeroW + ∑ e ∈ into d t, Y (rowOf N hN nN s e) k * guard (deg s (rowOf N hN nN s e))) * guard (deg d t)

/-- The rectifier as both programs print it: the maximum with the zero word. -/
def relu (x : EReal) : EReal := max x zeroW

/-- The result for the node type fed by one edge type. -/
def outOne (c : EReal) : EReal := relu c
/-- The result for the node type fed by two edge types: their mean, rectified. -/
def outTwo (c₁ c₂ : EReal) : EReal := relu ((c₁ + c₂) * halfW)

end Cert.Conv

end
-- ==== Proof.LibColumn.lean ====
/-
  A vector of `a` entries stood up as the column `[a, 1]`, and a column spread along its rows to `[a, b]`, read at an
  index written by its coordinates, over abstract extents — for the spelling in which the host names the axes the
  operand lies along (a broadcast with dimension numbers), beside the cast spelling.

  * a vector broadcast into the column `[a, 1]` along the column's first axis reads, at `(i, u)`, the vector at `i`;
  * a column `[a, 1]` broadcast to `[a, b]`, both axes named in order, reads, at `(p, e)`, row `p`'s one entry;
  * so the cast of a vector to a column and its broadcast into a column are the same column.
-/
import Idealize.ShloMosaic.PureOps.Ideal
import Idealize.ShloMosaic.Lib.ValueIdx
import Idealize.ShloMosaic.Lib.Pipeline.Value

noncomputable section

namespace Cert.LibColumn

open Idealize.ShloMosaic Idealize.ShloMosaic.ValueIdx

variable {α : Type}

/-- An `[a]` array cast to the column `[a, 1]` reads, at `(i, u)`, the operand at `i`, whatever the unit coordinate. -/
theorem cast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector of `a` entries broadcast into the column `[a, 1]` along the column's first axis reads, at `(i, u)`,
    the vector at `i`. -/
theorem bcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ (fun d => match d with
    | ⟨0, _⟩ => by show i.val = if a = 1 then 0 else i.val; have := i.isLt; split <;> omega)

/-- A column `[a, 1]` broadcast to `[a, b]`, both axes named in order, reads, at `(p, e)`, row `p`'s one entry. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (e : Fin b) :
    broadcastInDim ⟨2, ![a, b]⟩ ![0, 1] h v (ix2 p e) = v (ix2 p (0 : Fin 1)) :=
  broadcastInDim_apply _ h v _ _ (fun d => match d with
    | ⟨0, _⟩ => by show p.val = if a = 1 then 0 else p.val; have := p.isLt; split <;> omega
    | ⟨1, _⟩ => by show (0 : ℕ) = if (1 : ℕ) = 1 then 0 else e.val; rw [if_pos rfl])

/-- So the cast of a vector to a column and its broadcast into a column are the same column. -/
theorem cast_a_a1_eq_bcastInDim {a : ℕ} (x : (⟨1, ![a]⟩ : Shape).Idx → α) (h : (⟨1, ![a]⟩ : Shape).ShapeCasts ⟨2, ![a, 1]⟩)
    (h' : (⟨1, ![a]⟩ : Shape).BroadcastsInDim ⟨2, ![a, 1]⟩ ![0]) :
    shapeCast ⟨2, ![a, 1]⟩ x h = broadcastInDim ⟨2, ![a, 1]⟩ ![0] h' x := by
  funext i
  obtain ⟨p, u, rfl⟩ : ∃ (p : Fin a) (u : Fin 1), i = ix2 p u := ⟨i 0, i 1, eq_ix2 i⟩
  rw [cast_a_a1_apply, bcastInDim_a_a1_apply]

end Cert.LibColumn

end
-- ==== Proof.KHost.lean ====
/-
  The host arithmetic around the three dense projections, as pure functions of the index arrays and of the three
  projected feature arrays, read at an index into the factored form of the degree-normalised convolution.

  Per edge type, with sources among `N` nodes and destinations among `M`: the source and destination degrees are
  segment sums of ones into zeros; each degree `x` is turned into `1/√(max x 1)` where `x > 0` and `0` elsewhere;
  every projected source row is scaled by its node's factor; each edge reads the scaled row its (wrapped, clamped)
  source word names; the rows read are summed at the destination words; the sums are scaled by the destination factor.
  The node type fed by one edge type is rectified; the one fed by two takes their mean first.

  Every definition below is the composition of the operations the host program prints, in its order; every `_apply`
  lemma reads one at an index, at the extended reals, where each format change is the identity.
-/
import proofs.«179717_j59854664237638_2_alg».proof.Proof.Gen.KernelIdeal
import proofs.«179717_j59854664237638_2_alg».proof.Proof.ConvSpec
import proofs.«179717_j59854664237638_2_alg».proof.Proof.LibSegment
import proofs.«179717_j59854664237638_2_alg».proof.Proof.LibColumn
import Idealize.ShloMosaic.Lib.Pipeline.Value
import Idealize.ShloMosaic.Lib.ValueIdx
import Idealize.ShloMosaic.PureOps.Ideal.Laws

noncomputable section

open scoped BigOperators

namespace Cert.KernelIdeal.HostValue

open Cert.KernelIdeal Idealize.ShloMosaic Idealize.ShloMosaic.ValueIdx
open Cert.KernelIdeal.Facts₀ Cert.KernelIdeal.Facts

variable {F : FTy → Type} [FloatOps F]

/-- A one per edge. -/
def ones : FVec F S1000000 .f32 := broadcastInDim S1000000 ![] bcast_S_S1000000 (constant S_ .f32 0x3F800000#32)

/-! ### Stages over `100000` nodes -/

/-- The degree of each of `100000` nodes: ones summed, at the index words, into zeros. -/
def deg100000 (idx : IVec S1000000 32) : FVec F S100000 .f32 :=
  Host.scatterAdd scatter_S100000_S1000000x1_S1000000_n_0_0_1
    (broadcastInDim S100000 ![] bcast_S_S100000 (constant S_ .f32 0x00000000#32))
    (broadcastInDim S1000000x1 ![0] bcast_S1000000_S1000000x1_0 idx)
    (ones (F := F))

/-- The factor of a degree: `rsqrt (max d 1)` where `d > 0`, else `0`. -/
def inv100000 (d : FVec F S100000 .f32) : FVec F S100000 .f32 :=
  select (cmpf .ogt d (broadcastInDim S100000 ![] bcast_S_S100000 (constant S_ .f32 0x00000000#32)))
    (Host.rsqrt (maximumf d (broadcastInDim S100000 ![] bcast_S_S100000 (constant S_ .f32 0x3F800000#32))))
    (broadcastInDim S100000 ![] bcast_S_S100000 (id (constant S_ .f32 0x00000000#32)))

/-- A per-node vector stood up as a column and repeated along the `128` feature columns. -/
def col100000 (v : FVec F S100000 .f32) : FVec F S100000x128 .f32 :=
  broadcastInDim S100000x128 ![0, 1] bcast_S100000x1_S100000x128_0_1 (broadcastInDim S100000x1 ![0] bcast_S100000_S100000x1_0 v)

/-- The projected rows, widened, scaled by their node's factor, narrowed again. -/
def scaled100000 (y : FVec F S100000x128 .bf16) (v : FVec F S100000 .f32) : FVec F S100000x128 .bf16 :=
  truncf .bf16 (mulf (extf .f32 y bitsLt_bf16_f32) (col100000 v)) bitsLt_bf16_f32

/-- A negative index word counts from the end of the `100000` rows. -/
def wrapIdx100000 (src : IVec S1000000 32) : IVec S1000000 32 :=
  select (cmpi .slt src (broadcastInDim S1000000 ![] bcast_S_S1000000 (constantI S_ 32 0#32)))
    (addi src (broadcastInDim S1000000 ![] bcast_S_S1000000 (constantI S_ 32 100000#32))) src

/-- The row each edge reads, widened. -/
def msg100000 (ys : FVec F S100000x128 .bf16) (src : IVec S1000000 32) : FVec F S1000000x128 .f32 :=
  extf .f32 (Host.gather gather_S100000x128_S1000000x1_S1000000x128_1_0_n_n_0_1_1128 ys
    (broadcastInDim S1000000x1 ![0] bcast_S1000000_S1000000x1_0 (wrapIdx100000 src))) bitsLt_bf16_f32

/-- The rows the edges bring, summed at the destination words into zeros. -/
def agg100000 (u : FVec F S1000000x128 .f32) (dst : IVec S1000000 32) : FVec F S100000x128 .f32 :=
  Host.scatterAdd scatter_S100000x128_S1000000x1_S1000000x128_1_0_0_1
    (broadcastInDim S100000x128 ![] bcast_S_S100000x128 (constant S_ .f32 0x00000000#32))
    (broadcastInDim S1000000x1 ![0] bcast_S1000000_S1000000x1_0 dst) u

/-! ### Stages over `50000` nodes -/

/-- The degree of each of `50000` nodes: ones summed, at the index words, into zeros. -/
def deg50000 (idx : IVec S1000000 32) : FVec F S50000 .f32 :=
  Host.scatterAdd scatter_S50000_S1000000x1_S1000000_n_0_0_1
    (broadcastInDim S50000 ![] bcast_S_S50000 (constant S_ .f32 0x00000000#32))
    (broadcastInDim S1000000x1 ![0] bcast_S1000000_S1000000x1_0 idx)
    (ones (F := F))

/-- The factor of a degree: `rsqrt (max d 1)` where `d > 0`, else `0`. -/
def inv50000 (d : FVec F S50000 .f32) : FVec F S50000 .f32 :=
  select (cmpf .ogt d (broadcastInDim S50000 ![] bcast_S_S50000 (constant S_ .f32 0x00000000#32)))
    (Host.rsqrt (maximumf d (broadcastInDim S50000 ![] bcast_S_S50000 (constant S_ .f32 0x3F800000#32))))
    (broadcastInDim S50000 ![] bcast_S_S50000 (id (constant S_ .f32 0x00000000#32)))

/-- A per-node vector stood up as a column and repeated along the `128` feature columns. -/
def col50000 (v : FVec F S50000 .f32) : FVec F S50000x128 .f32 :=
  broadcastInDim S50000x128 ![0, 1] bcast_S50000x1_S50000x128_0_1 (broadcastInDim S50000x1 ![0] bcast_S50000_S50000x1_0 v)

/-- The projected rows, widened, scaled by their node's factor, narrowed again. -/
def scaled50000 (y : FVec F S50000x128 .bf16) (v : FVec F S50000 .f32) : FVec F S50000x128 .bf16 :=
  truncf .bf16 (mulf (extf .f32 y bitsLt_bf16_f32) (col50000 v)) bitsLt_bf16_f32

/-- A negative index word counts from the end of the `50000` rows. -/
def wrapIdx50000 (src : IVec S1000000 32) : IVec S1000000 32 :=
  select (cmpi .slt src (broadcastInDim S1000000 ![] bcast_S_S1000000 (constantI S_ 32 0#32)))
    (addi src (broadcastInDim S1000000 ![] bcast_S_S1000000 (constantI S_ 32 50000#32))) src

/-- The row each edge reads, widened. -/
def msg50000 (ys : FVec F S50000x128 .bf16) (src : IVec S1000000 32) : FVec F S1000000x128 .f32 :=
  extf .f32 (Host.gather gather_S50000x128_S1000000x1_S1000000x128_1_0_n_n_0_1_1128 ys
    (broadcastInDim S1000000x1 ![0] bcast_S1000000_S1000000x1_0 (wrapIdx50000 src))) bitsLt_bf16_f32

/-- The rows the edges bring, summed at the destination words into zeros. -/
def agg50000 (u : FVec F S1000000x128 .f32) (dst : IVec S1000000 32) : FVec F S50000x128 .f32 :=
  Host.scatterAdd scatter_S50000x128_S1000000x1_S1000000x128_1_0_0_1
    (broadcastInDim S50000x128 ![] bcast_S_S50000x128 (constant S_ .f32 0x00000000#32))
    (broadcastInDim S1000000x1 ![0] bcast_S1000000_S1000000x1_0 dst) u

/-! ### The three edge types and the two results -/

/-- Edge type a→b (sources among 100000 nodes, destinations among 50000): the aggregated rows times the destination factor. -/
def convAB (y0 : FVec F S100000x128 .bf16) (src dst : IVec S1000000 32) : FVec F S50000x128 .f32 :=
  mulf (agg50000 (msg100000 (scaled100000 y0 (inv100000 (deg100000 src))) src) dst) (col50000 (inv50000 (deg50000 dst)))

/-- Edge type b→a (sources among 50000 nodes, destinations among 100000). -/
def convBA (y1 : FVec F S50000x128 .bf16) (src dst : IVec S1000000 32) : FVec F S100000x128 .f32 :=
  mulf (agg100000 (msg50000 (scaled50000 y1 (inv50000 (deg50000 src))) src) dst) (col100000 (inv100000 (deg100000 dst)))

/-- Edge type a→a (sources and destinations among 100000 nodes). -/
def convAA (y2 : FVec F S100000x128 .bf16) (src dst : IVec S1000000 32) : FVec F S100000x128 .f32 :=
  mulf (agg100000 (msg100000 (scaled100000 y2 (inv100000 (deg100000 src))) src) dst) (col100000 (inv100000 (deg100000 dst)))

/-- The result for the b nodes: the a→b convolution, rectified. -/
def resB (y0 : FVec F S100000x128 .bf16) (src_ab dst_ab : IVec S1000000 32) : FVec F S50000x128 .f32 :=
  maximumf (convAB y0 src_ab dst_ab) (broadcastInDim S50000x128 ![] bcast_S_S50000x128 (constant S_ .f32 0x00000000#32))

/-- The result for the a nodes: the mean of the b→a and a→a convolutions, rectified. -/
def resA (y1 : FVec F S50000x128 .bf16) (y2 : FVec F S100000x128 .bf16) (src_ba dst_ba src_aa dst_aa : IVec S1000000 32) :
    FVec F S100000x128 .f32 :=
  maximumf
    (mulf (addf (convBA y1 src_ba dst_ba) (convAA y2 src_aa dst_aa))
      (broadcastInDim S100000x128 ![] bcast_S_S100000x128 (constant S_ .f32 0x3F000000#32)))
    (broadcastInDim S100000x128 ![] bcast_S_S100000x128 (constant S_ .f32 0x00000000#32))

/-! ## Reading the stages at an index, at the extended reals -/

section Read
open Cert.LibSegment Cert.LibColumn

/-- At the extended reals the host's scatter-add is the exact sum (stated of the functions, not at an index). -/
theorem scatterAdd_ideal {s si u : Shape} {w : ℕ} {φ : FTy} (d : ScatterDims s si u) (x : FVec Ideal s φ)
    (idx : IVec si w) (upd : FVec Ideal u φ) :
    Host.scatterAdd (F := Ideal) d x idx upd = Ideal.hostScatterAdd d x idx upd :=
  Ideal.hostScatterAdd_def d .single x idx upd

/-- The edges landing at a node through the index column are those counted at it through the index vector. -/
theorem landing_bcast (idx : IVec S1000000 32) {N : ℕ} (i : Fin N) :
    landing (broadcastInDim S1000000x1 ![0] bcast_S1000000_S1000000x1_0 idx) i = Cert.Conv.into (fun e => idx (ix1 e)) i := by
  unfold landing Cert.Conv.into
  exact Finset.filter_congr (fun e _ => by rw [bcastInDim_a_a1_apply])

/-- A scalar constant repeated over any shape reads, anywhere, the constant's word. -/
theorem bconst_apply {t : Shape} (h : S_.BroadcastsInDim t (![] : Fin 0 → Fin t.rank)) (b : BitVec FTy.f32.bits) (j : t.Idx) :
    broadcastInDim t ![] h (constant (F := Ideal) S_ .f32 b) j = Ideal.ofBits .f32 b := rfl

theorem ones_apply (j : S1000000.Idx) : ones (F := Ideal) j = Cert.Conv.oneW := rfl

theorem outOne_eq (c : EReal) : Cert.Conv.outOne c = max c Cert.Conv.zeroW := rfl

theorem outTwo_eq (c₁ c₂ : EReal) :
    Cert.Conv.outTwo c₁ c₂ = max ((c₁ + c₂) * Cert.Conv.halfW) Cert.Conv.zeroW := rfl

/-! ### Stages over `100000` nodes, read at an index -/

/-- A node's degree is zero plus a one for every edge whose word is the node. -/
theorem deg100000_apply (idx : IVec S1000000 32) (i : Fin 100000) :
    deg100000 (F := Ideal) idx (ix1 i) = Cert.Conv.deg (fun e => idx (ix1 e)) i := by
  unfold deg100000
  unfold Cert.Conv.deg
  rw [scatterAdd_ideal,
    show scatter_S100000_S1000000x1_S1000000_n_0_0_1
      = vecScatterDims 100000 1000000 scatter_S100000_S1000000x1_S1000000_n_0_0_1_wf from rfl,
    vecScatterAdd_apply, landing_bcast]
  exact congrArg₂ (· + ·) rfl (Finset.sum_congr rfl (fun e _ => rfl))

/-- The factor of a degree is the specification's guard of it. -/
theorem inv100000_apply (d : FVec Ideal S100000 .f32) (i : S100000.Idx) :
    inv100000 (F := Ideal) d i = Cert.Conv.guard (d i) := rfl

/-- The repeated column reads the vector at the row. -/
theorem col100000_apply (v : FVec Ideal S100000 .f32) (i : Fin 100000) (k : Fin 128) :
    col100000 (F := Ideal) v (ix2 i k) = v (ix1 i) := by
  unfold col100000
  rw [bcastInDim_a1_ab_apply, bcastInDim_a_a1_apply]

/-- A scaled row is the row times its node's factor: the two format changes are the identity. -/
theorem scaled100000_apply (y : FVec Ideal S100000x128 .bf16) (v : FVec Ideal S100000 .f32) (i : Fin 100000) (k : Fin 128) :
    scaled100000 (F := Ideal) y v (ix2 i k) = y (ix2 i k) * v (ix1 i) := by
  show y (ix2 i k) * col100000 (F := Ideal) v (ix2 i k) = _
  rw [col100000_apply]

/-- The wrapped index word is the specification's. -/
theorem wrapIdx100000_apply (src : IVec S1000000 32) (j : S1000000.Idx) :
    wrapIdx100000 src j = Cert.Conv.wrap 100000#32 (src j) := rfl

/-- An edge reads the row its wrapped word names, signed and clamped. -/
theorem msg100000_apply (ys : FVec Ideal S100000x128 .bf16) (src : IVec S1000000 32) (e : Fin 1000000) (k : Fin 128) :
    msg100000 (F := Ideal) ys src (ix2 e k)
      = ys (ix2 (Cert.Conv.rowOf 100000 (by decide) 100000#32 (fun e => src (ix1 e)) e) k) := by
  unfold msg100000 Cert.Conv.rowOf
  refine (rowGather_apply (N := 100000) (E := 1000000) (C := 128) (by decide)
    gather_S100000x128_S1000000x1_S1000000x128_1_0_n_n_0_1_1128_wf ys _ e k).trans ?_
  rw [bcastInDim_a_a1_apply, wrapIdx100000_apply]

/-- A node's aggregate is zero plus the rows of the edges whose destination word is the node. -/
theorem agg100000_apply (u : FVec Ideal S1000000x128 .f32) (dst : IVec S1000000 32) (t : Fin 100000) (k : Fin 128) :
    agg100000 (F := Ideal) u dst (ix2 t k)
      = Cert.Conv.zeroW + ∑ e ∈ Cert.Conv.into (fun e => dst (ix1 e)) t, u (ix2 e k) := by
  unfold agg100000
  rw [scatterAdd_ideal,
    show scatter_S100000x128_S1000000x1_S1000000x128_1_0_0_1
      = rowScatterDims 100000 1000000 128 scatter_S100000x128_S1000000x1_S1000000x128_1_0_0_1_wf from rfl,
    rowScatterAdd_apply, landing_bcast]
  exact congrArg₂ (· + ·) rfl rfl

/-! ### Stages over `50000` nodes, read at an index -/

/-- A node's degree is zero plus a one for every edge whose word is the node. -/
theorem deg50000_apply (idx : IVec S1000000 32) (i : Fin 50000) :
    deg50000 (F := Ideal) idx (ix1 i) = Cert.Conv.deg (fun e => idx (ix1 e)) i := by
  unfold deg50000
  unfold Cert.Conv.deg
  rw [scatterAdd_ideal,
    show scatter_S50000_S1000000x1_S1000000_n_0_0_1
      = vecScatterDims 50000 1000000 scatter_S50000_S1000000x1_S1000000_n_0_0_1_wf from rfl,
    vecScatterAdd_apply, landing_bcast]
  exact congrArg₂ (· + ·) rfl (Finset.sum_congr rfl (fun e _ => rfl))

/-- The factor of a degree is the specification's guard of it. -/
theorem inv50000_apply (d : FVec Ideal S50000 .f32) (i : S50000.Idx) :
    inv50000 (F := Ideal) d i = Cert.Conv.guard (d i) := rfl

/-- The repeated column reads the vector at the row. -/
theorem col50000_apply (v : FVec Ideal S50000 .f32) (i : Fin 50000) (k : Fin 128) :
    col50000 (F := Ideal) v (ix2 i k) = v (ix1 i) := by
  unfold col50000
  rw [bcastInDim_a1_ab_apply, bcastInDim_a_a1_apply]

/-- A scaled row is the row times its node's factor: the two format changes are the identity. -/
theorem scaled50000_apply (y : FVec Ideal S50000x128 .bf16) (v : FVec Ideal S50000 .f32) (i : Fin 50000) (k : Fin 128) :
    scaled50000 (F := Ideal) y v (ix2 i k) = y (ix2 i k) * v (ix1 i) := by
  show y (ix2 i k) * col50000 (F := Ideal) v (ix2 i k) = _
  rw [col50000_apply]

/-- The wrapped index word is the specification's. -/
theorem wrapIdx50000_apply (src : IVec S1000000 32) (j : S1000000.Idx) :
    wrapIdx50000 src j = Cert.Conv.wrap 50000#32 (src j) := rfl

/-- An edge reads the row its wrapped word names, signed and clamped. -/
theorem msg50000_apply (ys : FVec Ideal S50000x128 .bf16) (src : IVec S1000000 32) (e : Fin 1000000) (k : Fin 128) :
    msg50000 (F := Ideal) ys src (ix2 e k)
      = ys (ix2 (Cert.Conv.rowOf 50000 (by decide) 50000#32 (fun e => src (ix1 e)) e) k) := by
  unfold msg50000 Cert.Conv.rowOf
  refine (rowGather_apply (N := 50000) (E := 1000000) (C := 128) (by decide)
    gather_S50000x128_S1000000x1_S1000000x128_1_0_n_n_0_1_1128_wf ys _ e k).trans ?_
  rw [bcastInDim_a_a1_apply, wrapIdx50000_apply]

/-- A node's aggregate is zero plus the rows of the edges whose destination word is the node. -/
theorem agg50000_apply (u : FVec Ideal S1000000x128 .f32) (dst : IVec S1000000 32) (t : Fin 50000) (k : Fin 128) :
    agg50000 (F := Ideal) u dst (ix2 t k)
      = Cert.Conv.zeroW + ∑ e ∈ Cert.Conv.into (fun e => dst (ix1 e)) t, u (ix2 e k) := by
  unfold agg50000
  rw [scatterAdd_ideal,
    show scatter_S50000x128_S1000000x1_S1000000x128_1_0_0_1
      = rowScatterDims 50000 1000000 128 scatter_S50000x128_S1000000x1_S1000000x128_1_0_0_1_wf from rfl,
    rowScatterAdd_apply, landing_bcast]
  exact congrArg₂ (· + ·) rfl rfl

/-! ### The three edge types and the two results, read at an index: the factored form -/

theorem convAB_apply (y0 : FVec Ideal S100000x128 .bf16) (src dst : IVec S1000000 32) (t : Fin 50000) (k : Fin 128) :
    convAB (F := Ideal) y0 src dst (ix2 t k)
      = Cert.Conv.convFact (N := 100000) (M := 50000) (E := 1000000) (C := 128) (by decide) 100000#32
          (fun i k => y0 (ix2 i k)) (fun e => src (ix1 e)) (fun e => dst (ix1 e)) t k := by
  unfold convAB
  rw [mulf_apply, col50000_apply, inv50000_apply, deg50000_apply, agg50000_apply]
  unfold Cert.Conv.convFact
  refine congrArg₂ (· * ·) (congrArg (Cert.Conv.zeroW + ·) (Finset.sum_congr rfl (fun e _ => ?_))) rfl
  rw [msg100000_apply, scaled100000_apply, inv100000_apply, deg100000_apply]

theorem convBA_apply (y1 : FVec Ideal S50000x128 .bf16) (src dst : IVec S1000000 32) (t : Fin 100000) (k : Fin 128) :
    convBA (F := Ideal) y1 src dst (ix2 t k)
      = Cert.Conv.convFact (N := 50000) (M := 100000) (E := 1000000) (C := 128) (by decide) 50000#32
          (fun i k => y1 (ix2 i k)) (fun e => src (ix1 e)) (fun e => dst (ix1 e)) t k := by
  unfold convBA
  rw [mulf_apply, col100000_apply, inv100000_apply, deg100000_apply, agg100000_apply]
  unfold Cert.Conv.convFact
  refine congrArg₂ (· * ·) (congrArg (Cert.Conv.zeroW + ·) (Finset.sum_congr rfl (fun e _ => ?_))) rfl
  rw [msg50000_apply, scaled50000_apply, inv50000_apply, deg50000_apply]

theorem convAA_apply (y2 : FVec Ideal S100000x128 .bf16) (src dst : IVec S1000000 32) (t : Fin 100000) (k : Fin 128) :
    convAA (F := Ideal) y2 src dst (ix2 t k)
      = Cert.Conv.convFact (N := 100000) (M := 100000) (E := 1000000) (C := 128) (by decide) 100000#32
          (fun i k => y2 (ix2 i k)) (fun e => src (ix1 e)) (fun e => dst (ix1 e)) t k := by
  unfold convAA
  rw [mulf_apply, col100000_apply, inv100000_apply, deg100000_apply, agg100000_apply]
  unfold Cert.Conv.convFact
  refine congrArg₂ (· * ·) (congrArg (Cert.Conv.zeroW + ·) (Finset.sum_congr rfl (fun e _ => ?_))) rfl
  rw [msg100000_apply, scaled100000_apply, inv100000_apply, deg100000_apply]

theorem resB_apply (y0 : FVec Ideal S100000x128 .bf16) (src_ab dst_ab : IVec S1000000 32) (t : Fin 50000) (k : Fin 128) :
    resB (F := Ideal) y0 src_ab dst_ab (ix2 t k)
      = Cert.Conv.outOne (Cert.Conv.convFact (N := 100000) (M := 50000) (E := 1000000) (C := 128) (by decide) 100000#32
          (fun i k => y0 (ix2 i k)) (fun e => src_ab (ix1 e)) (fun e => dst_ab (ix1 e)) t k) := by
  unfold resB
  rw [maximumf_apply, convAB_apply, bconst_apply, outOne_eq]

theorem resA_apply (y1 : FVec Ideal S50000x128 .bf16) (y2 : FVec Ideal S100000x128 .bf16)
    (src_ba dst_ba src_aa dst_aa : IVec S1000000 32) (t : Fin 100000) (k : Fin 128) :
    resA (F := Ideal) y1 y2 src_ba dst_ba src_aa dst_aa (ix2 t k)
      = Cert.Conv.outTwo
          (Cert.Conv.convFact (N := 50000) (M := 100000) (E := 1000000) (C := 128) (by decide) 50000#32
            (fun i k => y1 (ix2 i k)) (fun e => src_ba (ix1 e)) (fun e => dst_ba (ix1 e)) t k)
          (Cert.Conv.convFact (N := 100000) (M := 100000) (E := 1000000) (C := 128) (by decide) 100000#32
            (fun i k => y2 (ix2 i k)) (fun e => src_aa (ix1 e)) (fun e => dst_aa (ix1 e)) t k) := by
  unfold resA
  rw [maximumf_apply, mulf_apply, addf_apply, convBA_apply, convAA_apply, bconst_apply, bconst_apply, outTwo_eq]

end Read

end Cert.KernelIdeal.HostValue

end
-- ==== Proof.KRun.lean ====
/- The kernel program's run with its results named. Every weakly fair execution of @main on the TensorCores
   terminates without fault, and the final memory holds, at every unscoped buffer, the last boundary's contents of
   the fold through @main's six segments (`Gen.W6`). From that: the two result buffers are the host arithmetic of
   the argument arrays and of the three dense projections the regions leave, and the eleven arguments are unchanged. -/
import proofs.«179717_j59854664237638_2_alg».proof.Proof.Gen.KernelIdeal.Frame
import proofs.«179717_j59854664237638_2_alg».proof.Proof.KHost
import Idealize.ShloMosaic.PureOps.Ideal

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! ## Typed reads

The host operations are stated over typed references: each operand's buffer contents are carried to the operand's own
value type, the function is applied, and the value is carried back to the result buffer's type. Read through
`rd` — the contents of a typed reference's buffer AT THE VALUE'S TYPE — an operation's result is its function of its
operands' reads, and any other reference's read is unchanged: the two transports meet and cancel once, here, for any
typed reference, and never appear in a value. -/

section TypedRead

variable {τ : Topo} {sig : RefSig} {Val : EltTy → Type} {T Tx Ta Tb Tc Ty : BufTy}

/-- The contents of a typed reference's buffer under a valuation, at the value's own type. -/
def rd (x : StableHlo.TRef sig T) (F : Valuation τ sig Val) : T.Contents Val :=
  x.ofBuf (F (Proc.devRef .tc x.ref))

/-- Carrying a value to the buffer's type and back is the identity. -/
theorem ofBuf_toBuf (x : StableHlo.TRef sig T) (v : T.Contents Val) : x.ofBuf (x.toBuf v) = v := by
  obtain ⟨r, rfl, _, _⟩ := x; rfl

theorem rd_nullary (y : StableHlo.TRef sig Ty) (v : Ty.Contents Val) (F : Valuation τ sig Val) :
    rd y ((no_index (StableHlo.TRef.nullary y v)).result F) = v :=
  (congrArg y.ofBuf (StableHlo.nullary_result y.ref (y.toBuf v) y.dev F)).trans (ofBuf_toBuf y v)

theorem rd_unary (x : StableHlo.TRef sig Tx) (y : StableHlo.TRef sig Ty) (f : Tx.Contents Val → Ty.Contents Val)
    (F : Valuation τ sig Val) :
    rd y ((no_index (StableHlo.TRef.unary x y f)).result F) = f (rd x F) :=
  (congrArg y.ofBuf (StableHlo.unary_result x.ref y.ref (fun u => y.toBuf (f (x.ofBuf u))) x.dev y.dev F)).trans
    (ofBuf_toBuf y _)

theorem rd_binary (a : StableHlo.TRef sig Ta) (b : StableHlo.TRef sig Tb) (y : StableHlo.TRef sig Ty)
    (f : Ta.Contents Val → Tb.Contents Val → Ty.Contents Val) (F : Valuation τ sig Val) :
    rd y ((no_index (StableHlo.TRef.binary a b y f)).result F) = f (rd a F) (rd b F) :=
  (congrArg y.ofBuf (StableHlo.binary_result a.ref b.ref y.ref (fun u v => y.toBuf (f (a.ofBuf u) (b.ofBuf v)))
    a.dev b.dev y.dev F)).trans (ofBuf_toBuf y _)

theorem rd_ternary (c : StableHlo.TRef sig Tc) (a : StableHlo.TRef sig Ta) (b : StableHlo.TRef sig Tb)
    (y : StableHlo.TRef sig Ty) (f : Tc.Contents Val → Ta.Contents Val → Tb.Contents Val → Ty.Contents Val)
    (F : Valuation τ sig Val) :
    rd y ((no_index (StableHlo.TRef.ternary c a b y f)).result F) = f (rd c F) (rd a F) (rd b F) :=
  (congrArg y.ofBuf (StableHlo.ternary_result c.ref a.ref b.ref y.ref
    (fun w u v => y.toBuf (f (c.ofBuf w) (a.ofBuf u) (b.ofBuf v))) c.dev a.dev b.dev y.dev F)).trans (ofBuf_toBuf y _)

theorem rd_nullary_ne (z : StableHlo.TRef sig T) (y : StableHlo.TRef sig Ty) (v : Ty.Contents Val)
    (F : Valuation τ sig Val) (h : z.ref ≠ y.ref) :
    rd z ((no_index (StableHlo.TRef.nullary y v)).result F) = rd z F :=
  congrArg z.ofBuf (StableHlo.nullary_result_ne (y := y.ref) (y.toBuf v) y.dev F h)

theorem rd_unary_ne (z : StableHlo.TRef sig T) (x : StableHlo.TRef sig Tx) (y : StableHlo.TRef sig Ty)
    (f : Tx.Contents Val → Ty.Contents Val) (F : Valuation τ sig Val) (h : z.ref ≠ y.ref) :
    rd z ((no_index (StableHlo.TRef.unary x y f)).result F) = rd z F :=
  congrArg z.ofBuf (StableHlo.unary_result_ne (x := x.ref) (y := y.ref) (fun u => y.toBuf (f (x.ofBuf u))) x.dev y.dev F h)

theorem rd_binary_ne (z : StableHlo.TRef sig T) (a : StableHlo.TRef sig Ta) (b : StableHlo.TRef sig Tb)
    (y : StableHlo.TRef sig Ty) (f : Ta.Contents Val → Tb.Contents Val → Ty.Contents Val) (F : Valuation τ sig Val)
    (h : z.ref ≠ y.ref) :
    rd z ((no_index (StableHlo.TRef.binary a b y f)).result F) = rd z F :=
  congrArg z.ofBuf (StableHlo.binary_result_ne (a := a.ref) (b := b.ref) (y := y.ref)
    (fun u v => y.toBuf (f (a.ofBuf u) (b.ofBuf v))) a.dev b.dev y.dev F h)

theorem rd_ternary_ne (z : StableHlo.TRef sig T) (c : StableHlo.TRef sig Tc) (a : StableHlo.TRef sig Ta)
    (b : StableHlo.TRef sig Tb) (y : StableHlo.TRef sig Ty)
    (f : Tc.Contents Val → Ta.Contents Val → Tb.Contents Val → Ty.Contents Val) (F : Valuation τ sig Val)
    (h : z.ref ≠ y.ref) :
    rd z ((no_index (StableHlo.TRef.ternary c a b y f)).result F) = rd z F :=
  congrArg z.ofBuf (StableHlo.ternary_result_ne (c := c.ref) (a := a.ref) (b := b.ref) (y := y.ref)
    (fun w u v => y.toBuf (f (c.ofBuf w) (a.ofBuf u) (b.ofBuf v))) c.dev a.dev b.dev y.dev F h)

/-- The typed read and the buffer's contents are one value, at two names of one type. -/
theorem rd_heq (x : StableHlo.TRef sig T) (F : Valuation τ sig Val) : HEq (rd x F) (F (Proc.devRef .tc x.ref)) :=
  cast_heq _ _

/-- So a typed read is whatever the buffer holds. -/
theorem rd_eq_of_heq (x : StableHlo.TRef sig T) (F : Valuation τ sig Val) (v : T.Contents Val)
    (h : HEq (F (Proc.devRef .tc x.ref)) v) : rd x F = v :=
  eq_of_heq ((rd_heq x F).trans h)

end TypedRead

/-- The typed read of a reference after a stretch of operations over typed references: the fold is opened, each
    operation's result read at its own reference is its function of its operands' reads, and at any other reference
    (told apart by computation) the read passes through. What is left is the operations' composition over the typed
    reads of the stretch's entry contents. -/
local macro "typed_results" : tactic =>
  `(tactic| simp (disch := decide) only [StableHlo.after_cons, StableHlo.after_nil,
      rd_nullary, rd_unary, rd_binary, rd_ternary, rd_nullary_ne, rd_unary_ne, rd_binary_ne, rd_ternary_ne])

/-- Two valuations that agree at a reference's buffer have the same typed read there. -/
theorem rd_congr {τ : Topo} {sig : RefSig} {Val : EltTy → Type} {T : BufTy} (x : StableHlo.TRef sig T)
    {F G : Valuation τ sig Val} (h : F (Proc.devRef .tc x.ref) = G (Proc.devRef .tc x.ref)) : rd x F = rd x G :=
  congrArg x.ofBuf h

local notation "𝕄" => MT nD τ sig Unit (Elt Ideal) ℕ (UR sig nD τ) ℕ

variable (m : (ℓ : Loc nD τ sig) → Buf (Elt Ideal) ℓ) (ρ : Dev nD → PrngReg)
/-- A buffer that no operation of a stretch writes holds after the stretch what it held before: the stretch's writes
    are read off its operations one by one, each a reference other than the buffer's. -/
local macro "stretch_leaves " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## The regions' input windows hold the launch arguments -/

theorem V0_arg0 (c : Dev nD) : V0 m ρ c main_arg0 = m ((c : Thread nD τ).loc main_arg0) := rfl
theorem V0_arg2 (c : Dev nD) : V0 m ρ c main_arg2 = m ((c : Thread nD τ).loc main_arg2) := rfl

theorem V2_arg1 (c : Dev nD) : V2 m ρ c main_arg1 = m ((c : Thread nD τ).loc main_arg1) :=
  calc W2 m ρ c (Proc.devRef .tc main_arg1)
    _ = W1 m ρ c (Proc.devRef .tc main_arg1) := by stretch_leaves hostOps1
    _ = W0 m ρ c (Proc.devRef .tc main_arg1) := W1_of_ne m ρ c main_arg1 (by decide)
    _ = m ((c : Thread nD τ).loc main_arg1) := rfl

theorem V2_arg3 (c : Dev nD) : V2 m ρ c main_arg3 = m ((c : Thread nD τ).loc main_arg3) :=
  calc W2 m ρ c (Proc.devRef .tc main_arg3)
    _ = W1 m ρ c (Proc.devRef .tc main_arg3) := by stretch_leaves hostOps1
    _ = W0 m ρ c (Proc.devRef .tc main_arg3) := W1_of_ne m ρ c main_arg3 (by decide)
    _ = m ((c : Thread nD τ).loc main_arg3) := rfl

theorem V4_arg0 (c : Dev nD) : V4 m ρ c main_arg0 = m ((c : Thread nD τ).loc main_arg0) :=
  calc W4 m ρ c (Proc.devRef .tc main_arg0)
    _ = W3 m ρ c (Proc.devRef .tc main_arg0) := by stretch_leaves hostOps2
    _ = W2 m ρ c (Proc.devRef .tc main_arg0) := W3_of_ne m ρ c main_arg0 (by decide)
    _ = W1 m ρ c (Proc.devRef .tc main_arg0) := by stretch_leaves hostOps1
    _ = W0 m ρ c (Proc.devRef .tc main_arg0) :=
          (W1_arr m ρ c 0).trans (((dat0 (V0 m ρ) c).arrAt_in 0 rfl _).trans (A_eq0 (V0 m ρ) c 0))
    _ = m ((c : Thread nD τ).loc main_arg0) := rfl

theorem V4_arg4 (c : Dev nD) : V4 m ρ c main_arg4 = m ((c : Thread nD τ).loc main_arg4) :=
  calc W4 m ρ c (Proc.devRef .tc main_arg4)
    _ = W3 m ρ c (Proc.devRef .tc main_arg4) := by stretch_leaves hostOps2
    _ = W2 m ρ c (Proc.devRef .tc main_arg4) := W3_of_ne m ρ c main_arg4 (by decide)
    _ = W1 m ρ c (Proc.devRef .tc main_arg4) := by stretch_leaves hostOps1
    _ = W0 m ρ c (Proc.devRef .tc main_arg4) := W1_of_ne m ρ c main_arg4 (by decide)
    _ = m ((c : Thread nD τ).loc main_arg4) := rfl

/-! ## The regions' outputs and the index arrays, as the host stretches read them

Each stretch of host operations runs after a region, from that region's exit contents: it reads the region's output
array (what the pipeline's write-backs leave) and two index arrays, which nothing before it has written. -/

/-- The array region 0 leaves in its output window: the a-node features projected for the a→b edges. -/
abbrev y0 (c : Dev nD) : FVec Ideal S100000x128 .bf16 := (dat0 (V0 m ρ) c).arrAt 2 cfg0.N
/-- The array region 1 leaves in its output window: the b-node features projected for the b→a edges. -/
abbrev y1 (c : Dev nD) : FVec Ideal S50000x128 .bf16 := (dat1 (V2 m ρ) c).arrAt 2 cfg1.N
/-- The array region 2 leaves in its output window: the a-node features projected for the a→a edges. -/
abbrev y2 (c : Dev nD) : FVec Ideal S100000x128 .bf16 := (dat2 (V4 m ρ) c).arrAt 2 cfg2.N

theorem W1_arg5 (c : Dev nD) : W1 m ρ c (Proc.devRef .tc main_arg5) = m ((c : Thread nD τ).loc main_arg5) :=
  W1_of_ne m ρ c main_arg5 (by decide)
theorem W1_arg6 (c : Dev nD) : W1 m ρ c (Proc.devRef .tc main_arg6) = m ((c : Thread nD τ).loc main_arg6) :=
  W1_of_ne m ρ c main_arg6 (by decide)

theorem W3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := by stretch_leaves hostOps1
    _ = W0 m ρ c (Proc.devRef .tc main_arg7) := W1_of_ne m ρ c main_arg7 (by decide)
    _ = m ((c : Thread nD τ).loc main_arg7) := rfl
theorem W3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := by stretch_leaves hostOps1
    _ = W0 m ρ c (Proc.devRef .tc main_arg8) := W1_of_ne m ρ c main_arg8 (by decide)
    _ = m ((c : Thread nD τ).loc main_arg8) := rfl

theorem W5_arg9 (c : Dev nD) : W5 m ρ c (Proc.devRef .tc main_arg9) = m ((c : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := by stretch_leaves hostOps2
    _ = W2 m ρ c (Proc.devRef .tc main_arg9) := W3_of_ne m ρ c main_arg9 (by decide)
    _ = W1 m ρ c (Proc.devRef .tc main_arg9) := by stretch_leaves hostOps1
    _ = W0 m ρ c (Proc.devRef .tc main_arg9) := W1_of_ne m ρ c main_arg9 (by decide)
    _ = m ((c : Thread nD τ).loc main_arg9) := rfl
theorem W5_arg10 (c : Dev nD) : W5 m ρ c (Proc.devRef .tc main_arg10) = m ((c : Thread nD τ).loc main_arg10) :=
  calc W5 m ρ c (Proc.devRef .tc main_arg10)
    _ = W4 m ρ c (Proc.devRef .tc main_arg10) := W5_of_ne m ρ c main_arg10 (by decide)
    _ = W3 m ρ c (Proc.devRef .tc main_arg10) := by stretch_leaves hostOps2
    _ = W2 m ρ c (Proc.devRef .tc main_arg10) := W3_of_ne m ρ c main_arg10 (by decide)
    _ = W1 m ρ c (Proc.devRef .tc main_arg10) := by stretch_leaves hostOps1
    _ = W0 m ρ c (Proc.devRef .tc main_arg10) := W1_of_ne m ρ c main_arg10 (by decide)
    _ = m ((c : Thread nD τ).loc main_arg10) := rfl

/-! The same reads at the values' types. At each of these references the buffer's type is, by computation, the
    value's, so the typed read is the buffer's contents. -/

theorem rd_W1_arg5 (c : Dev nD) :
    rd (.of main_arg5 : StableHlo.TRef sig ⟨S1000000, .i32⟩) (W1 m ρ c) = m ((c : Thread nD τ).loc main_arg5) :=
  rd_eq_of_heq _ _ _ (heq_of_eq (W1_arg5 m ρ c))
theorem rd_W1_arg6 (c : Dev nD) :
    rd (.of main_arg6 : StableHlo.TRef sig ⟨S1000000, .i32⟩) (W1 m ρ c) = m ((c : Thread nD τ).loc main_arg6) :=
  rd_eq_of_heq _ _ _ (heq_of_eq (W1_arg6 m ρ c))
theorem rd_W1_out (c : Dev nD) :
    rd (.of main_call0_v0 : StableHlo.TRef sig ⟨S100000x128, .bf16⟩) (W1 m ρ c) = y0 m ρ c :=
  rd_eq_of_heq _ _ _ (heq_of_eq (W1_arr m ρ c 2))

theorem rd_W3_arg7 (c : Dev nD) :
    rd (.of main_arg7 : StableHlo.TRef sig ⟨S1000000, .i32⟩) (W3 m ρ c) = m ((c : Thread nD τ).loc main_arg7) :=
  rd_eq_of_heq _ _ _ (heq_of_eq (W3_arg7 m ρ c))
theorem rd_W3_arg8 (c : Dev nD) :
    rd (.of main_arg8 : StableHlo.TRef sig ⟨S1000000, .i32⟩) (W3 m ρ c) = m ((c : Thread nD τ).loc main_arg8) :=
  rd_eq_of_heq _ _ _ (heq_of_eq (W3_arg8 m ρ c))
theorem rd_W3_out (c : Dev nD) :
    rd (.of main_call0_v39 : StableHlo.TRef sig ⟨S50000x128, .bf16⟩) (W3 m ρ c) = y1 m ρ c :=
  rd_eq_of_heq _ _ _ (heq_of_eq (W3_arr m ρ c 2))

theorem rd_W5_arg9 (c : Dev nD) :
    rd (.of main_arg9 : StableHlo.TRef sig ⟨S1000000, .i32⟩) (W5 m ρ c) = m ((c : Thread nD τ).loc main_arg9) :=
  rd_eq_of_heq _ _ _ (heq_of_eq (W5_arg9 m ρ c))
theorem rd_W5_arg10 (c : Dev nD) :
    rd (.of main_arg10 : StableHlo.TRef sig ⟨S1000000, .i32⟩) (W5 m ρ c) = m ((c : Thread nD τ).loc main_arg10) :=
  rd_eq_of_heq _ _ _ (heq_of_eq (W5_arg10 m ρ c))
theorem rd_W5_out (c : Dev nD) :
    rd (.of main_call0_v78 : StableHlo.TRef sig ⟨S100000x128, .bf16⟩) (W5 m ρ c) = y2 m ρ c :=
  rd_eq_of_heq _ _ _ (heq_of_eq (W5_arr m ρ c 2))

/-! ## The three convolutions, each where its stretch leaves it

A stretch's operations, read through typed reads from the stretch's entry contents, are their own composition in
program order, which is how the host arithmetic is defined. -/

/-- After the first stretch: the a→b convolution, of region 0's output and the a→b index arrays. -/
theorem convAB_W2 (c : Dev nD) :
    rd (.of main_call0_v38 : StableHlo.TRef sig ⟨S50000x128, .f32⟩) (W2 m ρ c)
      = HostValue.convAB (y0 m ρ c) (m ((c : Thread nD τ).loc main_arg5)) (m ((c : Thread nD τ).loc main_arg6)) := by
  show rd _ (StableHlo.after hostOps1 (W1 m ρ c)) = _
  dsimp only [hostOps1]
  typed_results
  rw [rd_W1_arg5 m ρ c, rd_W1_arg6 m ρ c, rd_W1_out m ρ c]
  simp only [HostValue.convAB, HostValue.agg50000, HostValue.msg100000, HostValue.scaled100000, HostValue.inv100000,
    HostValue.deg100000, HostValue.col100000, HostValue.col50000, HostValue.inv50000, HostValue.deg50000,
    HostValue.wrapIdx100000, HostValue.ones]

/-- After the second stretch: the b→a convolution, of region 1's output and the b→a index arrays. -/
theorem convBA_W4 (c : Dev nD) :
    rd (.of main_call0_v77 : StableHlo.TRef sig ⟨S100000x128, .f32⟩) (W4 m ρ c)
      = HostValue.convBA (y1 m ρ c) (m ((c : Thread nD τ).loc main_arg7)) (m ((c : Thread nD τ).loc main_arg8)) := by
  show rd _ (StableHlo.after hostOps2 (W3 m ρ c)) = _
  dsimp only [hostOps2]
  typed_results
  rw [rd_W3_arg7 m ρ c, rd_W3_arg8 m ρ c, rd_W3_out m ρ c]
  simp only [HostValue.convBA, HostValue.agg100000, HostValue.msg50000, HostValue.scaled50000, HostValue.inv50000,
    HostValue.deg50000, HostValue.col50000, HostValue.col100000, HostValue.inv100000, HostValue.deg100000,
    HostValue.wrapIdx50000, HostValue.ones]

/-- Neither region 1, nor the second stretch, nor region 2 writes the a→b convolution's buffer. -/
theorem W5_convAB (c : Dev nD) :
    W5 m ρ c (Proc.devRef .tc main_call0_v38) = W2 m ρ c (Proc.devRef .tc main_call0_v38) :=
  calc W5 m ρ c (Proc.devRef .tc main_call0_v38)
    _ = W4 m ρ c (Proc.devRef .tc main_call0_v38) := W5_of_ne m ρ c main_call0_v38 (by decide)
    _ = W3 m ρ c (Proc.devRef .tc main_call0_v38) := by stretch_leaves hostOps2
    _ = W2 m ρ c (Proc.devRef .tc main_call0_v38) := W3_of_ne m ρ c main_call0_v38 (by decide)

/-- Region 2 does not write the b→a convolution's buffer. -/
theorem W5_convBA (c : Dev nD) :
    W5 m ρ c (Proc.devRef .tc main_call0_v77) = W4 m ρ c (Proc.devRef .tc main_call0_v77) :=
  W5_of_ne m ρ c main_call0_v77 (by decide)

theorem rd_W5_convAB (c : Dev nD) :
    rd (.of main_call0_v38 : StableHlo.TRef sig ⟨S50000x128, .f32⟩) (W5 m ρ c)
      = HostValue.convAB (y0 m ρ c) (m ((c : Thread nD τ).loc main_arg5)) (m ((c : Thread nD τ).loc main_arg6)) :=
  (rd_congr (G := W2 m ρ c) _ (W5_convAB m ρ c)).trans (convAB_W2 m ρ c)

theorem rd_W5_convBA (c : Dev nD) :
    rd (.of main_call0_v77 : StableHlo.TRef sig ⟨S100000x128, .f32⟩) (W5 m ρ c)
      = HostValue.convBA (y1 m ρ c) (m ((c : Thread nD τ).loc main_arg7)) (m ((c : Thread nD τ).loc main_arg8)) :=
  (rd_congr (G := W4 m ρ c) _ (W5_convBA m ρ c)).trans (convBA_W4 m ρ c)

/-! ## The two results -/

/-- The b-node result: the a→b convolution, rectified in the last stretch. -/
theorem resB_W6 (c : Dev nD) :
    rd (.of main_v0_1 : StableHlo.TRef sig ⟨S50000x128, .f32⟩) (W6 m ρ c)
      = HostValue.resB (y0 m ρ c) (m ((c : Thread nD τ).loc main_arg5)) (m ((c : Thread nD τ).loc main_arg6)) := by
  show rd _ (StableHlo.after hostOps3 (W5 m ρ c)) = _
  dsimp only [hostOps3]
  typed_results
  rw [rd_W5_convAB m ρ c]
  simp only [HostValue.resB]

/-- The a-node result: the a→a convolution is computed in the last stretch from region 2's output, added to the b→a
    convolution, halved and rectified. -/
theorem resA_W6 (c : Dev nD) :
    rd (.of main_v0_0 : StableHlo.TRef sig ⟨S100000x128, .f32⟩) (W6 m ρ c)
      = HostValue.resA (y1 m ρ c) (y2 m ρ c) (m ((c : Thread nD τ).loc main_arg7)) (m ((c : Thread nD τ).loc main_arg8))
          (m ((c : Thread nD τ).loc main_arg9)) (m ((c : Thread nD τ).loc main_arg10)) := by
  show rd _ (StableHlo.after hostOps3 (W5 m ρ c)) = _
  dsimp only [hostOps3]
  typed_results
  rw [rd_W5_convBA m ρ c, rd_W5_arg9 m ρ c, rd_W5_arg10 m ρ c, rd_W5_out m ρ c]
  simp only [HostValue.resA, HostValue.convAA, HostValue.agg100000, HostValue.msg100000, HostValue.scaled100000,
    HostValue.inv100000, HostValue.deg100000, HostValue.col100000, HostValue.wrapIdx100000, HostValue.ones]

/-- The last boundary's contents at the two result buffers. -/
theorem results (c : Dev nD) :
    W6 m ρ c (Proc.devRef .tc main_v0_0)
        = HostValue.resA (y1 m ρ c) (y2 m ρ c) (m ((c : Thread nD τ).loc main_arg7)) (m ((c : Thread nD τ).loc main_arg8))
            (m ((c : Thread nD τ).loc main_arg9)) (m ((c : Thread nD τ).loc main_arg10))
      ∧ W6 m ρ c (Proc.devRef .tc main_v0_1)
        = HostValue.resB (y0 m ρ c) (m ((c : Thread nD τ).loc main_arg5)) (m ((c : Thread nD τ).loc main_arg6)) :=
  ⟨eq_of_heq ((rd_heq (.of main_v0_0 : StableHlo.TRef sig ⟨S100000x128, .f32⟩) (W6 m ρ c)).symm.trans (heq_of_eq (resA_W6 m ρ c))),
   eq_of_heq ((rd_heq (.of main_v0_1 : StableHlo.TRef sig ⟨S50000x128, .f32⟩) (W6 m ρ c)).symm.trans (heq_of_eq (resB_W6 m ρ c)))⟩

/-! ## The run ends at the last boundary's contents

The launch over @main's six segments (three regions among three stretches of host operations): the thread state
"every unscoped buffer at the boundary's contents" is carried from the launch memory `W0` to `W6`, and the last
thread state is read against the final memory, buffer by buffer. -/

-- the launch theorem's implicit arguments are found by unifying its conclusion with this one, which takes unfolding
-- plain definitions in a metavariable's type
set_option backward.isDefEq.respectTransparency.types false in
theorem run_W6 : θ_run defs (onTc (τ := τ) (main (F := Ideal))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-! ## The run, with its results named -/

/-- Every weakly fair execution of @main ends with the two result buffers at the host arithmetic of the argument
    arrays and the regions' outputs, and the eleven argument arrays as launched. -/
theorem run : θ_run defs (onTc (τ := τ) (main (F := Ideal))) ⟨m, fun _ => 0, ρ⟩ (fun r => ∀ c : Dev nD,
      r.2.mem ((c.tc : Thread nD τ).loc main_v0_0)
          = HostValue.resA (y1 m ρ c) (y2 m ρ c) (m ((c.tc : Thread nD τ).loc main_arg7)) (m ((c.tc : Thread nD τ).loc main_arg8))
              (m ((c.tc : Thread nD τ).loc main_arg9)) (m ((c.tc : Thread nD τ).loc main_arg10))
      ∧ r.2.mem ((c.tc : Thread nD τ).loc main_v0_1)
          = HostValue.resB (y0 m ρ c) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_v0_0 (by decide))).trans (results m ρ c).1,
     (h c _ (mem_uc main_v0_1 (by decide))).trans (results m ρ c).2,
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c)⟩) (run_W6 m ρ)

end Cert.KernelIdeal.RunValue

end
-- ==== Proof.LibDot.lean ====
/-
  A product of an `[m, k]` array by a `[k, n]` array over ONE contracted axis, read at an output index `(p, e)` on the
  extended reals as the plain sum `∑ⱼ A[p, j] · B[j, e]` over `j : Fin k` — for the vector unit's matrix product into a zero
  accumulator and for the host's `dot_general` alike, whatever the two operands' float formats.  The dimension numbers
  enter only through four facts: where they send an output index and a contraction index in each operand.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index, re-indexed by the contracted axis's one coordinate. -/
theorem contract_sum {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : FVec Ideal ⟨2, ![m, k]⟩ φ₁) (B : FVec Ideal ⟨2, ![k, n]⟩ φ₂) (p : Fin m) (e : Fin n) :
    ∑ q : D.contr.Idx, A (D.lhsIdx (ix2 p e) q) * B (D.rhsIdx (ix2 p e) q) = ∑ j : Fin k, A (ix2 p j) * B (ix2 j e) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

/-- The vector unit's matrix product into the zero accumulator, at `(p, e)`. -/
theorem matmul_zero_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ φ₁) (B : FVec Ideal ⟨2, ![k, n]⟩ φ₂)
    (p : Fin m) (e : Fin n) :
    FloatOps.matmul D prec A B (constant ⟨2, ![m, n]⟩ .f32 0x00000000#32) (ix2 p e) = ∑ j : Fin k, A (ix2 p j) * B (ix2 j e) :=
  (Ideal.matmul_constant_zero_apply D prec A B (ix2 p e)).trans (contract_sum D hr hs hl0 hl1 hr0 hr1 A B p e)

/-- The host's `dot_general`, at `(p, e)`. -/
theorem dotGeneral_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (sched : HostSchedule) (A : FVec Ideal ⟨2, ![m, k]⟩ φ₁) (B : FVec Ideal ⟨2, ![k, n]⟩ φ₂)
    (p : Fin m) (e : Fin n) :
    FloatOps.dotGeneral D prec sched A B (ix2 p e) = ∑ j : Fin k, A (ix2 p j) * B (ix2 j e) :=
  (Ideal.dotGeneral_apply D prec sched A B (ix2 p e)).trans (contract_sum D hr hs hl0 hl1 hr0 hr1 A B p e)

end Cert.LibDot

end
-- ==== Proof.KRegions.lean ====
/-
  Each of the three row-blocked products `x · w`, read off the pipeline: after the last grid point the result array
  holds, at `(i, k)`, the sum over `j` of `x[i, j] · w[j, k]` (`Cert.Conv.matProd`) of the two arrays the region reads,
  whatever the buffers hold when the region is entered.

  A grid point `t` loads rows `2000·t … 2000·t + 1999` of `x` and the whole of `w`, forms their product into a zero
  accumulator, and writes it to the same rows of the result. On the extended reals the changes of float format are
  the identity and the accumulated product is the plain finite sum, so what point `t` writes is block `t` of the one
  function `prod`; the blocks `t = 0 … N/2000 − 1` cover every row (row `r` lies in block `r / 2000`), hence the
  array ends equal to `prod`.
-/
import proofs.«179717_j59854664237638_2_alg».proof.Proof.Gen.KernelIdeal.Frame
import proofs.«179717_j59854664237638_2_alg».proof.Proof.ConvSpec
import proofs.«179717_j59854664237638_2_alg».proof.Proof.LibDot
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-block access, as a constant function. -/
theorem zero_offsets : (![0, 0] : Fin 2 → Nat) = fun _ => 0 := funext fun a => by fin_cases a <;> rfl

/-! ## Region 0: `[100000, 128] · [128, 128]` in 50 row blocks of 2000 -/

section Region0

variable (V : (c : Dev nD) → (b : Ref sig .tc) → Buf (Elt Ideal) ((c : Thread nD τ).loc b))

/-- The array the region leaves, as one function of the two arrays it reads: at `(i, k)` the sum over `j` of
    `x[i, j] · w[j, k]`. -/
def prod0 (c : Dev nD) : S100000x128.Idx → EReal := fun i =>
  Cert.Conv.matProd (N := 100000) (D := 128) (C := 128) (V c (Pipeline.arrRef spec0 0)) (V c (Pipeline.arrRef spec0 1)) (i 0) (i 1)

/-- The body's result at `(p, q)` of its block: on the extended reals both changes of format are the identity, and the
    product into the zero accumulator is the plain sum over the contracted axis. -/
theorem pay0_apply (x0 : Vec Ideal S2000x128 .f32) (x1 : Vec Ideal S128x128 .f32) (p : Fin 2000) (q : Fin 128) :
    k0_pay1 x0 x1 (ix2 p q) = ∑ j : Fin 128, x0 (ix2 p j) * x1 (ix2 j q) := by
  unfold k0_pay1
  exact Cert.LibDot.matmul_zero_apply dot_S2000x128_S128x128_S2000x128_1_0_0_1_n_n rfl rfl
    (fun _ _ => rfl) (fun _ _ => rfl) (fun _ _ => rfl) (fun _ _ => rfl) none _ _ p q

/-- The index maps over the 50 grid points: the left operand's row block and the result's row block both sit at the
    point's own number; every other block index is zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product: row `p` of the block is row `2000·t + p` of the left
    operand, and the right operand's one block is the whole of it. -/
theorem flushed0_eq (c : Dev nD) (t : Fin cfg0.N) :
    (dat0 (F := Ideal) V c).flushed 2 t = ((cfg0.win 2).blk t).view.read (Elt Ideal) (prod0 V c) := by
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x128) zero_offsets]
  funext y
  obtain ⟨p, q, rfl⟩ : ∃ (p : Fin 2000) (q : Fin 128), y = ix2 p q := ⟨y 0, y 1, eq_ix2 y⟩
  show k0_pay1 (iblk0 V c 0 t) (iblk0 V c 1 t) (ix2 p q) = prod0 V c (((cfg0.win 2).blk t).view.emb (ix2 p q))
  refine (pay0_apply _ _ p q).trans ?_
  obtain ⟨e00, e01, e10, e11, e20, e21⟩ := idx0 t
  unfold prod0 Cert.Conv.matProd
  refine Finset.sum_congr rfl fun j _ => ?_
  have h0 : ((cfg0.win 0).blk t).view.emb (ix2 p j) = ix2 (((cfg0.win 2).blk t).view.emb (ix2 p q) 0) j := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * j.val = j.val; omega
  have h1 : ((cfg0.win 1).blk t).view.emb (ix2 j q) = ix2 j (((cfg0.win 2).blk t).view.emb (ix2 p q) 1) := by
    funext a; apply Fin.ext
    match a with
    | ⟨0, _⟩ => show win0_1.index t (0 : Fin 2) * 128 + 1 * j.val = j.val; omega
    | ⟨1, _⟩ => show win0_1.index t (1 : Fin 2) * 128 + 1 * q.val = win0_2.index t (1 : Fin 2) * 128 + 1 * q.val; omega
  exact congrArg₂ (fun a b : EReal => a * b) (congrArg (V c (Pipeline.arrRef spec0 0)) h0)
    (congrArg (V c (Pipeline.arrRef spec0 1)) h1)

/-- An index lies in point `t`'s result block iff each coordinate lies in the block's range on its axis. -/
theorem mem_blk0 (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_call0_v0).slice (win0_2.rect t)).set ↔ _
  rw [View.set_slice_whole, Rect.mem_set_unit]
  exact Iff.rfl

/-- Every index is in some point's block: row `r` is in block `r / 2000`. -/
theorem cover0 (i : S100000x128.Idx) :
    ∃ t : Fin cfg0.N, (cfg0.win 2).flush t = true ∧ i ∈ ((cfg0.win 2).blk t).view.set := by
  have hN : cfg0.N = 50 := N_0
  have hi0 : (i 0).val < 100000 := (i 0).isLt
  have hi1 : (i 1).val < 128 := (i 1).isLt
  have ht : (i 0).val / 2000 < cfg0.N := by rw [hN]; omega
  obtain ⟨-, -, -, -, e20, e21⟩ := idx0 ⟨(i 0).val / 2000, ht⟩
  have e20' : win0_2.index ⟨(i 0).val / 2000, ht⟩ (0 : Fin 2) = (i 0).val / 2000 := e20
  refine ⟨⟨(i 0).val / 2000, ht⟩, flush0_2 _, ?_⟩
  rw [mem_blk0]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    omega
  | ⟨1, _⟩ =>
    show win0_2.index ⟨(i 0).val / 2000, ht⟩ (1 : Fin 2) * 128 ≤ (i 1).val
      ∧ (i 1).val < win0_2.index ⟨(i 0).val / 2000, ht⟩ (1 : Fin 2) * 128 + 128
    omega

/-- The result array after the last point is the product. -/
theorem final0 (c : Dev nD) : (dat0 (F := Ideal) V c).arrAt 2 cfg0.N = prod0 V c :=
  (dat0 (F := Ideal) V c).arrAt_eq_of_cover 2 (prod0 V c) (fun t _ => flushed0_eq V c t) cover0

/-- The result array at `(i, k)`. -/
theorem region0_apply (c : Dev nD) (i : Fin 100000) (k : Fin 128) :
    ((Gen.dat0 (F := Ideal) V c).arrAt 2 cfg0.N) (ValueIdx.ix2 i k)
      = Cert.Conv.matProd (N := 100000) (D := 128) (C := 128) (V c (Pipeline.arrRef spec0 0))
          (V c (Pipeline.arrRef spec0 1)) i k :=
  congrFun (final0 V c) (ix2 i k)

end Region0

/-! ## Region 1: `[50000, 128] · [128, 128]` in 25 row blocks of 2000 -/

section Region1

variable (V : (c : Dev nD) → (b : Ref sig .tc) → Buf (Elt Ideal) ((c : Thread nD τ).loc b))

/-- The array the region leaves, as one function of the two arrays it reads: at `(i, k)` the sum over `j` of
    `x[i, j] · w[j, k]`. -/
def prod1 (c : Dev nD) : S50000x128.Idx → EReal := fun i =>
  Cert.Conv.matProd (N := 50000) (D := 128) (C := 128) (V c (Pipeline.arrRef spec1 0)) (V c (Pipeline.arrRef spec1 1)) (i 0) (i 1)

/-- The body's result at `(p, q)` of its block: on the extended reals both changes of format are the identity, and the
    product into the zero accumulator is the plain sum over the contracted axis. -/
theorem pay1_apply (x0 : Vec Ideal S2000x128 .f32) (x1 : Vec Ideal S128x128 .f32) (p : Fin 2000) (q : Fin 128) :
    k1_pay1 x0 x1 (ix2 p q) = ∑ j : Fin 128, x0 (ix2 p j) * x1 (ix2 j q) := by
  unfold k1_pay1
  exact Cert.LibDot.matmul_zero_apply dot_S2000x128_S128x128_S2000x128_1_0_0_1_n_n rfl rfl
    (fun _ _ => rfl) (fun _ _ => rfl) (fun _ _ => rfl) (fun _ _ => rfl) none _ _ p q

/-- The index maps over the 25 grid points: the left operand's row block and the result's row block both sit at the
    point's own number; every other block index is zero. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product: row `p` of the block is row `2000·t + p` of the left
    operand, and the right operand's one block is the whole of it. -/
theorem flushed1_eq (c : Dev nD) (t : Fin cfg1.N) :
    (dat1 (F := Ideal) V c).flushed 2 t = ((cfg1.win 2).blk t).view.read (Elt Ideal) (prod1 V c) := by
  show (cfg1.win 2).cut (grid1.coords t) ((dat1 V c).after 2 t) = _
  rw [after1_2]
  unfold out1_2
  rw [View.canon_unit_zero zero_offsets]
  simp only [View.ld_unit_zero (S := S2000x128) zero_offsets, View.ld_unit_zero (S := S128x128) zero_offsets]
  funext y
  obtain ⟨p, q, rfl⟩ : ∃ (p : Fin 2000) (q : Fin 128), y = ix2 p q := ⟨y 0, y 1, eq_ix2 y⟩
  show k1_pay1 (iblk1 V c 0 t) (iblk1 V c 1 t) (ix2 p q) = prod1 V c (((cfg1.win 2).blk t).view.emb (ix2 p q))
  refine (pay1_apply _ _ p q).trans ?_
  obtain ⟨e00, e01, e10, e11, e20, e21⟩ := idx1 t
  unfold prod1 Cert.Conv.matProd
  refine Finset.sum_congr rfl fun j _ => ?_
  have h0 : ((cfg1.win 0).blk t).view.emb (ix2 p j) = ix2 (((cfg1.win 2).blk t).view.emb (ix2 p q) 0) j := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * j.val = j.val; omega
  have h1 : ((cfg1.win 1).blk t).view.emb (ix2 j q) = ix2 j (((cfg1.win 2).blk t).view.emb (ix2 p q) 1) := by
    funext a; apply Fin.ext
    match a with
    | ⟨0, _⟩ => show win1_1.index t (0 : Fin 2) * 128 + 1 * j.val = j.val; omega
    | ⟨1, _⟩ => show win1_1.index t (1 : Fin 2) * 128 + 1 * q.val = win1_2.index t (1 : Fin 2) * 128 + 1 * q.val; omega
  exact congrArg₂ (fun a b : EReal => a * b) (congrArg (V c (Pipeline.arrRef spec1 0)) h0)
    (congrArg (V c (Pipeline.arrRef spec1 1)) h1)

/-- An index lies in point `t`'s result block iff each coordinate lies in the block's range on its axis. -/
theorem mem_blk1 (t : Fin cfg1.N) (i : S50000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_call0_v39).slice (win1_2.rect t)).set ↔ _
  rw [View.set_slice_whole, Rect.mem_set_unit]
  exact Iff.rfl

/-- Every index is in some point's block: row `r` is in block `r / 2000`. -/
theorem cover1 (i : S50000x128.Idx) :
    ∃ t : Fin cfg1.N, (cfg1.win 2).flush t = true ∧ i ∈ ((cfg1.win 2).blk t).view.set := by
  have hN : cfg1.N = 25 := N_1
  have hi0 : (i 0).val < 50000 := (i 0).isLt
  have hi1 : (i 1).val < 128 := (i 1).isLt
  have ht : (i 0).val / 2000 < cfg1.N := by rw [hN]; omega
  obtain ⟨-, -, -, -, e20, e21⟩ := idx1 ⟨(i 0).val / 2000, ht⟩
  have e20' : win1_2.index ⟨(i 0).val / 2000, ht⟩ (0 : Fin 2) = (i 0).val / 2000 := e20
  refine ⟨⟨(i 0).val / 2000, ht⟩, flush1_2 _, ?_⟩
  rw [mem_blk1]
  intro a
  match a with
  | ⟨0, _⟩ =>
    show win1_2.index ⟨(i 0).val / 2000, ht⟩ (0 : Fin 2) * 2000 ≤ (i 0).val
      ∧ (i 0).val < win1_2.index ⟨(i 0).val / 2000, ht⟩ (0 : Fin 2) * 2000 + 2000
    omega
  | ⟨1, _⟩ =>
    show win1_2.index ⟨(i 0).val / 2000, ht⟩ (1 : Fin 2) * 128 ≤ (i 1).val
      ∧ (i 1).val < win1_2.index ⟨(i 0).val / 2000, ht⟩ (1 : Fin 2) * 128 + 128
    omega

/-- The result array after the last point is the product. -/
theorem final1 (c : Dev nD) : (dat1 (F := Ideal) V c).arrAt 2 cfg1.N = prod1 V c :=
  (dat1 (F := Ideal) V c).arrAt_eq_of_cover 2 (prod1 V c) (fun t _ => flushed1_eq V c t) cover1

/-- The result array at `(i, k)`. -/
theorem region1_apply (c : Dev nD) (i : Fin 50000) (k : Fin 128) :
    ((Gen.dat1 (F := Ideal) V c).arrAt 2 cfg1.N) (ValueIdx.ix2 i k)
      = Cert.Conv.matProd (N := 50000) (D := 128) (C := 128) (V c (Pipeline.arrRef spec1 0))
          (V c (Pipeline.arrRef spec1 1)) i k :=
  congrFun (final1 V c) (ix2 i k)

end Region1

/-! ## Region 2: `[100000, 128] · [128, 128]` in 50 row blocks of 2000 -/

section Region2

variable (V : (c : Dev nD) → (b : Ref sig .tc) → Buf (Elt Ideal) ((c : Thread nD τ).loc b))

/-- The array the region leaves, as one function of the two arrays it reads: at `(i, k)` the sum over `j` of
    `x[i, j] · w[j, k]`. -/
def prod2 (c : Dev nD) : S100000x128.Idx → EReal := fun i =>
  Cert.Conv.matProd (N := 100000) (D := 128) (C := 128) (V c (Pipeline.arrRef spec2 0)) (V c (Pipeline.arrRef spec2 1)) (i 0) (i 1)

/-- The body's result at `(p, q)` of its block: on the extended reals both changes of format are the identity, and the
    product into the zero accumulator is the plain sum over the contracted axis. -/
theorem pay2_apply (x0 : Vec Ideal S2000x128 .f32) (x1 : Vec Ideal S128x128 .f32) (p : Fin 2000) (q : Fin 128) :
    k2_pay1 x0 x1 (ix2 p q) = ∑ j : Fin 128, x0 (ix2 p j) * x1 (ix2 j q) := by
  unfold k2_pay1
  exact Cert.LibDot.matmul_zero_apply dot_S2000x128_S128x128_S2000x128_1_0_0_1_n_n rfl rfl
    (fun _ _ => rfl) (fun _ _ => rfl) (fun _ _ => rfl) (fun _ _ => rfl) none _ _ p q

/-- The index maps over the 50 grid points: the left operand's row block and the result's row block both sit at the
    point's own number; every other block index is zero. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product: row `p` of the block is row `2000·t + p` of the left
    operand, and the right operand's one block is the whole of it. -/
theorem flushed2_eq (c : Dev nD) (t : Fin cfg2.N) :
    (dat2 (F := Ideal) V c).flushed 2 t = ((cfg2.win 2).blk t).view.read (Elt Ideal) (prod2 V c) := by
  show (cfg2.win 2).cut (grid2.coords t) ((dat2 V c).after 2 t) = _
  rw [after2_2]
  unfold out2_2
  rw [View.canon_unit_zero zero_offsets]
  simp only [View.ld_unit_zero (S := S2000x128) zero_offsets, View.ld_unit_zero (S := S128x128) zero_offsets]
  funext y
  obtain ⟨p, q, rfl⟩ : ∃ (p : Fin 2000) (q : Fin 128), y = ix2 p q := ⟨y 0, y 1, eq_ix2 y⟩
  show k2_pay1 (iblk2 V c 0 t) (iblk2 V c 1 t) (ix2 p q) = prod2 V c (((cfg2.win 2).blk t).view.emb (ix2 p q))
  refine (pay2_apply _ _ p q).trans ?_
  obtain ⟨e00, e01, e10, e11, e20, e21⟩ := idx2 t
  unfold prod2 Cert.Conv.matProd
  refine Finset.sum_congr rfl fun j _ => ?_
  have h0 : ((cfg2.win 0).blk t).view.emb (ix2 p j) = ix2 (((cfg2.win 2).blk t).view.emb (ix2 p q) 0) j := by
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * j.val = j.val; omega
  have h1 : ((cfg2.win 1).blk t).view.emb (ix2 j q) = ix2 j (((cfg2.win 2).blk t).view.emb (ix2 p q) 1) := by
    funext a; apply Fin.ext
    match a with
    | ⟨0, _⟩ => show win2_1.index t (0 : Fin 2) * 128 + 1 * j.val = j.val; omega
    | ⟨1, _⟩ => show win2_1.index t (1 : Fin 2) * 128 + 1 * q.val = win2_2.index t (1 : Fin 2) * 128 + 1 * q.val; omega
  exact congrArg₂ (fun a b : EReal => a * b) (congrArg (V c (Pipeline.arrRef spec2 0)) h0)
    (congrArg (V c (Pipeline.arrRef spec2 1)) h1)

/-- An index lies in point `t`'s result block iff each coordinate lies in the block's range on its axis. -/
theorem mem_blk2 (t : Fin cfg2.N) (i : S100000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_call0_v78).slice (win2_2.rect t)).set ↔ _
  rw [View.set_slice_whole, Rect.mem_set_unit]
  exact Iff.rfl

/-- Every index is in some point's block: row `r` is in block `r / 2000`. -/
theorem cover2 (i : S100000x128.Idx) :
    ∃ t : Fin cfg2.N, (cfg2.win 2).flush t = true ∧ i ∈ ((cfg2.win 2).blk t).view.set := by
  have hN : cfg2.N = 50 := N_2
  have hi0 : (i 0).val < 100000 := (i 0).isLt
  have hi1 : (i 1).val < 128 := (i 1).isLt
  have ht : (i 0).val / 2000 < cfg2.N := by rw [hN]; omega
  obtain ⟨-, -, -, -, e20, e21⟩ := idx2 ⟨(i 0).val / 2000, ht⟩
  have e20' : win2_2.index ⟨(i 0).val / 2000, ht⟩ (0 : Fin 2) = (i 0).val / 2000 := e20
  refine ⟨⟨(i 0).val / 2000, ht⟩, flush2_2 _, ?_⟩
  rw [mem_blk2]
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    omega
  | ⟨1, _⟩ =>
    show win2_2.index ⟨(i 0).val / 2000, ht⟩ (1 : Fin 2) * 128 ≤ (i 1).val
      ∧ (i 1).val < win2_2.index ⟨(i 0).val / 2000, ht⟩ (1 : Fin 2) * 128 + 128
    omega

/-- The result array after the last point is the product. -/
theorem final2 (c : Dev nD) : (dat2 (F := Ideal) V c).arrAt 2 cfg2.N = prod2 V c :=
  (dat2 (F := Ideal) V c).arrAt_eq_of_cover 2 (prod2 V c) (fun t _ => flushed2_eq V c t) cover2

/-- The result array at `(i, k)`. -/
theorem region2_apply (c : Dev nD) (i : Fin 100000) (k : Fin 128) :
    ((Gen.dat2 (F := Ideal) V c).arrAt 2 cfg2.N) (ValueIdx.ix2 i k)
      = Cert.Conv.matProd (N := 100000) (D := 128) (C := 128) (V c (Pipeline.arrRef spec2 0))
          (V c (Pipeline.arrRef spec2 1)) i k :=
  congrFun (final2 V c) (ix2 i k)

end Region2

end Cert.KernelIdeal.RegionValue

end
-- ==== Proof.LibVecGather.lean ====
/-
  A gather from a vector read at an index, over abstract extents `N` (entries of the table) and `E` (number of start
  indices).

  `stablehlo.gather` of a table `x : [N]` at start indices `idx : [E, 1]` with no offset axis, collapsed axis 0, start
  index map `[0]`, index vector axis 1 and slice sizes `[1]` (what taking entries `x[src]` is) reads, at `e`, the table
  at the entry `idx[e, 0]` names — the word read as a SIGNED integer and CLAMPED into `[0, N − 1]`: the one operand axis
  is collapsed and named by the start index map, so its coordinate is the clamped start, with no batching and no
  offset coordinate.
-/
import Idealize.ShloMosaic.PureOps.Ideal
import Idealize.ShloMosaic.Lib.ValueIdx
import proofs.«179717_j59854664237638_2_alg».proof.Proof.LibSegment

noncomputable section

namespace Cert.LibVecGather

open Idealize.ShloMosaic Idealize.ShloMosaic.ValueIdx Cert.LibSegment

/-- The dimension numbers of a gather from a vector: operand `[N]`, start indices `[E, 1]`, result `[E]`; their
    conditions `wf` are decided on a program's literal shapes. -/
abbrev vecGatherDims (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the table at the entry `idx[e, 0]` names (signed, clamped into `[0, N − 1]`). -/
theorem vecGather_apply {α : Type} {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e (0 : Fin 1))))) := by
  unfold Host.gather
  congr 1
  funext a
  obtain rfl : a = 0 := Subsingleton.elim _ _
  refine Fin.ext ?_
  -- the one axis is collapsed and named by the start index map: the coordinate is the clamped start
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.LibVecGather

end
-- ==== Proof.RefValue.lean ====
/-
  The reference program's edge type AB (sources among the 100000 nodes, destinations among the 50000) and its second
  result, read at an index, in the QUOTIENT form of the shared specification.

  For an edge type the reference computes, in this order: the two degree vectors (a segment sum of ones
  into zeros, at the raw source words and at the raw destination words); the wrapped words (a negative word has the
  extent added) for each of its three gathers; the normaliser `√(deg_s[src] · deg_d[dst])` per edge, both degrees
  gathered at the wrapped, clamped rows; the projected features `x · W`, gathered at the wrapped, clamped source row; the
  quotient of the two; and the segment sum of the quotients, at the raw destination words, into zeros. Read at a node
  `t` and a column `k` this is `Cert.Conv.convQuot` word for word: a gather reads the signed, clamped row
  (`Cert.Conv.rowOf`), a segment sum at the extended reals is the operand plus the sum over the edges whose signed word IS
  the node (`Cert.Conv.into`), and a product of matrices is a plain sum (`Cert.Conv.matProd`). Nothing is evaluated and
  no precondition is used: the constant words stay words.
-/
import proofs.«179717_j59854664237638_2_alg».proof.Proof.Gen.ReferenceIdeal.Read
import proofs.«179717_j59854664237638_2_alg».proof.Proof.LibSegment
import proofs.«179717_j59854664237638_2_alg».proof.Proof.LibVecGather
import proofs.«179717_j59854664237638_2_alg».proof.Proof.ConvSpec

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.StableHlo Cert.LibSegment Cert.LibVecGather Cert.Conv

/-! ## Size-free steps -/

/-- The edges landing at a node through a one-column index array are the edges its words count at the node. -/
theorem landing_eq_into {N E : ℕ} (idx : IVec ⟨2, ![E, 1]⟩ 32) (s : Fin E → BitVec 32)
    (h : ∀ e, idx (ix2 e (0 : Fin 1)) = s e) (i : Fin N) : landing idx i = into s i := by
  unfold landing into
  exact Finset.filter_congr fun e _ => by rw [h e]

/-- A segment sum of ones into zeros is the degree. -/
theorem deg_of_scatter {N E : ℕ} (wf : ScatterDims.WF ⟨1, ![N]⟩ ⟨2, ![E, 1]⟩ ⟨1, ![E]⟩ [] [0] [0] 1)
    (z : (⟨1, ![N]⟩ : Shape).Idx → EReal) (idx : IVec ⟨2, ![E, 1]⟩ 32) (o : (⟨1, ![E]⟩ : Shape).Idx → EReal)
    (s : Fin E → BitVec 32) (hz : ∀ i, z (ix1 i) = zeroW) (ho : ∀ e, o (ix1 e) = oneW)
    (hs : ∀ e, idx (ix2 e (0 : Fin 1)) = s e) (i : Fin N) :
    Ideal.hostScatterAdd (vecScatterDims N E wf) z idx o (ix1 i) = deg s i := by
  rw [vecScatterAdd_apply, hz, landing_eq_into idx s hs]
  unfold deg
  exact congrArg (zeroW + ·) (Finset.sum_congr rfl fun e _ => ho e)

/-- A segment sum, into zeros at the destination words, of the source rows over the normalisers is the quotient form. -/
theorem convQuot_of_scatter {N M E C : ℕ} (hN : 0 < N) (hM : 0 < M) (nN nM : BitVec 32) (Y : Fin N → Fin C → EReal)
    (s d : Fin E → BitVec 32) (wf : ScatterDims.WF ⟨2, ![M, C]⟩ ⟨2, ![E, 1]⟩ ⟨2, ![E, C]⟩ [1] [0] [0] 1)
    (z : (⟨2, ![M, C]⟩ : Shape).Idx → EReal) (idx : IVec ⟨2, ![E, 1]⟩ 32) (msg : (⟨2, ![E, C]⟩ : Shape).Idx → EReal)
    (hz : ∀ t k, z (ix2 t k) = zeroW) (hd : ∀ e, idx (ix2 e (0 : Fin 1)) = d e)
    (hmsg : ∀ e k, msg (ix2 e k)
      = Ideal.div (Y (rowOf N hN nN s e) k) (Ideal.sqrt (deg s (rowOf N hN nN s e) * deg d (rowOf M hM nM d e))))
    (t : Fin M) (k : Fin C) :
    Ideal.hostScatterAdd (rowScatterDims M E C wf) z idx msg (ix2 t k) = convQuot hN hM nN nM Y s d t k := by
  rw [rowScatterAdd_apply, hz, landing_eq_into idx d hd]
  unfold convQuot
  exact congrArg (zeroW + ·) (Finset.sum_congr rfl fun e _ => hmsg e k)

/-- The row an edge reads, spelt out. -/
theorem rowOf_eq {N E : ℕ} (hN : 0 < N) (n : BitVec 32) (s : Fin E → BitVec 32) (e : Fin E) :
    rowOf N hN n s e = clampRow N hN (wrap n (s e)) := rfl

/-! ## The printed dimension numbers are the general ones at the literal extents -/

theorem vecScatter_100000 : scatter_S100000_S1000000x1_S1000000_n_0_0_1
    = vecScatterDims 100000 1000000 scatter_S100000_S1000000x1_S1000000_n_0_0_1_wf := rfl
theorem vecScatter_50000 : scatter_S50000_S1000000x1_S1000000_n_0_0_1
    = vecScatterDims 50000 1000000 scatter_S50000_S1000000x1_S1000000_n_0_0_1_wf := rfl
theorem vecGather_100000 : gather_S100000_S1000000x1_S1000000_n_0_n_n_0_1_1
    = vecGatherDims 100000 1000000 gather_S100000_S1000000x1_S1000000_n_0_n_n_0_1_1_wf := rfl
theorem vecGather_50000 : gather_S50000_S1000000x1_S1000000_n_0_n_n_0_1_1
    = vecGatherDims 50000 1000000 gather_S50000_S1000000x1_S1000000_n_0_n_n_0_1_1_wf := rfl
theorem rowGather_100000 : gather_S100000x128_S1000000x1_S1000000x128_1_0_n_n_0_1_1128
    = rowGatherDims 100000 1000000 128 gather_S100000x128_S1000000x1_S1000000x128_1_0_n_n_0_1_1128_wf := rfl
theorem rowGather_50000 : gather_S50000x128_S1000000x1_S1000000x128_1_0_n_n_0_1_1128
    = rowGatherDims 50000 1000000 128 gather_S50000x128_S1000000x1_S1000000x128_1_0_n_n_0_1_1128_wf := rfl
theorem rowScatter_100000 : scatter_S100000x128_S1000000x1_S1000000x128_1_0_0_1
    = rowScatterDims 100000 1000000 128 scatter_S100000x128_S1000000x1_S1000000x128_1_0_0_1_wf := rfl
theorem rowScatter_50000 : scatter_S50000x128_S1000000x1_S1000000x128_1_0_0_1
    = rowScatterDims 50000 1000000 128 scatter_S50000x128_S1000000x1_S1000000x128_1_0_0_1_wf := rfl

/-- At the extended reals the host's accumulating scatter is the exact sum, as an equation between functions. -/
theorem scatterAdd_ideal {s si u : Shape} {w : ℕ} {φ : FTy} (d : ScatterDims s si u) (x : FVec Ideal s φ)
    (idx : IVec si w) (upd : FVec Ideal u φ) :
    Host.scatterAdd (F := Ideal) d x idx upd = Ideal.hostScatterAdd d x idx upd :=
  Ideal.hostScatterAdd_def d .single x idx upd

theorem outOne_eq (c : EReal) : outOne c = max c zeroW := rfl
theorem outTwo_eq (c₁ c₂ : EReal) : outTwo c₁ c₂ = max ((c₁ + c₂) * halfW) zeroW := rfl

/-! ## Edge type AB: sources among 100000 nodes, destinations among 50000 -/

section AB

variable (x0 : (⟨S100000x128, .f32⟩ : BufTy).Contents (Elt Ideal)) (x2 : (⟨S128x128, .f32⟩ : BufTy).Contents (Elt Ideal))
  (x5 x6 : (⟨S1000000, .i32⟩ : BufTy).Contents (Elt Ideal))

theorem ab_colS (e : Fin 1000000) : val_main_v2 (F := Ideal) x5 (ix2 e (0 : Fin 1)) = x5 (ix1 e) := by
  have hi : idx_main_v2 (ix2 e (0 : Fin 1)) = ix1 e := by funext a; match a with | ⟨0, _⟩ => rfl
  rw [val_main_v2_apply, hi]

theorem ab_colD (e : Fin 1000000) : val_main_v5 (F := Ideal) x6 (ix2 e (0 : Fin 1)) = x6 (ix1 e) := by
  have hi : idx_main_v5 (ix2 e (0 : Fin 1)) = ix1 e := by funext a; match a with | ⟨0, _⟩ => rfl
  rw [val_main_v5_apply, hi]

theorem ab_colD' (e : Fin 1000000) : val_main_v35 (F := Ideal) x6 (ix2 e (0 : Fin 1)) = x6 (ix1 e) := by
  have hi : idx_main_v35 (ix2 e (0 : Fin 1)) = ix1 e := by funext a; match a with | ⟨0, _⟩ => rfl
  rw [val_main_v35_apply, hi]

theorem ab_ones (e : Fin 1000000) : val_main_v0 (F := Ideal) (ix1 e) = oneW := by
  rw [val_main_v0_apply, val_main_cst_apply]; rfl

/-- The degrees at the source words. -/
theorem ab_degS (i : Fin 100000) : val_main_v3 (F := Ideal) x5 (ix1 i) = deg (fun e => x5 (ix1 e)) i := by
  unfold val_main_v3
  rw [scatterAdd_ideal, vecScatter_100000]
  exact deg_of_scatter (N := 100000) (E := 1000000) scatter_S100000_S1000000x1_S1000000_n_0_0_1_wf
    (val_main_v1 (F := Ideal)) (val_main_v2 (F := Ideal) x5) (val_main_v0 (F := Ideal)) (fun e => x5 (ix1 e))
    (fun i => by rw [val_main_v1_apply, val_main_cst_0_apply]; rfl) ab_ones (ab_colS x5) i

/-- The degrees at the destination words. -/
theorem ab_degD (i : Fin 50000) : val_main_v6 (F := Ideal) x6 (ix1 i) = deg (fun e => x6 (ix1 e)) i := by
  unfold val_main_v6
  rw [scatterAdd_ideal, vecScatter_50000]
  exact deg_of_scatter (N := 50000) (E := 1000000) scatter_S50000_S1000000x1_S1000000_n_0_0_1_wf
    (val_main_v4 (F := Ideal)) (val_main_v5 (F := Ideal) x6) (val_main_v0 (F := Ideal)) (fun e => x6 (ix1 e))
    (fun i => by rw [val_main_v4_apply, val_main_cst_1_apply]; rfl) ab_ones (ab_colD x6) i

theorem ab_wrapS (e : Fin 1000000) :
    val_main_v12 (F := Ideal) x5 (ix2 e (0 : Fin 1)) = wrap 100000#32 (x5 (ix1 e)) := by
  have hi : idx_main_v12 (ix2 e (0 : Fin 1)) = ix1 e := by funext a; match a with | ⟨0, _⟩ => rfl
  rw [val_main_v12_apply, hi, val_main_v11_apply, val_main_v8_apply, val_main_v10_apply, val_main_v7_apply,
    val_main_v9_apply, val_main_c_apply, val_main_c_2_apply]
  rfl

theorem ab_wrapD (e : Fin 1000000) :
    val_main_v19 (F := Ideal) x6 (ix2 e (0 : Fin 1)) = wrap 50000#32 (x6 (ix1 e)) := by
  have hi : idx_main_v19 (ix2 e (0 : Fin 1)) = ix1 e := by funext a; match a with | ⟨0, _⟩ => rfl
  rw [val_main_v19_apply, hi, val_main_v18_apply, val_main_v15_apply, val_main_v17_apply, val_main_v14_apply,
    val_main_v16_apply, val_main_c_3_apply, val_main_c_4_apply]
  rfl

theorem ab_wrapS' (e : Fin 1000000) :
    val_main_v29 (F := Ideal) x5 (ix2 e (0 : Fin 1)) = wrap 100000#32 (x5 (ix1 e)) := by
  have hi : idx_main_v29 (ix2 e (0 : Fin 1)) = ix1 e := by funext a; match a with | ⟨0, _⟩ => rfl
  rw [val_main_v29_apply, hi, val_main_v28_apply, val_main_v25_apply, val_main_v27_apply, val_main_v24_apply,
    val_main_v26_apply, val_main_c_5_apply, val_main_c_6_apply]
  rfl

/-- The normaliser of an edge: the root of the product of the two degrees at the rows the edge reads. -/
theorem ab_norm (e : Fin 1000000) : val_main_v22 (F := Ideal) x5 x6 (ix1 e) = (Ideal.sqrt (deg (fun e => x5 (ix1 e)) (rowOf 100000 (by decide) 100000#32 (fun e => x5 (ix1 e)) e) * deg (fun e => x6 (ix1 e)) (rowOf 50000 (by decide) 50000#32 (fun e => x6 (ix1 e)) e))) := by
  have hs : val_main_v13 (F := Ideal) x5 (ix1 e) = deg (fun e => x5 (ix1 e)) (rowOf 100000 (by decide) 100000#32 (fun e => x5 (ix1 e)) e) := by
    unfold val_main_v13
    rw [vecGather_100000, vecGather_apply (by decide : 0 < 100000), ab_wrapS, ab_degS, rowOf_eq]
  have hd : val_main_v20 (F := Ideal) x6 (ix1 e) = deg (fun e => x6 (ix1 e)) (rowOf 50000 (by decide) 50000#32 (fun e => x6 (ix1 e)) e) := by
    unfold val_main_v20
    rw [vecGather_50000, vecGather_apply (by decide : 0 < 50000), ab_wrapD, ab_degD, rowOf_eq]
  rw [val_main_v22_apply, val_main_v21_apply, hs, hd, Ideal.hostUnary_sqrt_def, Ideal.mulf_def]

/-- The projected features are the product of matrices. -/
theorem ab_proj (r : Fin 100000) (k : Fin 128) : val_main_v23 (F := Ideal) x0 x2 (ix2 r k) = (matProd (N := 100000) (D := 128) (C := 128) x0 x2) r k := by
  rw [val_main_v23_apply]
  unfold matProd
  refine Finset.sum_congr rfl fun j _ => ?_
  have hl : lidx_main_v23 (ix2 r k) j = ix2 r j := by funext a; match a with | ⟨0, _⟩ => rfl | ⟨1, _⟩ => rfl
  have hr : ridx_main_v23 (ix2 r k) j = ix2 j k := by funext a; match a with | ⟨0, _⟩ => rfl | ⟨1, _⟩ => rfl
  rw [hl, hr]

/-- What an edge brings: its source row over its normaliser. -/
theorem ab_msg (e : Fin 1000000) (k : Fin 128) :
    val_main_v33 (F := Ideal) x0 x2 x5 x6 (ix2 e k) = Ideal.div ((matProd (N := 100000) (D := 128) (C := 128) x0 x2) (rowOf 100000 (by decide) 100000#32 (fun e => x5 (ix1 e)) e) k) (Ideal.sqrt (deg (fun e => x5 (ix1 e)) (rowOf 100000 (by decide) 100000#32 (fun e => x5 (ix1 e)) e) * deg (fun e => x6 (ix1 e)) (rowOf 50000 (by decide) 50000#32 (fun e => x6 (ix1 e)) e))) := by
  have hy : val_main_v30 (F := Ideal) x0 x2 x5 (ix2 e k) = (matProd (N := 100000) (D := 128) (C := 128) x0 x2) (rowOf 100000 (by decide) 100000#32 (fun e => x5 (ix1 e)) e) k := by
    unfold val_main_v30
    rw [rowGather_100000, rowGather_apply (by decide : 0 < 100000), ab_wrapS', ab_proj, rowOf_eq]
  have hn : val_main_v32 (F := Ideal) x5 x6 (ix2 e k) = (Ideal.sqrt (deg (fun e => x5 (ix1 e)) (rowOf 100000 (by decide) 100000#32 (fun e => x5 (ix1 e)) e) * deg (fun e => x6 (ix1 e)) (rowOf 50000 (by decide) 50000#32 (fun e => x6 (ix1 e)) e))) := by
    have hi : idx_main_v31 (idx_main_v32 (ix2 e k)) = ix1 e := by funext a; match a with | ⟨0, _⟩ => rfl
    rw [val_main_v32_apply, val_main_v31_apply, hi, ab_norm]
  rw [val_main_v33_apply, hy, hn, Ideal.hostDivf_def]

/-- THE EDGE TYPE'S SUM AT NODE `t`, COLUMN `k`, IN QUOTIENT FORM. -/
theorem conv_ab_apply (t : Fin 50000) (k : Fin 128) :
    val_main_v36 (F := Ideal) x0 x2 x5 x6 (ix2 t k)
      = convQuot (N := 100000) (M := 50000) (E := 1000000) (C := 128) (by decide) (by decide) 100000#32 50000#32
          (matProd (N := 100000) (D := 128) (C := 128) x0 x2) (fun e => x5 (ix1 e)) (fun e => x6 (ix1 e)) t k := by
  unfold val_main_v36
  rw [scatterAdd_ideal, rowScatter_50000]
  exact convQuot_of_scatter (N := 100000) (M := 50000) (E := 1000000) (C := 128) (by decide) (by decide) 100000#32 50000#32 (matProd (N := 100000) (D := 128) (C := 128) x0 x2)
    (fun e => x5 (ix1 e)) (fun e => x6 (ix1 e)) scatter_S50000x128_S1000000x1_S1000000x128_1_0_0_1_wf
    (val_main_v34 (F := Ideal)) (val_main_v35 (F := Ideal) x6) (val_main_v33 (F := Ideal) x0 x2 x5 x6)
    (fun t k => by rw [val_main_v34_apply, val_main_cst_7_apply]; rfl) (ab_colD' x6) (ab_msg x0 x2 x5 x6) t k

end AB

/-! ## The result at the nodes fed by one edge type -/

/-- THE SECOND RESULT AT NODE `t`, COLUMN `k`: the rectified sum of edge type AB. -/
theorem outB_apply (x0 : (⟨S100000x128, .f32⟩ : BufTy).Contents (Elt Ideal)) (x2 : (⟨S128x128, .f32⟩ : BufTy).Contents (Elt Ideal))
    (x5 x6 : (⟨S1000000, .i32⟩ : BufTy).Contents (Elt Ideal)) (t : Fin 50000) (k : Fin 128) :
    val_main_v115 (F := Ideal) x0 x2 x5 x6 (ix2 t k)
      = outOne (convQuot (N := 100000) (M := 50000) (E := 1000000) (C := 128) (by decide) (by decide) 100000#32 50000#32
          (matProd (N := 100000) (D := 128) (C := 128) x0 x2) (fun e => x5 (ix1 e)) (fun e => x6 (ix1 e)) t k) := by
  rw [val_main_v115_apply, conv_ab_apply, val_main_call1_v0_apply, val_main_call1_cst_apply, Ideal.maximumf_def,
    Ideal.ofBits_def, outOne_eq]

end Cert.ReferenceIdeal.RefValue

end
-- ==== Proof.RefValueA.lean ====
/-
  The reference's result for the a nodes, read at an index into the quotient form of the degree-normalised convolution.

  Per edge type the reference sums ones at the raw source and destination words into the two degree vectors; every
  gather index is the word with the extent added where it is negative; an edge's norm is the square root of the product
  of the two degrees gathered at its words; its message is the projected source row it reads divided by its norm; the
  messages are summed at the raw destination words into zeros. The a nodes take the mean of the b→a and a→a
  convolutions, rectified.

  Every lemma reads one printed operation at an index, at the extended reals.
-/
import proofs.«179717_j59854664237638_2_alg».proof.Proof.Gen.ReferenceIdeal.Read
import proofs.«179717_j59854664237638_2_alg».proof.Proof.ConvSpec
import proofs.«179717_j59854664237638_2_alg».proof.Proof.LibSegment
import proofs.«179717_j59854664237638_2_alg».proof.Proof.LibVecGather
import proofs.«179717_j59854664237638_2_alg».proof.Proof.LibColumn
import Idealize.ShloMosaic.Lib.Pipeline.Value
import Idealize.ShloMosaic.Lib.ValueIdx
import Idealize.ShloMosaic.PureOps.Ideal.Laws

noncomputable section

open scoped BigOperators

namespace Cert.ReferenceIdeal.RefValueA

open Cert.ReferenceIdeal Cert.ReferenceIdeal.Gen Cert.ReferenceIdeal.Read Idealize.ShloMosaic Idealize.ShloMosaic.ValueIdx
open Cert.LibSegment Cert.LibColumn Cert.LibVecGather

/-! ## General readings -/

/-- At the extended reals the host's scatter-add is the exact sum (stated of the functions, not at an index). -/
theorem scatterAdd_ideal {s si u : Shape} {w : ℕ} {φ : FTy} (d : ScatterDims s si u) (x : FVec Ideal s φ)
    (idx : IVec si w) (upd : FVec Ideal u φ) :
    Host.scatterAdd (F := Ideal) d x idx upd = Ideal.hostScatterAdd d x idx upd :=
  Ideal.hostScatterAdd_def d .single x idx upd

/-- The edges landing at a node through the index column are those counted at it through the index vector. -/
theorem landing_bcast (h : S1000000.BroadcastsInDim S1000000x1 (![0] : Fin 1 → Fin S1000000x1.rank))
    (idx : IVec S1000000 32) {N : ℕ} (i : Fin N) :
    landing (broadcastInDim S1000000x1 ![0] h idx) i = Cert.Conv.into (fun e => idx (ix1 e)) i := by
  unfold landing Cert.Conv.into
  exact Finset.filter_congr (fun e _ => by rw [bcastInDim_a_a1_apply])

/-- A scalar constant repeated over any shape reads, anywhere, the constant's word. -/
theorem bconst_apply {t : Shape} (h : S_.BroadcastsInDim t (![] : Fin 0 → Fin t.rank)) (b : BitVec FTy.f32.bits) (j : t.Idx) :
    broadcastInDim t ![] h (constant (F := Ideal) S_ .f32 b) j = Ideal.ofBits .f32 b := rfl

/-- The host's square root and division at an index. -/
theorem hostSqrt_apply {s : Shape} {φ : FTy} (x : FVec Ideal s φ) (i : s.Idx) : Host.sqrt x i = Ideal.sqrt (x i) := rfl
theorem hostDivf_apply {s : Shape} {φ : FTy} (x y : FVec Ideal s φ) (i : s.Idx) :
    Host.divf x y i = Ideal.div (x i) (y i) := rfl

theorem outTwo_eq (c₁ c₂ : EReal) :
    Cert.Conv.outTwo c₁ c₂ = max ((c₁ + c₂) * Cert.Conv.halfW) Cert.Conv.zeroW := rfl

/-! ## Edge type b→a: sources among 50000 nodes, destinations among 100000 -/

/-- The source degree: zero plus a one for every edge whose source word is the node. -/
theorem degS_ba (x7 : (⟨S1000000, .i32⟩ : BufTy).Contents (Elt Ideal)) (i : Fin 50000) :
    val_main_v40 (F := Ideal) x7 (ix1 i) = Cert.Conv.deg (fun e => x7 (ix1 e)) i := by
  unfold val_main_v40 val_main_v39
  unfold Cert.Conv.deg
  rw [scatterAdd_ideal,
    show scatter_S50000_S1000000x1_S1000000_n_0_0_1
      = vecScatterDims 50000 1000000 scatter_S50000_S1000000x1_S1000000_n_0_0_1_wf from rfl,
    vecScatterAdd_apply, landing_bcast]
  exact congrArg₂ (· + ·) rfl (Finset.sum_congr rfl (fun e _ => rfl))

/-- The destination degree. -/
theorem degD_ba (x8 : (⟨S1000000, .i32⟩ : BufTy).Contents (Elt Ideal)) (i : Fin 100000) :
    val_main_v43 (F := Ideal) x8 (ix1 i) = Cert.Conv.deg (fun e => x8 (ix1 e)) i := by
  unfold val_main_v43 val_main_v42
  unfold Cert.Conv.deg
  rw [scatterAdd_ideal,
    show scatter_S100000_S1000000x1_S1000000_n_0_0_1
      = vecScatterDims 100000 1000000 scatter_S100000_S1000000x1_S1000000_n_0_0_1_wf from rfl,
    vecScatterAdd_apply, landing_bcast]
  exact congrArg₂ (· + ·) rfl (Finset.sum_congr rfl (fun e _ => rfl))

/-- The three wrapped index vectors are the specification's wrap of the words. -/
theorem wrapS1_ba (x7 : (⟨S1000000, .i32⟩ : BufTy).Contents (Elt Ideal)) (j : S1000000.Idx) :
    val_main_v48 (F := Ideal) x7 j = Cert.Conv.wrap 50000#32 (x7 j) := rfl
theorem wrapD_ba (x8 : (⟨S1000000, .i32⟩ : BufTy).Contents (Elt Ideal)) (j : S1000000.Idx) :
    val_main_v55 (F := Ideal) x8 j = Cert.Conv.wrap 100000#32 (x8 j) := rfl
theorem wrapS2_ba (x7 : (⟨S1000000, .i32⟩ : BufTy).Contents (Elt Ideal)) (j : S1000000.Idx) :
    val_main_v65 (F := Ideal) x7 j = Cert.Conv.wrap 50000#32 (x7 j) := rfl

/-- The source degree gathered at an edge: the degree of the row the edge reads. -/
theorem gS_ba (x7 : (⟨S1000000, .i32⟩ : BufTy).Contents (Elt Ideal)) (e : Fin 1000000) :
    val_main_v50 (F := Ideal) x7 (ix1 e) = Cert.Conv.deg (fun e => x7 (ix1 e)) (Cert.Conv.rowOf 50000 (by decide) 50000#32 (fun e => x7 (ix1 e)) e) := by
  unfold val_main_v50 val_main_v49 Cert.Conv.rowOf
  refine (vecGather_apply (N := 50000) (E := 1000000) (by decide)
    gather_S50000_S1000000x1_S1000000_n_0_n_n_0_1_1_wf _ _ e).trans ?_
  rw [bcastInDim_a_a1_apply, wrapS1_ba, degS_ba]

/-- The destination degree gathered at an edge. -/
theorem gD_ba (x8 : (⟨S1000000, .i32⟩ : BufTy).Contents (Elt Ideal)) (e : Fin 1000000) :
    val_main_v57 (F := Ideal) x8 (ix1 e) = Cert.Conv.deg (fun e => x8 (ix1 e)) (Cert.Conv.rowOf 100000 (by decide) 100000#32 (fun e => x8 (ix1 e)) e) := by
  unfold val_main_v57 val_main_v56 Cert.Conv.rowOf
  refine (vecGather_apply (N := 100000) (E := 1000000) (by decide)
    gather_S100000_S1000000x1_S1000000_n_0_n_n_0_1_1_wf _ _ e).trans ?_
  rw [bcastInDim_a_a1_apply, wrapD_ba, degD_ba]

/-- An edge's norm: the square root of the product of the two gathered degrees. -/
theorem norm_ba (x7 : (⟨S1000000, .i32⟩ : BufTy).Contents (Elt Ideal)) (x8 : (⟨S1000000, .i32⟩ : BufTy).Contents (Elt Ideal)) (e : Fin 1000000) :
    val_main_v59 (F := Ideal) x7 x8 (ix1 e) = Ideal.sqrt (Cert.Conv.deg (fun e => x7 (ix1 e)) (Cert.Conv.rowOf 50000 (by decide) 50000#32 (fun e => x7 (ix1 e)) e) * Cert.Conv.deg (fun e => x8 (ix1 e)) (Cert.Conv.rowOf 100000 (by decide) 100000#32 (fun e => x8 (ix1 e)) e)) := by
  unfold val_main_v59 val_main_v58
  rw [hostSqrt_apply, mulf_apply, gS_ba, gD_ba]

/-- The dense projection is the specification's rows-by-columns product. -/
theorem dot_ba (x1 : (⟨S50000x128, .f32⟩ : BufTy).Contents (Elt Ideal)) (x3 : (⟨S128x128, .f32⟩ : BufTy).Contents (Elt Ideal)) (i : Fin 50000) (k : Fin 128) :
    val_main_v60 (F := Ideal) x1 x3 (ix2 i k) = Cert.Conv.matProd (N := 50000) (D := 128) (C := 128) x1 x3 i k := by
  rw [val_main_v60_apply]
  unfold Cert.Conv.matProd
  refine Finset.sum_congr rfl (fun j _ => ?_)
  refine congrArg₂ (· * ·) (congrArg x1 ?_) (congrArg x3 ?_)
  · funext a; match a with | ⟨0, _⟩ => rfl | ⟨1, _⟩ => rfl
  · funext a; match a with | ⟨0, _⟩ => rfl | ⟨1, _⟩ => rfl

/-- The projected row an edge reads. -/
theorem gRow_ba (x1 : (⟨S50000x128, .f32⟩ : BufTy).Contents (Elt Ideal)) (x3 : (⟨S128x128, .f32⟩ : BufTy).Contents (Elt Ideal)) (x7 : (⟨S1000000, .i32⟩ : BufTy).Contents (Elt Ideal)) (e : Fin 1000000) (k : Fin 128) :
    val_main_v67 (F := Ideal) x1 x3 x7 (ix2 e k) = Cert.Conv.matProd (N := 50000) (D := 128) (C := 128) x1 x3 (Cert.Conv.rowOf 50000 (by decide) 50000#32 (fun e => x7 (ix1 e)) e) k := by
  unfold val_main_v67 val_main_v66 Cert.Conv.rowOf
  refine (rowGather_apply (N := 50000) (E := 1000000) (C := 128) (by decide)
    gather_S50000x128_S1000000x1_S1000000x128_1_0_n_n_0_1_1128_wf _ _ e k).trans ?_
  rw [bcastInDim_a_a1_apply, wrapS2_ba, dot_ba]

/-- The norm repeated along the feature columns reads the edge's norm. -/
theorem ncol_ba (x7 : (⟨S1000000, .i32⟩ : BufTy).Contents (Elt Ideal)) (x8 : (⟨S1000000, .i32⟩ : BufTy).Contents (Elt Ideal)) (e : Fin 1000000) (k : Fin 128) :
    val_main_v69 (F := Ideal) x7 x8 (ix2 e k) = val_main_v59 (F := Ideal) x7 x8 (ix1 e) := by
  unfold val_main_v69 val_main_v68
  rw [bcastInDim_a1_ab_apply, bcastInDim_a_a1_apply]

/-- An edge's message: the row it reads over its norm. -/
theorem msg_ba (x1 : (⟨S50000x128, .f32⟩ : BufTy).Contents (Elt Ideal)) (x3 : (⟨S128x128, .f32⟩ : BufTy).Contents (Elt Ideal)) (x7 : (⟨S1000000, .i32⟩ : BufTy).Contents (Elt Ideal)) (x8 : (⟨S1000000, .i32⟩ : BufTy).Contents (Elt Ideal)) (e : Fin 1000000) (k : Fin 128) :
    val_main_v70 (F := Ideal) x1 x3 x7 x8 (ix2 e k) = Ideal.div (Cert.Conv.matProd (N := 50000) (D := 128) (C := 128) x1 x3 (Cert.Conv.rowOf 50000 (by decide) 50000#32 (fun e => x7 (ix1 e)) e) k) (Ideal.sqrt (Cert.Conv.deg (fun e => x7 (ix1 e)) (Cert.Conv.rowOf 50000 (by decide) 50000#32 (fun e => x7 (ix1 e)) e) * Cert.Conv.deg (fun e => x8 (ix1 e)) (Cert.Conv.rowOf 100000 (by decide) 100000#32 (fun e => x8 (ix1 e)) e))) := by
  unfold val_main_v70
  rw [hostDivf_apply, gRow_ba, ncol_ba, norm_ba]

/-- THE CONVOLUTION OF EDGE TYPE b→a READ AT `(t, k)`: the quotient form. -/
theorem conv_ba_apply (x1 : (⟨S50000x128, .f32⟩ : BufTy).Contents (Elt Ideal)) (x3 : (⟨S128x128, .f32⟩ : BufTy).Contents (Elt Ideal)) (x7 : (⟨S1000000, .i32⟩ : BufTy).Contents (Elt Ideal)) (x8 : (⟨S1000000, .i32⟩ : BufTy).Contents (Elt Ideal)) (t : Fin 100000) (k : Fin 128) :
    val_main_v73 (F := Ideal) x1 x3 x7 x8 (ix2 t k)
      = Cert.Conv.convQuot (N := 50000) (M := 100000) (E := 1000000) (C := 128) (by decide) (by decide) 50000#32 100000#32
          (Cert.Conv.matProd (N := 50000) (D := 128) (C := 128) x1 x3) (fun e => x7 (ix1 e)) (fun e => x8 (ix1 e)) t k := by
  unfold val_main_v73 val_main_v72
  unfold Cert.Conv.convQuot
  rw [scatterAdd_ideal,
    show scatter_S100000x128_S1000000x1_S1000000x128_1_0_0_1
      = rowScatterDims 100000 1000000 128 scatter_S100000x128_S1000000x1_S1000000x128_1_0_0_1_wf from rfl,
    rowScatterAdd_apply, landing_bcast]
  refine congrArg₂ (· + ·) rfl (Finset.sum_congr rfl (fun e _ => ?_))
  rw [msg_ba]

/-! ## Edge type a→a: sources among 100000 nodes, destinations among 100000 -/

/-- The source degree: zero plus a one for every edge whose source word is the node. -/
theorem degS_aa (x9 : (⟨S1000000, .i32⟩ : BufTy).Contents (Elt Ideal)) (i : Fin 100000) :
    val_main_v77 (F := Ideal) x9 (ix1 i) = Cert.Conv.deg (fun e => x9 (ix1 e)) i := by
  unfold val_main_v77 val_main_v76
  unfold Cert.Conv.deg
  rw [scatterAdd_ideal,
    show scatter_S100000_S1000000x1_S1000000_n_0_0_1
      = vecScatterDims 100000 1000000 scatter_S100000_S1000000x1_S1000000_n_0_0_1_wf from rfl,
    vecScatterAdd_apply, landing_bcast]
  exact congrArg₂ (· + ·) rfl (Finset.sum_congr rfl (fun e _ => rfl))

/-- The destination degree. -/
theorem degD_aa (x10 : (⟨S1000000, .i32⟩ : BufTy).Contents (Elt Ideal)) (i : Fin 100000) :
    val_main_v80 (F := Ideal) x10 (ix1 i) = Cert.Conv.deg (fun e => x10 (ix1 e)) i := by
  unfold val_main_v80 val_main_v79
  unfold Cert.Conv.deg
  rw [scatterAdd_ideal,
    show scatter_S100000_S1000000x1_S1000000_n_0_0_1
      = vecScatterDims 100000 1000000 scatter_S100000_S1000000x1_S1000000_n_0_0_1_wf from rfl,
    vecScatterAdd_apply, landing_bcast]
  exact congrArg₂ (· + ·) rfl (Finset.sum_congr rfl (fun e _ => rfl))

/-- The three wrapped index vectors are the specification's wrap of the words. -/
theorem wrapS1_aa (x9 : (⟨S1000000, .i32⟩ : BufTy).Contents (Elt Ideal)) (j : S1000000.Idx) :
    val_main_v85 (F := Ideal) x9 j = Cert.Conv.wrap 100000#32 (x9 j) := rfl
theorem wrapD_aa (x10 : (⟨S1000000, .i32⟩ : BufTy).Contents (Elt Ideal)) (j : S1000000.Idx) :
    val_main_v92 (F := Ideal) x10 j = Cert.Conv.wrap 100000#32 (x10 j) := rfl
theorem wrapS2_aa (x9 : (⟨S1000000, .i32⟩ : BufTy).Contents (Elt Ideal)) (j : S1000000.Idx) :
    val_main_v102 (F := Ideal) x9 j = Cert.Conv.wrap 100000#32 (x9 j) := rfl

/-- The source degree gathered at an edge: the degree of the row the edge reads. -/
theorem gS_aa (x9 : (⟨S1000000, .i32⟩ : BufTy).Contents (Elt Ideal)) (e : Fin 1000000) :
    val_main_v87 (F := Ideal) x9 (ix1 e) = Cert.Conv.deg (fun e => x9 (ix1 e)) (Cert.Conv.rowOf 100000 (by decide) 100000#32 (fun e => x9 (ix1 e)) e) := by
  unfold val_main_v87 val_main_v86 Cert.Conv.rowOf
  refine (vecGather_apply (N := 100000) (E := 1000000) (by decide)
    gather_S100000_S1000000x1_S1000000_n_0_n_n_0_1_1_wf _ _ e).trans ?_
  rw [bcastInDim_a_a1_apply, wrapS1_aa, degS_aa]

/-- The destination degree gathered at an edge. -/
theorem gD_aa (x10 : (⟨S1000000, .i32⟩ : BufTy).Contents (Elt Ideal)) (e : Fin 1000000) :
    val_main_v94 (F := Ideal) x10 (ix1 e) = Cert.Conv.deg (fun e => x10 (ix1 e)) (Cert.Conv.rowOf 100000 (by decide) 100000#32 (fun e => x10 (ix1 e)) e) := by
  unfold val_main_v94 val_main_v93 Cert.Conv.rowOf
  refine (vecGather_apply (N := 100000) (E := 1000000) (by decide)
    gather_S100000_S1000000x1_S1000000_n_0_n_n_0_1_1_wf _ _ e).trans ?_
  rw [bcastInDim_a_a1_apply, wrapD_aa, degD_aa]

/-- An edge's norm: the square root of the product of the two gathered degrees. -/
theorem norm_aa (x9 : (⟨S1000000, .i32⟩ : BufTy).Contents (Elt Ideal)) (x10 : (⟨S1000000, .i32⟩ : BufTy).Contents (Elt Ideal)) (e : Fin 1000000) :
    val_main_v96 (F := Ideal) x9 x10 (ix1 e) = Ideal.sqrt (Cert.Conv.deg (fun e => x9 (ix1 e)) (Cert.Conv.rowOf 100000 (by decide) 100000#32 (fun e => x9 (ix1 e)) e) * Cert.Conv.deg (fun e => x10 (ix1 e)) (Cert.Conv.rowOf 100000 (by decide) 100000#32 (fun e => x10 (ix1 e)) e)) := by
  unfold val_main_v96 val_main_v95
  rw [hostSqrt_apply, mulf_apply, gS_aa, gD_aa]

/-- The dense projection is the specification's rows-by-columns product. -/
theorem dot_aa (x0 : (⟨S100000x128, .f32⟩ : BufTy).Contents (Elt Ideal)) (x4 : (⟨S128x128, .f32⟩ : BufTy).Contents (Elt Ideal)) (i : Fin 100000) (k : Fin 128) :
    val_main_v97 (F := Ideal) x0 x4 (ix2 i k) = Cert.Conv.matProd (N := 100000) (D := 128) (C := 128) x0 x4 i k := by
  rw [val_main_v97_apply]
  unfold Cert.Conv.matProd
  refine Finset.sum_congr rfl (fun j _ => ?_)
  refine congrArg₂ (· * ·) (congrArg x0 ?_) (congrArg x4 ?_)
  · funext a; match a with | ⟨0, _⟩ => rfl | ⟨1, _⟩ => rfl
  · funext a; match a with | ⟨0, _⟩ => rfl | ⟨1, _⟩ => rfl

/-- The projected row an edge reads. -/
theorem gRow_aa (x0 : (⟨S100000x128, .f32⟩ : BufTy).Contents (Elt Ideal)) (x4 : (⟨S128x128, .f32⟩ : BufTy).Contents (Elt Ideal)) (x9 : (⟨S1000000, .i32⟩ : BufTy).Contents (Elt Ideal)) (e : Fin 1000000) (k : Fin 128) :
    val_main_v104 (F := Ideal) x0 x4 x9 (ix2 e k) = Cert.Conv.matProd (N := 100000) (D := 128) (C := 128) x0 x4 (Cert.Conv.rowOf 100000 (by decide) 100000#32 (fun e => x9 (ix1 e)) e) k := by
  unfold val_main_v104 val_main_v103 Cert.Conv.rowOf
  refine (rowGather_apply (N := 100000) (E := 1000000) (C := 128) (by decide)
    gather_S100000x128_S1000000x1_S1000000x128_1_0_n_n_0_1_1128_wf _ _ e k).trans ?_
  rw [bcastInDim_a_a1_apply, wrapS2_aa, dot_aa]

/-- The norm repeated along the feature columns reads the edge's norm. -/
theorem ncol_aa (x9 : (⟨S1000000, .i32⟩ : BufTy).Contents (Elt Ideal)) (x10 : (⟨S1000000, .i32⟩ : BufTy).Contents (Elt Ideal)) (e : Fin 1000000) (k : Fin 128) :
    val_main_v106 (F := Ideal) x9 x10 (ix2 e k) = val_main_v96 (F := Ideal) x9 x10 (ix1 e) := by
  unfold val_main_v106 val_main_v105
  rw [bcastInDim_a1_ab_apply, bcastInDim_a_a1_apply]

/-- An edge's message: the row it reads over its norm. -/
theorem msg_aa (x0 : (⟨S100000x128, .f32⟩ : BufTy).Contents (Elt Ideal)) (x4 : (⟨S128x128, .f32⟩ : BufTy).Contents (Elt Ideal)) (x9 : (⟨S1000000, .i32⟩ : BufTy).Contents (Elt Ideal)) (x10 : (⟨S1000000, .i32⟩ : BufTy).Contents (Elt Ideal)) (e : Fin 1000000) (k : Fin 128) :
    val_main_v107 (F := Ideal) x0 x4 x9 x10 (ix2 e k) = Ideal.div (Cert.Conv.matProd (N := 100000) (D := 128) (C := 128) x0 x4 (Cert.Conv.rowOf 100000 (by decide) 100000#32 (fun e => x9 (ix1 e)) e) k) (Ideal.sqrt (Cert.Conv.deg (fun e => x9 (ix1 e)) (Cert.Conv.rowOf 100000 (by decide) 100000#32 (fun e => x9 (ix1 e)) e) * Cert.Conv.deg (fun e => x10 (ix1 e)) (Cert.Conv.rowOf 100000 (by decide) 100000#32 (fun e => x10 (ix1 e)) e))) := by
  unfold val_main_v107
  rw [hostDivf_apply, gRow_aa, ncol_aa, norm_aa]

/-- THE CONVOLUTION OF EDGE TYPE a→a READ AT `(t, k)`: the quotient form. -/
theorem conv_aa_apply (x0 : (⟨S100000x128, .f32⟩ : BufTy).Contents (Elt Ideal)) (x4 : (⟨S128x128, .f32⟩ : BufTy).Contents (Elt Ideal)) (x9 : (⟨S1000000, .i32⟩ : BufTy).Contents (Elt Ideal)) (x10 : (⟨S1000000, .i32⟩ : BufTy).Contents (Elt Ideal)) (t : Fin 100000) (k : Fin 128) :
    val_main_v110 (F := Ideal) x0 x4 x9 x10 (ix2 t k)
      = Cert.Conv.convQuot (N := 100000) (M := 100000) (E := 1000000) (C := 128) (by decide) (by decide) 100000#32 100000#32
          (Cert.Conv.matProd (N := 100000) (D := 128) (C := 128) x0 x4) (fun e => x9 (ix1 e)) (fun e => x10 (ix1 e)) t k := by
  unfold val_main_v110 val_main_v109
  unfold Cert.Conv.convQuot
  rw [scatterAdd_ideal,
    show scatter_S100000x128_S1000000x1_S1000000x128_1_0_0_1
      = rowScatterDims 100000 1000000 128 scatter_S100000x128_S1000000x1_S1000000x128_1_0_0_1_wf from rfl,
    rowScatterAdd_apply, landing_bcast]
  refine congrArg₂ (· + ·) rfl (Finset.sum_congr rfl (fun e _ => ?_))
  rw [msg_aa]

/-! ## The result for the a nodes -/

/-- THE a-NODE RESULT READ AT `(t, k)`: the mean of the two quotient-form convolutions, rectified. -/
theorem outA_apply (x0 : (⟨S100000x128, .f32⟩ : BufTy).Contents (Elt Ideal)) (x1 : (⟨S50000x128, .f32⟩ : BufTy).Contents (Elt Ideal))
    (x3 x4 : (⟨S128x128, .f32⟩ : BufTy).Contents (Elt Ideal)) (x7 x8 x9 x10 : (⟨S1000000, .i32⟩ : BufTy).Contents (Elt Ideal))
    (t : Fin 100000) (k : Fin 128) :
    val_main_v114 (F := Ideal) x0 x1 x3 x4 x7 x8 x9 x10 (ix2 t k)
      = Cert.Conv.outTwo
          (Cert.Conv.convQuot (N := 50000) (M := 100000) (E := 1000000) (C := 128) (by decide) (by decide) 50000#32 100000#32
            (Cert.Conv.matProd (N := 50000) (D := 128) (C := 128) x1 x3) (fun e => x7 (ix1 e)) (fun e => x8 (ix1 e)) t k)
          (Cert.Conv.convQuot (N := 100000) (M := 100000) (E := 1000000) (C := 128) (by decide) (by decide) 100000#32 100000#32
            (Cert.Conv.matProd (N := 100000) (D := 128) (C := 128) x0 x4) (fun e => x9 (ix1 e)) (fun e => x10 (ix1 e)) t k) := by
  unfold val_main_v114 val_main_v113 val_main_v111 val_main_v112 val_main_cst_28 val_main_call0_v0 val_main_call0_cst
  rw [maximumf_apply, mulf_apply, addf_apply, conv_ba_apply, conv_aa_apply, bconst_apply, bconst_apply, outTwo_eq]

end Cert.ReferenceIdeal.RefValueA

end
-- ==== Proof.LibBatchNormReal.lean ====
/-
  Real numbers inside the extended reals: the facts the batch-normalisation layer identity rests on.

  * a finite sum of reals formed in the extended reals is the real sum;
  * over the reals, with `N` the number of terms (nonzero), the mean of squares minus the squared mean is the
    mean of squared deviations, and that number is nonnegative;
  * the reciprocal square root of a positive real is a real;
  * a clamp `min hi (max lo y)` between two reals is a real, whatever `y` is (the infinities included);
  * the values of the five float words of the layer's constants.
-/
import Idealize.ShloMosaic.PureOps.Ideal
import Idealize.ShloMosaic.PureOps.Ideal.Laws

noncomputable section

open scoped BigOperators
open Idealize.ShloMosaic

namespace Cert.Net

/-- A finite sum of reals, formed in the extended reals, is the real sum. -/
theorem coe_sum {α : Type*} (s : Finset α) (f : α → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The sum of squared deviations from `m`, expanded: `∑ (f − m)² = ∑ f² − 2 m ∑ f + N m²`. -/
theorem sum_sq_dev {ι : Type*} [Fintype ι] (f : ι → ℝ) (m : ℝ) :
    ∑ r, (f r - m) * (f r - m) = ∑ r, f r * f r - 2 * m * ∑ r, f r + (Fintype.card ι : ℝ) * (m * m) := by
  have h : ∀ r, (f r - m) * (f r - m) = f r * f r - 2 * m * f r + m * m := fun r => by ring
  simp only [h]
  rw [Finset.sum_add_distrib, Finset.sum_sub_distrib, ← Finset.mul_sum, Finset.sum_const, Finset.card_univ,
    nsmul_eq_mul]

/-- With `N` the (nonzero) number of terms and `m = (∑ f)/N`: the mean of squares minus the squared mean is the
    mean of squared deviations. -/
theorem var_identity {ι : Type*} [Fintype ι] (f : ι → ℝ) (hN : (Fintype.card ι : ℝ) ≠ 0) :
    (∑ r, f r * f r) * (1 / (Fintype.card ι : ℝ))
        - ((∑ r, f r) * (1 / (Fintype.card ι : ℝ))) * ((∑ r, f r) * (1 / (Fintype.card ι : ℝ)))
      = (∑ r, (f r - (∑ r, f r) * (1 / (Fintype.card ι : ℝ))) * (f r - (∑ r, f r) * (1 / (Fintype.card ι : ℝ))))
          * (1 / (Fintype.card ι : ℝ)) := by
  rw [sum_sq_dev]
  field_simp
  ring

/-- A mean of squares is nonnegative. -/
theorem mean_sq_nonneg {ι : Type*} [Fintype ι] (f : ι → ℝ) (m : ℝ) :
    0 ≤ (∑ r, (f r - m) * (f r - m)) * (1 / (Fintype.card ι : ℝ)) :=
  mul_nonneg (Finset.sum_nonneg fun _ _ => mul_self_nonneg _) (by positivity)

/-- The reciprocal square root of a positive real is the real `(√x)⁻¹`. -/
theorem rsqrt_of_pos {x : ℝ} (hx : 0 < x) : Ideal.rsqrt (x : EReal) = (((Real.sqrt x)⁻¹ : ℝ) : EReal) := by
  rw [Ideal.rsqrt_coe, if_neg (not_lt.mpr hx.le), if_neg hx.ne']

/-- A clamp between two reals is a real: it is above `min hi lo > ⊥` and below `hi < ⊤`. -/
theorem clamp_real (l h : ℝ) (y : EReal) : ∃ t : ℝ, min (h : EReal) (max (l : EReal) y) = (t : EReal) := by
  have h1 : min (h : EReal) (max (l : EReal) y) ≠ ⊥ :=
    (lt_min (EReal.bot_lt_coe h) (lt_of_lt_of_le (EReal.bot_lt_coe l) (le_max_left _ _))).ne'
  have h2 : min (h : EReal) (max (l : EReal) y) ≠ ⊤ :=
    (lt_of_le_of_lt (min_le_left _ _) (EReal.coe_lt_top h)).ne
  exact ⟨_, (EReal.coe_toReal h2 h1).symm⟩

/-- The word `0xBF800000` is `−1`. -/
theorem ofBits_neg_one : Ideal.ofBits .f32 0xBF800000#32 = ((-1 : ℝ) : EReal) := by
  simp [Ideal.ofBits, Ideal.ieee, -EReal.coe_mul]; norm_num

/-- The word `0x3F800000` is `1`. -/
theorem ofBits_one : Ideal.ofBits .f32 0x3F800000#32 = ((1 : ℝ) : EReal) := by
  simp [Ideal.ofBits, Ideal.ieee, -EReal.coe_mul]; norm_num

/-- The word `0x46000000` is `8192 = 2¹³`. -/
theorem ofBits_8192 : Ideal.ofBits .f32 0x46000000#32 = ((8192 : ℝ) : EReal) := by
  simp [Ideal.ofBits, Ideal.ieee, -EReal.coe_mul]; norm_num

/-- The word `0x3727C5AC` (exponent field 110, fraction field 2606508) is `(2²³ + 2606508) · 2⁻⁴⁰`, a positive real. -/
theorem ofBits_eps : ∃ e : ℝ, 0 < e ∧ Ideal.ofBits .f32 0x3727C5AC#32 = (e : EReal) := by
  refine ⟨10995116 * (2 : ℝ) ^ (-40 : Int), by positivity, ?_⟩
  simp [Ideal.ofBits, Ideal.ieee, -EReal.coe_mul]

end Cert.Net

end
-- ==== Proof.ConvAlgebra.lean ====
/-
  The factored form of the degree-normalised sum is its quotient form, on real features and in-range source words.

  * A non-negative index word is left alone by `wrap`, and a word in `[0, N)` is its own clamp; so an edge with an
    in-range source word is counted at the very row it reads (`mem_into_rowOf`), and an edge counted at `t` reads row `t`
    (`rowOf_of_mem_into`).
  * A degree is the NUMBER of edges counted at the node, a natural number as a real (`deg_eq_card`).
  * On a natural number `n` the guard is `0` for `n = 0` and `1/√n` for `n ≥ 1` (`guard_card`): a real either way.
  * For an edge counted at `t` both degrees are at least one, so its quotient term is the real
    `y · ((√a)⁻¹ · (√b)⁻¹)` (`√(a·b) = √a · √b`), which is also its factored term once the outer factor `(√b)⁻¹` is moved
    inside the finite sum of reals.
-/
import proofs.«179717_j59854664237638_2_alg».proof.Proof.ConvSpec
import proofs.«179717_j59854664237638_2_alg».proof.Proof.LibBatchNormReal

noncomputable section

open scoped BigOperators

namespace Cert.Conv

open Idealize.ShloMosaic Idealize.ShloMosaic.ValueIdx Cert.LibSegment Cert.LibReal

variable {N M E C : ℕ}

theorem zeroW_eq : zeroW = ((0 : ℝ) : EReal) := by
  show Ideal.ofBits .f32 0x00000000#32 = _
  rw [Ideal.ofBits_zero_f32]; rfl

theorem oneW_eq : oneW = ((1 : ℝ) : EReal) := Cert.Net.ofBits_one

/-! ## Index words -/

/-- A non-negative word is not counted from the end. -/
theorem wrap_of_nonneg (n v : BitVec 32) (h : 0 ≤ v.toInt) : wrap n v = v := by
  have h0 : (0#32 : BitVec 32).toInt = 0 := by decide
  have hs : v.slt 0#32 = false := by
    unfold BitVec.slt; rw [h0]; exact decide_eq_false (by omega)
  unfold wrap Scalar.select IntOp.cmpi
  simp only [hs]
  exact if_neg (by decide)

/-- A word in `[0, N)` is its own clamp. -/
theorem clampRow_of_lt (hN : 0 < N) (v : BitVec 32) (h0 : 0 ≤ v.toInt) (h1 : v.toInt < (N : ℤ)) :
    ((clampRow N hN v).val : ℤ) = v.toInt := by
  have hlt : v.toInt.toNat < N := by omega
  show ((min v.toInt.toNat (N - 1) : ℕ) : ℤ) = v.toInt
  rw [Nat.min_eq_left (by omega)]
  exact Int.toNat_of_nonneg h0

/-- An edge whose source word is in range is counted at the row it reads. -/
theorem mem_into_rowOf (hN : 0 < N) (nN : BitVec 32) (s : Fin E → BitVec 32) (e : Fin E)
    (h : 0 ≤ (s e).toInt ∧ (s e).toInt < (N : ℤ)) : e ∈ into s (rowOf N hN nN s e) := by
  unfold into rowOf
  rw [Finset.mem_filter]
  refine ⟨Finset.mem_univ _, ?_⟩
  rw [wrap_of_nonneg _ _ h.1]
  exact (clampRow_of_lt hN _ h.1 h.2).symm

/-- An edge counted at `t` reads row `t`. -/
theorem rowOf_of_mem_into (hM : 0 < M) (nM : BitVec 32) (d : Fin E → BitVec 32) (t : Fin M) (e : Fin E)
    (he : e ∈ into d t) : rowOf M hM nM d e = t := by
  have h : (d e).toInt = (t.val : ℤ) := (Finset.mem_filter.mp he).2
  have h0 : 0 ≤ (d e).toInt := by rw [h]; exact Int.natCast_nonneg _
  have h1 : (d e).toInt < (M : ℤ) := by rw [h]; exact_mod_cast t.isLt
  unfold rowOf
  rw [wrap_of_nonneg _ _ h0]
  apply Fin.ext
  have := clampRow_of_lt hM (d e) h0 h1
  omega

/-! ## Degrees and guards -/

/-- A degree is the number of edges counted at the node. -/
theorem deg_eq_card (s : Fin E → BitVec 32) (i : Fin N) : deg s i = (((into s i).card : ℝ) : EReal) := by
  unfold deg
  rw [zeroW_eq, oneW_eq, ← LibReal.coe_sum, ← EReal.coe_add, Finset.sum_const, nsmul_eq_mul, mul_one, zero_add]

/-- The guard on a natural number: `0` at `0`, `1/√n` from `1` on. -/
theorem guard_card (n : ℕ) :
    guard ((n : ℝ) : EReal) = (((if n = 0 then 0 else (Real.sqrt n)⁻¹) : ℝ) : EReal) := by
  unfold guard
  rw [zeroW_eq, oneW_eq]
  by_cases h : n = 0
  · subst h
    have hc : Ideal.cmp .ogt (((0 : ℕ) : ℝ) : EReal) ((0 : ℝ) : EReal) = 0#1 := by
      simp [Ideal.cmp]
    rw [hc, if_pos rfl]
    exact if_neg (by decide)
  · have hn : (1 : ℝ) ≤ (n : ℝ) := by exact_mod_cast Nat.one_le_iff_ne_zero.mpr h
    have hpos : (0 : ℝ) < (n : ℝ) := lt_of_lt_of_le one_pos hn
    have hnpos : 0 < n := Nat.pos_of_ne_zero h
    have hc : Ideal.cmp .ogt ((n : ℝ) : EReal) ((0 : ℝ) : EReal) = 1#1 := by
      simp [Ideal.cmp, hnpos]
    have hmax : max ((n : ℝ) : EReal) ((1 : ℝ) : EReal) = ((n : ℝ) : EReal) :=
      max_eq_left (by exact_mod_cast hn)
    rw [hc, hmax, if_neg h, Cert.Net.rsqrt_of_pos hpos]
    exact if_pos rfl

/-! ## The law -/

/-- THE FACTORED FORM IS THE QUOTIENT FORM, on real features and in-range source words. -/
theorem convFact_eq_convQuot (hN : 0 < N) (hM : 0 < M) (nN nM : BitVec 32) (Y : Fin N → Fin C → EReal)
    (s d : Fin E → BitVec 32) (hY : ∀ i k, IsReal (Y i k))
    (hs : ∀ e, 0 ≤ (s e).toInt ∧ (s e).toInt < (N : ℤ)) (t : Fin M) (k : Fin C) :
    convFact hN nN Y s d t k = convQuot hN hM nN nM Y s d t k := by
  classical
  choose y hy using hY
  have hrowS : ∀ e, e ∈ into s (rowOf N hN nN s e) := fun e => mem_into_rowOf hN nN s e (hs e)
  -- the number of edges counted at the row edge `e` reads, and at `t`
  let a : Fin E → ℕ := fun e => (into s (rowOf N hN nN s e)).card
  let b : ℕ := (into d t).card
  have ha : ∀ e, a e ≠ 0 := fun e => Finset.card_ne_zero.mpr ⟨e, hrowS e⟩
  have hb : ∀ e ∈ into d t, b ≠ 0 := fun e he => Finset.card_ne_zero.mpr ⟨e, he⟩
  -- one edge's contribution, as a real
  let f : Fin E → ℝ := fun e => y (rowOf N hN nN s e) k * ((Real.sqrt (a e))⁻¹ * (Real.sqrt b)⁻¹)
  have hL : convFact hN nN Y s d t k = ((∑ e ∈ into d t, f e : ℝ) : EReal) := by
    unfold convFact
    have hterm : ∀ e ∈ into d t, Y (rowOf N hN nN s e) k * guard (deg s (rowOf N hN nN s e))
        = ((y (rowOf N hN nN s e) k * (Real.sqrt (a e))⁻¹ : ℝ) : EReal) := fun e _ => by
      rw [hy, deg_eq_card, guard_card, if_neg (ha e), ← EReal.coe_mul]
    rw [Finset.sum_congr rfl hterm, ← LibReal.coe_sum, zeroW_eq, ← EReal.coe_add, zero_add, deg_eq_card, guard_card,
      ← EReal.coe_mul, Finset.sum_mul]
    refine congrArg _ (Finset.sum_congr rfl fun e he => ?_)
    show y (rowOf N hN nN s e) k * (Real.sqrt (a e))⁻¹ * (if b = 0 then 0 else (Real.sqrt b)⁻¹) = f e
    rw [if_neg (hb e he)]
    show _ = y (rowOf N hN nN s e) k * ((Real.sqrt (a e))⁻¹ * (Real.sqrt b)⁻¹)
    ring
  have hR : convQuot hN hM nN nM Y s d t k = ((∑ e ∈ into d t, f e : ℝ) : EReal) := by
    unfold convQuot
    have hterm : ∀ e ∈ into d t,
        Ideal.div (Y (rowOf N hN nN s e) k) (Ideal.sqrt (deg s (rowOf N hN nN s e) * deg d (rowOf M hM nM d e)))
          = ((f e : ℝ) : EReal) := fun e he => by
      have hane : (a e : ℝ) ≠ 0 := by exact_mod_cast ha e
      have hbne : (b : ℝ) ≠ 0 := by exact_mod_cast hb e he
      have hapos : (0 : ℝ) < (a e : ℝ) := lt_of_le_of_ne (Nat.cast_nonneg _) (Ne.symm hane)
      have hbpos : (0 : ℝ) < (b : ℝ) := lt_of_le_of_ne (Nat.cast_nonneg _) (Ne.symm hbne)
      have hprod : (0 : ℝ) < (a e : ℝ) * (b : ℝ) := mul_pos hapos hbpos
      have hsq : Real.sqrt ((a e : ℝ) * (b : ℝ)) ≠ 0 := (Real.sqrt_pos.mpr hprod).ne'
      rw [rowOf_of_mem_into hM nM d t e he, hy, deg_eq_card, deg_eq_card, ← EReal.coe_mul, Ideal.sqrt_coe,
        if_neg (not_lt.mpr hprod.le), Ideal.div_coe hsq, ← EReal.coe_mul]
      refine congrArg _ ?_
      show y (rowOf N hN nN s e) k * (1 / Real.sqrt ((a e : ℝ) * (b : ℝ)))
        = y (rowOf N hN nN s e) k * ((Real.sqrt (a e))⁻¹ * (Real.sqrt b)⁻¹)
      rw [Real.sqrt_mul hapos.le, one_div, mul_inv]
    rw [Finset.sum_congr rfl hterm, ← LibReal.coe_sum, zeroW_eq, ← EReal.coe_add, zero_add]
  rw [hL, hR]

end Cert.Conv

end
-- ==== Proof.Bridge.lean ====
/-
  The two results, factored form against quotient form, over abstract arrays.

  A projected feature `(x · w)(i, k)` is a finite sum of products of real entries, so it is real; with real features
  and in-range source words the factored and the quotient form of each edge type agree (the law of the convolution),
  and the rectified results are the same function of them.
-/
import proofs.«179717_j59854664237638_2_alg».proof.Proof.ConvAlgebra

noncomputable section

open scoped BigOperators

namespace Cert.Conv

open Idealize.ShloMosaic Idealize.ShloMosaic.ValueIdx Cert.LibReal

variable {N M E C D : ℕ}

/-- A product of real matrices has real entries. -/
theorem matProd_real (x : (⟨2, ![N, D]⟩ : Shape).Idx → EReal) (w : (⟨2, ![D, C]⟩ : Shape).Idx → EReal)
    (hx : ∀ i, IsReal (x i)) (hw : ∀ i, IsReal (w i)) (i : Fin N) (k : Fin C) : IsReal (matProd x w i k) :=
  IsReal.sum _ _ fun j _ => (hx _).mul (hw _)

/-- One edge type: the factored form over an array `y` that IS the product `x · w` equals the quotient form over the
    product. -/
theorem fact_eq_quot (hN : 0 < N) (hM : 0 < M) (nN nM : BitVec 32)
    (x : (⟨2, ![N, D]⟩ : Shape).Idx → EReal) (w : (⟨2, ![D, C]⟩ : Shape).Idx → EReal)
    (y : (⟨2, ![N, C]⟩ : Shape).Idx → EReal) (hy : ∀ i k, y (ix2 i k) = matProd x w i k)
    (hx : ∀ i, IsReal (x i)) (hw : ∀ i, IsReal (w i))
    (s d : Fin E → BitVec 32) (hs : ∀ e, 0 ≤ (s e).toInt ∧ (s e).toInt < (N : ℤ)) (t : Fin M) (k : Fin C) :
    convFact hN nN (fun i k => y (ix2 i k)) s d t k = convQuot hN hM nN nM (matProd x w) s d t k := by
  have e : (fun i k => y (ix2 i k)) = matProd x w := funext fun i => funext fun k => hy i k
  rw [e]
  exact convFact_eq_convQuot hN hM nN nM (matProd x w) s d (matProd_real x w hx hw) hs t k

end Cert.Conv

end
-- ==== Proof.PreDecode.lean ====
/-
  What the precondition says, entry by entry. It is one Boolean: the conjunction, over the five float arrays, of
  "every entry's absolute value is below +∞" and, over the three source index arrays, of "every word, read signed,
  is at least 0 and below the number of source nodes". A conjunction that is 1 has every conjunct 1; a reduction by
  `and` over all axes that is 1 met a 1 at every index; a float entry whose absolute value is below +∞ is a real
  number; and the two signed comparisons that are 1 at an index are the two inequalities between the words read as
  signed integers.
-/
import proofs.«179717_j59854664237638_2_alg».proof.Pre_finite_inputs
import proofs.«179717_j59854664237638_2_alg».proof.Proof.LibReal
import Idealize.ShloMosaic.Lib.ReduceAll
import Idealize.ShloMosaic.Lib.ValueIdx

noncomputable section

namespace Cert.PreDecode

open Idealize.ShloMosaic Idealize.ShloMosaic.ValueIdx Cert.Pre_finite_inputs Cert.Pre_finite_inputs.Facts Cert.LibReal

variable [Cert.Pre_finite_inputs.Facts]

/-- The scalar shape has exactly one index. -/
instance subsingleton_scalar : Subsingleton S_.Idx := ⟨fun a b => funext fun d => d.elim0⟩

/-- One index array. Where the conjunction over all edges of `0 ≤ word` and `word < n` (both signed) is 1, every word
    read signed lies in `[0, n)`. -/
theorem range_of_all (n : BitVec 32) (x : IVec S1000000 32) (init : IVec S_ 1)
    (e : Host.reduce IntOp.andi
        (andi (cmpi .sge x (broadcastInDim S1000000 ![] bcast_S_S1000000 (constantI S_ 32 0#32)))
          (cmpi .slt x (broadcastInDim S1000000 ![] bcast_S_S1000000 (constantI S_ 32 n))))
        init reducesTo_S1000000_S_d0 h_S_ ValueIdx.ix0 = 1#1) (i : S1000000.Idx) :
    0 ≤ (x i).toInt ∧ (x i).toInt < n.toInt := by
  have h := Host.reduce_andi_all _ init reducesTo_S1000000_S_d0 h_S_ _ e i
  obtain ⟨h1, h2⟩ := IntOp.andi_eq_one.1 h
  have h1' : BitVec.ofBool ((0#32 : BitVec 32).sle (x i)) = 1#1 := h1
  have h2' : BitVec.ofBool ((x i).slt n) = 1#1 := h2
  have a1 : (0#32 : BitVec 32).sle (x i) = true := (ofBool_eq_one _).1 h1'
  have a2 : (x i).slt n = true := (ofBool_eq_one _).1 h2'
  unfold BitVec.sle at a1
  unfold BitVec.slt at a2
  have z : (0#32 : BitVec 32).toInt = 0 := by decide
  rw [z] at a1
  exact ⟨of_decide_eq_true a1, of_decide_eq_true a2⟩

/-- THE PRECONDITION READ: every float entry is a real number, and every source word is in range. -/
theorem decode (x0 : FVec Ideal S100000x128 .f32) (x1 : FVec Ideal S50000x128 .f32) (x2 x3 x4 : FVec Ideal S128x128 .f32)
    (x5 x6 x7 x8 x9 x10 : IVec S1000000 32)
    (h : fn (F := Ideal) x0 x1 x2 x3 x4 x5 x6 x7 x8 x9 x10 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, 0 ≤ (x5 i).toInt ∧ (x5 i).toInt < (100000 : ℤ))
      ∧ (∀ i, 0 ≤ (x7 i).toInt ∧ (x7 i).toInt < (50000 : ℤ))
      ∧ (∀ i, 0 ≤ (x9 i).toInt ∧ (x9 i).toInt < (100000 : ℤ)) := by
  have h0 := congrFun h ValueIdx.ix0
  dsimp only [fn, fn_part1, fn_part2] at h0
  obtain ⟨h0, r9⟩ := IntOp.andi_eq_one.1 h0
  obtain ⟨h0, r7⟩ := IntOp.andi_eq_one.1 h0
  obtain ⟨h0, r5⟩ := IntOp.andi_eq_one.1 h0
  obtain ⟨h0, f4⟩ := IntOp.andi_eq_one.1 h0
  obtain ⟨h0, f3⟩ := IntOp.andi_eq_one.1 h0
  obtain ⟨h0, f2⟩ := IntOp.andi_eq_one.1 h0
  obtain ⟨f0, f1⟩ := IntOp.andi_eq_one.1 h0
  have w1 : (100000#32 : BitVec 32).toInt = 100000 := by decide
  have w2 : (50000#32 : BitVec 32).toInt = 50000 := by decide
  refine ⟨real_of_all _ _ _ x0 _ f0, real_of_all _ _ _ x1 _ f1, real_of_all _ _ _ x2 _ f2, real_of_all _ _ _ x3 _ f3,
    real_of_all _ _ _ x4 _ f4, fun i => ?_, fun i => ?_, fun i => ?_⟩
  · have := range_of_all 100000#32 x5 _ r5 i; rw [w1] at this; exact this
  · have := range_of_all 50000#32 x7 _ r7 i; rw [w2] at this; exact this
  · have := range_of_all 100000#32 x9 _ r9 i; rw [w1] at this; exact this

end Cert.PreDecode

end
-- ==== Proof.Algebraic.lean ====
/-
  The value claim assembled. On arrays on which the two programs agree:

  * the kernel program ends with its results at the host arithmetic (the factored form) of the index arrays and of
    the three arrays the projection regions leave, each of which is the product of its two argument arrays;
  * the reference ends with its results at the quotient form of the same products and index arrays;
  * the precondition makes every float entry real and every source word in range, so the two forms agree, entry by
    entry, and so do the rectified results.
-/
import proofs.«179717_j59854664237638_2_alg».proof.Defs
import proofs.«179717_j59854664237638_2_alg».proof.Proof.Gen.Pre_finite_inputs
import proofs.«179717_j59854664237638_2_alg».proof.Proof.Gen.KernelIdeal
import proofs.«179717_j59854664237638_2_alg».proof.Proof.Gen.ReferenceIdeal
import proofs.«179717_j59854664237638_2_alg».proof.Proof.Gen.ReferenceIdeal.Run
import proofs.«179717_j59854664237638_2_alg».proof.Proof.Gen.ReferenceIdeal.Read
import proofs.«179717_j59854664237638_2_alg».proof.Proof.KRun
import proofs.«179717_j59854664237638_2_alg».proof.Proof.KRegions
import proofs.«179717_j59854664237638_2_alg».proof.Proof.KHost
import proofs.«179717_j59854664237638_2_alg».proof.Proof.RefValue
import proofs.«179717_j59854664237638_2_alg».proof.Proof.RefValueA
import proofs.«179717_j59854664237638_2_alg».proof.Proof.Bridge
import proofs.«179717_j59854664237638_2_alg».proof.Proof.PreDecode

noncomputable section

namespace Cert.Proof.Value

open Idealize.ShloMosaic Idealize.ShloMosaic.ValueIdx Idealize.SL.Sem Cert.LibReal

/-! ## The two results over abstract arrays -/

/-- The b nodes: the reference's result is the kernel's host arithmetic of an array `y0` that is the product `x0 · x2`. -/
theorem outB_eq (x0 : FVec Ideal Cert.KernelIdeal.S100000x128 .f32) (x2 : FVec Ideal Cert.KernelIdeal.S128x128 .f32)
    (x5 x6 : IVec Cert.KernelIdeal.S1000000 32) (y0 : FVec Ideal Cert.KernelIdeal.S100000x128 .bf16)
    (hy : ∀ i k, y0 (ix2 i k) = Cert.Conv.matProd (N := 100000) (D := 128) (C := 128) x0 x2 i k)
    (hx0 : ∀ i, IsReal (x0 i)) (hx2 : ∀ i, IsReal (x2 i))
    (hs : ∀ i, 0 ≤ (x5 i).toInt ∧ (x5 i).toInt < (100000 : ℤ)) :
    Cert.ReferenceIdeal.Read.val_main_v115 (F := Ideal) x0 x2 x5 x6 = Cert.KernelIdeal.HostValue.resB (F := Ideal) y0 x5 x6 := by
  funext j
  obtain ⟨t, k, rfl⟩ : ∃ (t : Fin 50000) (k : Fin 128), j = ix2 t k := ⟨j 0, j 1, eq_ix2 j⟩
  rw [Cert.ReferenceIdeal.RefValue.outB_apply, Cert.KernelIdeal.HostValue.resB_apply]
  exact congrArg Cert.Conv.outOne
    (Cert.Conv.fact_eq_quot (by decide) (by decide) 100000#32 50000#32 x0 x2 y0 hy hx0 hx2 _ _ (fun e => hs (ix1 e)) t k).symm

/-- The a nodes: the same for the mean of the two edge types that feed them. -/
theorem outA_eq (x0 : FVec Ideal Cert.KernelIdeal.S100000x128 .f32) (x1 : FVec Ideal Cert.KernelIdeal.S50000x128 .f32)
    (x3 x4 : FVec Ideal Cert.KernelIdeal.S128x128 .f32) (x7 x8 x9 x10 : IVec Cert.KernelIdeal.S1000000 32)
    (y1 : FVec Ideal Cert.KernelIdeal.S50000x128 .bf16) (y2 : FVec Ideal Cert.KernelIdeal.S100000x128 .bf16)
    (hy1 : ∀ i k, y1 (ix2 i k) = Cert.Conv.matProd (N := 50000) (D := 128) (C := 128) x1 x3 i k)
    (hy2 : ∀ i k, y2 (ix2 i k) = Cert.Conv.matProd (N := 100000) (D := 128) (C := 128) x0 x4 i k)
    (hx0 : ∀ i, IsReal (x0 i)) (hx1 : ∀ i, IsReal (x1 i)) (hx3 : ∀ i, IsReal (x3 i)) (hx4 : ∀ i, IsReal (x4 i))
    (hs7 : ∀ i, 0 ≤ (x7 i).toInt ∧ (x7 i).toInt < (50000 : ℤ))
    (hs9 : ∀ i, 0 ≤ (x9 i).toInt ∧ (x9 i).toInt < (100000 : ℤ)) :
    Cert.ReferenceIdeal.Read.val_main_v114 (F := Ideal) x0 x1 x3 x4 x7 x8 x9 x10
      = Cert.KernelIdeal.HostValue.resA (F := Ideal) y1 y2 x7 x8 x9 x10 := by
  funext j
  obtain ⟨t, k, rfl⟩ : ∃ (t : Fin 100000) (k : Fin 128), j = ix2 t k := ⟨j 0, j 1, eq_ix2 j⟩
  rw [Cert.ReferenceIdeal.RefValueA.outA_apply, Cert.KernelIdeal.HostValue.resA_apply]
  exact congrArg₂ Cert.Conv.outTwo
    (Cert.Conv.fact_eq_quot (by decide) (by decide) 50000#32 100000#32 x1 x3 y1 hy1 hx1 hx3 _ _ (fun e => hs7 (ix1 e)) t k).symm
    (Cert.Conv.fact_eq_quot (by decide) (by decide) 100000#32 100000#32 x0 x4 y2 hy2 hx0 hx4 _ _ (fun e => hs9 (ix1 e)) t k).symm

/-! ## What each projection region leaves, in terms of the launch arrays -/

open Cert.KernelIdeal Cert.KernelIdeal.Gen Cert.KernelIdeal.RunValue Cert.KernelIdeal.RegionValue in
theorem y0_eq (m : (ℓ : Loc nD τ sig) → Buf (Elt Ideal) ℓ) (ρ : Dev nD → PrngReg) (c : Dev nD) (i : Fin 100000) (k : Fin 128) :
    y0 m ρ c (ix2 i k) = Cert.Conv.matProd (N := 100000) (D := 128) (C := 128)
      (m ((c.tc : Thread nD τ).loc main_arg0)) (m ((c.tc : Thread nD τ).loc main_arg2)) i k :=
  region0_apply (V0 m ρ) c i k

open Cert.KernelIdeal Cert.KernelIdeal.Gen Cert.KernelIdeal.RunValue Cert.KernelIdeal.RegionValue in
theorem y1_eq (m : (ℓ : Loc nD τ sig) → Buf (Elt Ideal) ℓ) (ρ : Dev nD → PrngReg) (c : Dev nD) (i : Fin 50000) (k : Fin 128) :
    y1 m ρ c (ix2 i k) = Cert.Conv.matProd (N := 50000) (D := 128) (C := 128)
      (m ((c.tc : Thread nD τ).loc main_arg1)) (m ((c.tc : Thread nD τ).loc main_arg3)) i k := by
  refine (region1_apply (V2 m ρ) c i k).trans ?_
  show Cert.Conv.matProd (V2 m ρ c main_arg1) (V2 m ρ c main_arg3) i k = _
  rw [V2_arg1, V2_arg3]

open Cert.KernelIdeal Cert.KernelIdeal.Gen Cert.KernelIdeal.RunValue Cert.KernelIdeal.RegionValue in
theorem y2_eq (m : (ℓ : Loc nD τ sig) → Buf (Elt Ideal) ℓ) (ρ : Dev nD → PrngReg) (c : Dev nD) (i : Fin 100000) (k : Fin 128) :
    y2 m ρ c (ix2 i k) = Cert.Conv.matProd (N := 100000) (D := 128) (C := 128)
      (m ((c.tc : Thread nD τ).loc main_arg0)) (m ((c.tc : Thread nD τ).loc main_arg4)) i k := by
  refine (region2_apply (V4 m ρ) c i k).trans ?_
  show Cert.Conv.matProd (V4 m ρ c main_arg0) (V4 m ρ c main_arg4) i k = _
  rw [V4_arg0, V4_arg4]

/-! ## The claim -/

theorem algebraic : Cert.algebraic_KernelIdeal_ReferenceIdeal := by
  intro m ρ m' ρ' hpre hagree
  refine ⟨_, _, Cert.KernelIdeal.RunValue.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10⟩ := hagree c
  obtain ⟨r0, r1, r2, r3, r4, s5, s7, s9⟩ := Cert.PreDecode.decode _ _ _ _ _ _ _ _ _ _ _ (hpre c)
  refine ⟨(h c).1.trans ?_, (h c).2.1.trans ?_, (h c).2.2⟩
  · rw [Cert.ReferenceIdeal.Read.val_main_v114_eq, a0, a1, a3, a4, a7, a8, a9, a10]
    exact outA_eq _ _ _ _ _ _ _ _ _ _ (y1_eq m ρ c) (y2_eq m ρ c) r0 r1 r3 r4 s7 s9
  · rw [Cert.ReferenceIdeal.Read.val_main_v115_eq, a0, a2, a5, a6]
    exact outB_eq _ _ _ _ _ (y0_eq m ρ c) r0 r2 s5

end Cert.Proof.Value

end
-- ==== Proof.lean ====
/-
  The certificate: a heterogeneous graph convolution over three edge types, its three dense projections on the
  TensorCore, against the plain reference.

  * The three frames. The kernel programs' are their generated frame certificates (three regions among stretches of
    host operations); the reference has no kernel, and its frame is its run with the results dropped.
  * Nothing was rewritten when the kernel was read at the extended reals, so the kernel at the extended reals is
    the kernel's own text: `preserves` asks nothing.
  * The value claim. Each projection region leaves the rows-by-columns product of its two argument arrays; the host
    arithmetic around them is the factored form of the degree-normalised sum, the reference's the quotient form; the
    two forms agree because the precondition makes every float entry real and puts every source index word in range.
-/
import proofs.«179717_j59854664237638_2_alg».proof.Defs
import proofs.«179717_j59854664237638_2_alg».proof.Proof.Gen.Kernel
import proofs.«179717_j59854664237638_2_alg».proof.Proof.Gen.Kernel.Skeleton
import proofs.«179717_j59854664237638_2_alg».proof.Proof.Gen.Kernel.Launch
import proofs.«179717_j59854664237638_2_alg».proof.Proof.Gen.Kernel.Points
import proofs.«179717_j59854664237638_2_alg».proof.Proof.Gen.Kernel.Frame
import proofs.«179717_j59854664237638_2_alg».proof.Proof.Gen.KernelIdeal
import proofs.«179717_j59854664237638_2_alg».proof.Proof.Gen.KernelIdeal.Skeleton
import proofs.«179717_j59854664237638_2_alg».proof.Proof.Gen.KernelIdeal.Launch
import proofs.«179717_j59854664237638_2_alg».proof.Proof.Gen.KernelIdeal.Points
import proofs.«179717_j59854664237638_2_alg».proof.Proof.Gen.KernelIdeal.Frame
import proofs.«179717_j59854664237638_2_alg».proof.Proof.Gen.ReferenceIdeal
import proofs.«179717_j59854664237638_2_alg».proof.Proof.Gen.Pre_finite_inputs
import proofs.«179717_j59854664237638_2_alg».proof.Proof.Gen.ReferenceIdeal.Run
import proofs.«179717_j59854664237638_2_alg».proof.Proof.Gen.ReferenceIdeal.Read
import proofs.«179717_j59854664237638_2_alg».proof.Proof.Algebraic
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, frame_ri, preserves, Cert.Proof.Value.algebraic⟩

end Cert.Proof

end
